-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part7 {F : FTy → Type} [FloatOps F] (main_arg26 : FVec F S16 .f32) (main_v118 : IVec S_ 1) (main_v119 : FVec F S128x16 .f32) : IVec S_ 1 :=
  let main_cst_46 : FVec F S_ .f32 := constant S_ .f32 0x7F800000#32
  let main_v120 : FVec F S128x16 .f32 := broadcastInDim S128x16 ![] bcast_S_S128x16 main_cst_46
  let main_v121 : IVec S128x16 1 := cmpf .olt main_v119 main_v120
  let main_c_47 : IVec S_ 1 := constantI S_ 1 1#1
  let main_v122 : IVec S_ 1 := (fun x v => Host.reduce IntOp.andi x v reducesTo_S128x16_S_d0_1 h_S_) main_v121 main_c_47
  let main_v123 : IVec S_ 1 := andi main_v118 main_v122
  let main_v124 : FVec F S16 .f32 := Host.absf main_arg26
  let main_cst_48 : FVec F S_ .f32 := constant S_ .f32 0x7F800000#32
  let main_v125 : FVec F S16 .f32 := broadcastInDim S16 ![] bcast_S_S16 main_cst_48
  let main_v126 : IVec S16 1 := cmpf .olt main_v124 main_v125
  let main_c_49 : IVec S_ 1 := constantI S_ 1 1#1
  let main_v127 : IVec S_ 1 := (fun x v => Host.reduce IntOp.andi x v reducesTo_S16_S_d0 h_S_) main_v126 main_c_49
  let main_v128 : IVec S_ 1 := andi main_v123 main_v127
  main_v128

def fn_part6 {F : FTy → Type} [FloatOps F] (main_arg22 : FVec F S128 .f32) (main_arg23 : FVec F S128x128 .f32) (main_arg24 : FVec F S128 .f32) (main_arg25 : FVec F S128x16 .f32) (main_arg26 : FVec F S16 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg23
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x16 .f32 := Host.absf main_arg25
  fn_part7 (F := F) main_arg26 main_v118 main_v119

def fn_part5 {F : FTy → Type} [FloatOps F] (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128x16 .f32) (main_arg26 : FVec F S16 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_arg24 main_arg25 main_arg26 main_v98 main_v101 main_c_39

def fn_part4 {F : FTy → Type} [FloatOps F] (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128x16 .f32) (main_arg26 : FVec F S16 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_arg20 main_arg21 main_arg22 main_arg23 main_arg24 main_arg25 main_arg26 main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128x16 .f32) (main_arg26 : FVec F S16 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_arg24 main_arg25 main_arg26 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128x16 .f32) (main_arg26 : FVec F S16 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128x16 .f32) (main_arg26 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128x128 .f32) (main_arg24 : FVec F S128 .f32) (main_arg25 : FVec F S128x16 .f32) (main_arg26 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩
abbrev S1x16 : Shape := ⟨2, ![1, 16]⟩
abbrev S100000x16 : Shape := ⟨2, ![100000, 16]⟩
abbrev S4000x16 : Shape := ⟨2, ![4000, 16]⟩

abbrev nBuf : Space → Nat
  | .hbm => 124
  | .vmem => 49
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128x128, .f32⟩
  | .hbm, ⟨24, _⟩ => ⟨S128, .f32⟩
  | .hbm, ⟨25, _⟩ => ⟨S128x16, .f32⟩
  | .hbm, ⟨26, _⟩ => ⟨S16, .f32⟩
  | .hbm, ⟨27, _⟩ => ⟨S1x1600000, .i32⟩
  | .hbm, ⟨28, _⟩ => ⟨S1600000, .i32⟩
  | .hbm, ⟨29, _⟩ => ⟨S1x1600000, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .i32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000, .i32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S100000x128, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S100000x128, .f32⟩
  | .hbm, ⟨103, _⟩ => ⟨S_, .i32⟩
  | .hbm, ⟨104, _⟩ => ⟨S1600000, .i32⟩
  | .hbm, ⟨105, _⟩ => ⟨S1600000, .i1⟩
  | .hbm, ⟨106, _⟩ => ⟨S_, .i32⟩
  | .hbm, ⟨107, _⟩ => ⟨S1600000, .i32⟩
  | .hbm, ⟨108, _⟩ => ⟨S1600000, .i32⟩
  | .hbm, ⟨109, _⟩ => ⟨S1600000, .i32⟩
  | .hbm, ⟨110, _⟩ => ⟨S1600000x1, .i32⟩
  | .hbm, ⟨111, _⟩ => ⟨S1600000x128, .f32⟩
  | .hbm, ⟨112, _⟩ => ⟨S_, .f32⟩
  | .hbm, ⟨113, _⟩ => ⟨S100000x128, .f32⟩
  | .hbm, ⟨114, _⟩ => ⟨S1600000x1, .i32⟩
  | .hbm, ⟨115, _⟩ => ⟨S100000x128, .f32⟩
  | .hbm, ⟨116, _⟩ => ⟨S1x128, .f32⟩
  | .hbm, ⟨117, _⟩ => ⟨S1x128, .f32⟩
  | .hbm, ⟨118, _⟩ => ⟨S1x128, .f32⟩
  | .hbm, ⟨119, _⟩ => ⟨S1x128, .f32⟩
  | .hbm, ⟨120, _⟩ => ⟨S1x128, .f32⟩
  | .hbm, ⟨121, _⟩ => ⟨S1x128, .f32⟩
  | .hbm, ⟨122, _⟩ => ⟨S1x16, .f32⟩
  | .hbm, ⟨123, _⟩ => ⟨S100000x16, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x1, .f32⟩
  | .local _ .vmem, ⟨18, _⟩ => ⟨S4000x1, .f32⟩
  | .local _ .vmem, ⟨19, _⟩ => ⟨S4000x128, .f32⟩
  | .local _ .vmem, ⟨20, _⟩ => ⟨S4000x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x1, .f32⟩
  | .local _ .vmem, ⟨33, _⟩ => ⟨S4000x1, .f32⟩
  | .local _ .vmem, ⟨34, _⟩ => ⟨S4000x128, .f32⟩
  | .local _ .vmem, ⟨35, _⟩ => ⟨S4000x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S128x128, .f32⟩
  | .local _ .vmem, ⟨44, _⟩ => ⟨S1x128, .f32⟩
  | .local _ .vmem, ⟨45, _⟩ => ⟨S128x16, .f32⟩
  | .local _ .vmem, ⟨46, _⟩ => ⟨S1x16, .f32⟩
  | .local _ .vmem, ⟨47, _⟩ => ⟨S4000x16, .f32⟩
  | .local _ .vmem, ⟨48, _⟩ => ⟨S4000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_call0_v0 : Ref sig .tc := ⟨.hbm, 31, rfl⟩
abbrev main_call0_v1_0 : Ref sig .tc := ⟨.hbm, 32, rfl⟩
abbrev main_v4 : Ref sig .tc := ⟨.hbm, 33, rfl⟩
abbrev main_c : Ref sig .tc := ⟨.hbm, 34, rfl⟩
abbrev main_v5 : Ref sig .tc := ⟨.hbm, 35, rfl⟩
abbrev main_v6 : Ref sig .tc := ⟨.hbm, 36, rfl⟩
abbrev main_c_0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_c_1 : Ref sig .tc := ⟨.hbm, 43, rfl⟩
abbrev main_v12 : Ref sig .tc := ⟨.hbm, 44, rfl⟩
abbrev main_v13 : Ref sig .tc := ⟨.hbm, 45, rfl⟩
abbrev main_c_2 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst : Ref sig .tc := ⟨.hbm, 52, rfl⟩
abbrev main_v19 : Ref sig .tc := ⟨.hbm, 53, rfl⟩
abbrev main_cst_3 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_4 : Ref sig .tc := ⟨.hbm, 58, rfl⟩
abbrev main_v23 : Ref sig .tc := ⟨.hbm, 59, rfl⟩
abbrev main_v24 : Ref sig .tc := ⟨.hbm, 60, rfl⟩
abbrev main_cst_5 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_c_6 : Ref sig .tc := ⟨.hbm, 65, rfl⟩
abbrev main_v28 : Ref sig .tc := ⟨.hbm, 66, rfl⟩
abbrev main_v29 : Ref sig .tc := ⟨.hbm, 67, rfl⟩
abbrev main_c_7 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_8 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_c_9 : Ref sig .tc := ⟨.hbm, 84, rfl⟩
abbrev main_v44 : Ref sig .tc := ⟨.hbm, 85, rfl⟩
abbrev main_v45 : Ref sig .tc := ⟨.hbm, 86, rfl⟩
abbrev main_c_10 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_11 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_c_12 : Ref sig .tc := ⟨.hbm, 103, rfl⟩
abbrev main_v60 : Ref sig .tc := ⟨.hbm, 104, rfl⟩
abbrev main_v61 : Ref sig .tc := ⟨.hbm, 105, rfl⟩
abbrev main_c_13 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_14 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg9_0 : Ref sig .tc := ⟨.vmem, 42, rfl⟩
abbrev cc2_stg10_0 : Ref sig .tc := ⟨.vmem, 43, rfl⟩
abbrev cc2_stg11_0 : Ref sig .tc := ⟨.vmem, 44, rfl⟩
abbrev cc2_stg12_0 : Ref sig .tc := ⟨.vmem, 45, rfl⟩
abbrev cc2_stg13_0 : Ref sig .tc := ⟨.vmem, 46, rfl⟩
abbrev cc2_stg14_0 : Ref sig .tc := ⟨.vmem, 47, rfl⟩
abbrev cc2_stg14_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem8_0 : DmaSem sig := 41
abbrev cc2_sem9_0 : DmaSem sig := 42
abbrev cc2_sem10_0 : DmaSem sig := 43
abbrev cc2_sem11_0 : DmaSem sig := 44
abbrev cc2_sem12_0 : DmaSem sig := 45
abbrev cc2_sem13_0 : DmaSem sig := 46
abbrev cc2_sem14_0 : DmaSem sig := 47
abbrev cc2_sem14_1 : DmaSem sig := 48

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x16 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x16 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 2 → Memref sig .tc .vmem S4000x16 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  gather_S1600000_S1600000x1_S1600000_n_0_n_n_0_1_1_wf : GatherDims.WF S1600000 S1600000x1 S1600000 [] [0] [] [0] [] 1 ![1]
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x16_S4000x16_1_0_0_1_n_n_wf : DotDims.WF S4000x128 S128x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x128.size a ≤ S100000x128.size a
  hwx0_10 : ∀ i : grid0.Coords, EltTy.bits .f32 = 32 ∨ (Rect.block (s := S100000x128) S4000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4000x128.size a ≤ S100000x128.size a
  hwx1_10 : ∀ i : grid1.Coords, EltTy.bits .f32 = 32 ∨ (Rect.block (s := S100000x128) S4000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x128.size a ≤ S128x128.size a
  hwx2_10 : ∀ i : grid2.Coords, EltTy.bits .f32 = 32 ∨ (Rect.block (s := S128x128) S128x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128x16.size a ≤ S128x16.size a
  hwx2_12 : ∀ i : grid2.Coords, EltTy.bits .f32 = 32 ∨ (Rect.block (s := S128x16) S128x16.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x16.size a ≤ S1x16.size a
  hwx2_13 : ∀ i : grid2.Coords, EltTy.bits .f32 = 32 ∨ (Rect.block (s := S1x16) S1x16.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S4000x16.size a ≤ S100000x16.size a
  hwx2_14 : ∀ i : grid2.Coords, EltTy.bits .f32 = 32 ∨ (Rect.block (s := S100000x16) S4000x16.size (cc2_transform_14 i) (hinb2_14 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S1600000_S1600000x1_S1600000_n_0_n_n_0_1_1 : GatherDims S1600000 S1600000x1 S1600000 where
  offsetDims := []
  collapsedSliceDims := [0]
  operandBatchingDims := []
  startIndicesBatchingDims := []
  startIndexMap := [0]
  indexVectorDim := 1
  sliceSizes := ![1]
  wf := gather_S1600000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf

abbrev win0_0 : Pipeline.Window sig grid0 :=
  Pipeline.Window.ofSpec (Memref.whole main_v37) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v43) S4000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v53) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v56) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v57) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v58) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v59) S4000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v69) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg18) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v72) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v73) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v74) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg23) S128x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v75) S1x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg25) S128x16.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v76) S1x16.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v77) S4000x16.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x16 : Shape := ⟨2, ![100000, 16]⟩
abbrev S1x16 : Shape := ⟨2, ![1, 16]⟩

abbrev nBuf : Space → Nat
  | .hbm => 189
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128, .f32⟩
  | 21 => ⟨S128, .f32⟩
  | 22 => ⟨S128, .f32⟩
  | 23 => ⟨S128x128, .f32⟩
  | 24 => ⟨S128, .f32⟩
  | 25 => ⟨S128x16, .f32⟩
  | 26 => ⟨S16, .f32⟩
  | 27 => ⟨S1x1600000, .i32⟩
  | 28 => ⟨S1600000, .i32⟩
  | 29 => ⟨S1x1600000, .i32⟩
  | 30 => ⟨S1600000, .i32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x128, .f32⟩
  | 40 => ⟨S_, .f32⟩
  | 41 => ⟨S100000x128, .f32⟩
  | 42 => ⟨S1600000x1, .i32⟩
  | 43 => ⟨S100000x128, .f32⟩
  | 44 => ⟨S_, .f32⟩
  | 45 => ⟨S1600000x1, .f32⟩
  | 46 => ⟨S_, .f32⟩
  | 47 => ⟨S100000x1, .f32⟩
  | 48 => ⟨S1600000x1, .i32⟩
  | 49 => ⟨S100000x1, .f32⟩
  | 50 => ⟨S_, .f32⟩
  | 51 => ⟨S100000x1, .f32⟩
  | 52 => ⟨S100000x1, .f32⟩
  | 53 => ⟨S100000x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S128, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S_, .f32⟩
  | 94 => ⟨S1600000x1, .f32⟩
  | 95 => ⟨S_, .f32⟩
  | 96 => ⟨S100000x1, .f32⟩
  | 97 => ⟨S1600000x1, .i32⟩
  | 98 => ⟨S100000x1, .f32⟩
  | 99 => ⟨S_, .f32⟩
  | 100 => ⟨S100000x1, .f32⟩
  | 101 => ⟨S100000x1, .f32⟩
  | 102 => ⟨S100000x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S128, .f32⟩
  | 115 => ⟨S128, .f32⟩
  | 116 => ⟨S128, .f32⟩
  | 117 => ⟨S1x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x128, .f32⟩
  | 10 => ⟨S_, .f32⟩
  | 11 => ⟨S100000x128, .f32⟩
  | 12 => ⟨S1600000x1, .i32⟩
  | 13 => ⟨S100000x128, .f32⟩
  | 14 => ⟨S_, .f32⟩
  | 15 => ⟨S1600000x1, .f32⟩
  | 16 => ⟨S_, .f32⟩
  | 17 => ⟨S100000x1, .f32⟩
  | 18 => ⟨S1600000x1, .i32⟩
  | 19 => ⟨S100000x1, .f32⟩
  | 20 => ⟨S_, .f32⟩
  | 21 => ⟨S100000x1, .f32⟩
  | 22 => ⟨S100000x1, .f32⟩
  | 23 => ⟨S100000x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S128, .f32⟩
  | 36 => ⟨S128, .f32⟩
  | 37 => ⟨S128, .f32⟩
  | 38 => ⟨S1x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S100000x16, .f32⟩
  | 58 => ⟨S1x16, .f32⟩
  | 59 => ⟨S100000x16, .f32⟩
  | 60 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_1 : Ref sig .tc := ⟨.hbm, 44, rfl⟩
abbrev main_v14 : Ref sig .tc := ⟨.hbm, 45, rfl⟩
abbrev main_cst_2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_4 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_call0_cst : Ref sig .tc := ⟨.hbm, 77, rfl⟩
abbrev main_call0_v0 : Ref sig .tc := ⟨.hbm, 78, rfl⟩
abbrev main_v43 : Ref sig .tc := ⟨.hbm, 79, rfl⟩
abbrev main_c_5 : Ref sig .tc := ⟨.hbm, 80, rfl⟩
abbrev main_v44 : Ref sig .tc := ⟨.hbm, 81, rfl⟩
abbrev main_v45 : Ref sig .tc := ⟨.hbm, 82, rfl⟩
abbrev main_c_6 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_7 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_8 : Ref sig .tc := ⟨.hbm, 93, rfl⟩
abbrev main_v54 : Ref sig .tc := ⟨.hbm, 94, rfl⟩
abbrev main_cst_9 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_10 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_11 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_call1_cst : Ref sig .tc := ⟨.hbm, 126, rfl⟩
abbrev main_call1_v0 : Ref sig .tc := ⟨.hbm, 127, rfl⟩
abbrev main_v83 : Ref sig .tc := ⟨.hbm, 128, rfl⟩
abbrev main_c_12 : Ref sig .tc := ⟨.hbm, 129, rfl⟩
abbrev main_v84 : Ref sig .tc := ⟨.hbm, 130, rfl⟩
abbrev main_v85 : Ref sig .tc := ⟨.hbm, 131, rfl⟩
abbrev main_c_13 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_14 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_15 : Ref sig .tc := ⟨.hbm, 142, rfl⟩
abbrev main_v94 : Ref sig .tc := ⟨.hbm, 143, rfl⟩
abbrev main_cst_16 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_17 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_18 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_call2_cst : Ref sig .tc := ⟨.hbm, 175, rfl⟩
abbrev main_call2_v0 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_call3_cst : Ref sig .tc := ⟨.hbm, 182, rfl⟩
abbrev main_call3_v0 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KernelRun.lean ====
/-
  The idealized kernel's run with its result named: every weakly fair execution of the program terminates without a fault,
  the result array ends at the contents the fold through the program's segments gives it (three stretches of host
  operations, then alternately a tiled region and a stretch of host operations), and the arguments end as launched.
-/
import proofs.«164375_j16853451669719_2_alg».proof.Proof.Gen.KernelIdeal.Frame

set_option maxRecDepth 16384

noncomputable section

namespace Cert.KernelIdeal.Gen.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: termination, no fault, the result array at the last boundary's contents, and the
    arguments unchanged. -/
theorem run_value : θ_run defs (onTc (τ := τ) (main (F := F))) ⟨m, fun _ => 0, ρ⟩ (fun r => ∀ c : Dev nD,
      r.2.mem ((c.tc : Thread nD τ).loc main_v77) = W8 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v77 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c),
       (h c _ (mem_uc main_arg22 (by decide))).trans (W8_main_arg22 m ρ c),
       (h c _ (mem_uc main_arg23 (by decide))).trans (W8_main_arg23 m ρ c),
       (h c _ (mem_uc main_arg24 (by decide))).trans (W8_main_arg24 m ρ c),
       (h c _ (mem_uc main_arg25 (by decide))).trans (W8_main_arg25 m ρ c),
       (h c _ (mem_uc main_arg26 (by decide))).trans (W8_main_arg26 m ρ c)⟩)

end Cert.KernelIdeal.Gen.Named

end
-- ==== Proof.LibRows.lean ====
/-
  Rows of a table gathered at, and accumulated into, integer row numbers.

  `x[idx]` of a table `x : [N, C]` (or `[N]`) at row numbers `idx : [E, 1]` reads, for edge `e`, the row whose number is
  `idx[e, 0]` read as a signed integer and clamped into `[0, N − 1]` (`rowOf`). A `segment_sum` of messages `upd : [E, C]`
  (or `[E]`) at row numbers `idx` adds, into row `d`, the messages of exactly those edges `e` whose number `idx[e, 0]`, read
  signed and NOT clamped, is `d` (`edgesInto`): an edge whose number is outside `[0, N)` is dropped. The three sums of
  one program — onto `[N]`, onto `[N, C]` for each width — run over the SAME set of edges, and for an edge of that set the
  clamped row is `d` itself.
-/
import Idealize.ShloMosaic.PureOps.Ideal
import Idealize.ShloMosaic.Lib.ValueIdx

noncomputable section

namespace Cert.Lib.Rows

open Idealize.ShloMosaic Idealize.ShloMosaic.ValueIdx

/-- The row a gather's start index selects: the word read signed, clamped into `[0, N − 1]`. -/
def rowOf (N : Nat) (hN : 0 < N) {w : Nat} (v : BitVec w) : Fin N := ⟨min v.toInt.toNat (N - 1), by omega⟩

/-- The edges a scatter sends to row `d`: those whose row number, read signed, is `d`. -/
def edgesInto {N E w : Nat} (idx : IVec ⟨2, ![E, 1]⟩ w) (d : Fin N) : Finset (Fin E) :=
  Finset.univ.filter fun e => (idx (ix2 e (0 : Fin 1))).toInt = (d.val : Int)

theorem mem_edgesInto {N E w : Nat} (idx : IVec ⟨2, ![E, 1]⟩ w) (d : Fin N) (e : Fin E) :
    e ∈ edgesInto idx d ↔ (idx (ix2 e (0 : Fin 1))).toInt = (d.val : Int) := by
  simp [edgesInto]

/-- For an edge sent to row `d`, the clamped row of the same number is `d`. -/
theorem rowOf_of_toInt {N : Nat} (hN : 0 < N) {w : Nat} (v : BitVec w) (d : Fin N) (h : v.toInt = (d.val : Int)) :
    rowOf N hN v = d := by
  apply Fin.ext
  show min v.toInt.toNat (N - 1) = d.val
  rw [h, Int.toNat_natCast]
  have := d.isLt
  omega

/-! ## Gathers -/

/-- The dimension numbers of `x[idx]` for a table `[N, C]` at row numbers `[E, 1]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gathered row, read at edge `e` and column `k`: the table at the clamped row of `idx[e, 0]`, column `k`. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k) = x (ix2 (rowOf N hN (idx (ix2 e (0 : Fin 1)))) k) := by
  unfold Host.gather
  congr 1
  funext a
  refine Fin.ext ?_
  match a with
  | ⟨0, _⟩ =>
    show (gatherRowsDims N E C wf).start (ix2 e k) idx 0 + (gatherRowsDims N E C wf).batchCoord (ix2 e k) 0
      + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
      + (gatherRowsDims N E C wf).offCoord (ix2 e k) 1 = k.val
    rw [GatherDims.batchCoord_eq_zero _ _ _ List.not_mem_nil]
    have hs : (gatherRowsDims N E C wf).start (ix2 e k) idx 1 = 0 := by
      unfold GatherDims.start
      rw [dif_neg (show (1 : Fin 2) ∉ ([0] : List (Fin 2)) by decide)]
    rw [hs]
    have ho : (gatherRowsDims N E C wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [ho]
    omega

/-- The dimension numbers of `x[idx]` for a flat table `[N]` at row numbers `[E, 1]`. -/
abbrev gatherEltsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gathered element, read at edge `e`: the table at the clamped row of `idx[e, 0]`. -/
theorem gatherElts_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherEltsDims N E wf) x idx (ix1 e) = x (ix1 (rowOf N hN (idx (ix2 e (0 : Fin 1))))) := by
  unfold Host.gather
  congr 1
  funext a
  obtain rfl : a = 0 := Subsingleton.elim _ _
  refine Fin.ext ?_
  show (gatherEltsDims N E wf).start (ix1 e) idx 0 + (gatherEltsDims N E wf).batchCoord (ix1 e) 0
    + (gatherEltsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherEltsDims N E wf).startIndexMap from List.mem_singleton.mpr rfl)]
  have hsi : (gatherEltsDims N E wf).siIdx (ix1 e) ⟨List.idxOf (0 : Fin 1) (gatherEltsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating scatters -/

/-- An axis is kept exactly when it is not listed. -/
theorem mem_kept {s : Shape} (axes : List (Fin s.rank)) (a : Fin s.rank) : a ∈ s.kept axes ↔ a ∉ axes := by
  simp [Shape.kept, List.mem_filter, List.mem_finRange]

/-- The dimension numbers of a `segment_sum` of rows `[E, C]` into `[N, C]` at row numbers `[E, 1]`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis an update starts at its edge's row number, read signed. -/
theorem scatterRows_start0 : (scatterRowsDims N E C wf).start (ix2 e k) idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e k) ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero … -/
theorem scatterRows_start1 : (scatterRowsDims N E C wf).start (ix2 e k) idx 1 = 0 := by
  unfold ScatterDims.start
  rw [dif_neg (show (1 : Fin 2) ∉ ([0] : List (Fin 2)) by decide)]

/-- … the row axis has no window coordinate … -/
theorem scatterRows_window0 : (scatterRowsDims N E C wf).window (ix2 e k) 0 = 0 := by
  unfold ScatterDims.window
  rw [dif_neg (fun h => ((mem_kept _ _).mp h) (List.mem_singleton.mpr rfl))]

/-- … and the column axis has the update's column. -/
theorem scatterRows_window1 : (scatterRowsDims N E C wf).window (ix2 e k) 1 = k.val := by
  unfold ScatterDims.window
  rw [dif_pos ((mem_kept _ _).mpr (show (1 : Fin 2) ∉ ([0] : List (Fin 2)) by decide))]
  rfl

/-- WHERE AN UPDATE LANDS: update `(e, k)` lands on element `(d, k')` exactly when edge `e`'s row number, read signed,
    is `d` and the columns agree. -/
theorem scatterRows_resultIdx_iff (d : Fin N) (k' : Fin C) :
    (scatterRowsDims N E C wf).resultIdx? (ix2 e k) idx = some (ix2 d k')
      ↔ (idx (ix2 e (0 : Fin 1))).toInt = (d.val : Int) ∧ k = k' := by
  unfold ScatterDims.resultIdx?
  constructor
  · intro h
    by_cases hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a
    · rw [dif_pos hb] at h
      have hf := Option.some.inj h
      have h0 : ((scatterRowsDims N E C wf).start (ix2 e k) idx 0 + ((scatterRowsDims N E C wf).window (ix2 e k) 0 : Nat)).toNat = d.val :=
        congrArg Fin.val (congrFun hf 0)
      have h1 : ((scatterRowsDims N E C wf).start (ix2 e k) idx 1 + ((scatterRowsDims N E C wf).window (ix2 e k) 1 : Nat)).toNat = k'.val :=
        congrArg Fin.val (congrFun hf 1)
      have hb0 := (hb 0).1
      rw [scatterRows_start0, scatterRows_window0] at h0 hb0
      rw [scatterRows_start1, scatterRows_window1] at h1
      exact ⟨by omega, Fin.ext (by omega)⟩
    · rw [dif_neg hb] at h
      exact absurd h (by simp)
  · rintro ⟨hv, rfl⟩
    have hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a := by
      intro a
      match a with
      | ⟨0, _⟩ =>
        show 0 ≤ (scatterRowsDims N E C wf).start (ix2 e k) idx 0 + ((scatterRowsDims N E C wf).window (ix2 e k) 0 : Nat)
          ∧ (scatterRowsDims N E C wf).start (ix2 e k) idx 0 + ((scatterRowsDims N E C wf).window (ix2 e k) 0 : Nat) < (N : Int)
        rw [scatterRows_start0, scatterRows_window0, hv]
        have := d.isLt
        omega
      | ⟨1, _⟩ =>
        show 0 ≤ (scatterRowsDims N E C wf).start (ix2 e k) idx 1 + ((scatterRowsDims N E C wf).window (ix2 e k) 1 : Nat)
          ∧ (scatterRowsDims N E C wf).start (ix2 e k) idx 1 + ((scatterRowsDims N E C wf).window (ix2 e k) 1 : Nat) < (C : Int)
        rw [scatterRows_start1, scatterRows_window1]
        have := k.isLt
        omega
    rw [dif_pos hb]
    refine congrArg some (funext fun a => Fin.ext ?_)
    match a with
    | ⟨0, _⟩ =>
      show ((scatterRowsDims N E C wf).start (ix2 e k) idx 0 + ((scatterRowsDims N E C wf).window (ix2 e k) 0 : Nat)).toNat = d.val
      rw [scatterRows_start0, scatterRows_window0, hv]
      omega
    | ⟨1, _⟩ =>
      show ((scatterRowsDims N E C wf).start (ix2 e k) idx 1 + ((scatterRowsDims N E C wf).window (ix2 e k) 1 : Nat)).toNat = k.val
      rw [scatterRows_start1, scatterRows_window1]
      omega

/-- A `segment_sum` into `[N, C]`, read at `(d, k)`: what was there plus the messages, at column `k`, of the edges sent to
    row `d`. -/
theorem scatterAddRows_apply (x : (⟨2, ![N, C]⟩ : Shape).Idx → EReal) (upd : (⟨2, ![E, C]⟩ : Shape).Idx → EReal) (d : Fin N) :
    Ideal.hostScatterAdd (scatterRowsDims N E C wf) x idx upd (ix2 d k) = x (ix2 d k) + ∑ e ∈ edgesInto idx d, upd (ix2 e k) := by
  unfold Ideal.hostScatterAdd
  congr 1
  have key : ∀ j : (⟨2, ![E, C]⟩ : Shape).Idx, (scatterRowsDims N E C wf).resultIdx? j idx = some (ix2 d k) →
      (idx (ix2 (j 0) (0 : Fin 1))).toInt = (d.val : Int) ∧ j = ix2 (j 0) k := by
    intro j hj
    have h := (scatterRows_resultIdx_iff wf idx (j 0) (j 1) d k).mp
      ((congrArg (fun q => (scatterRowsDims N E C wf).resultIdx? q idx) (eq_ix2 j)).symm.trans hj)
    exact ⟨h.1, (eq_ix2 j).trans (congrArg (fun q : Fin C => (ix2 (j 0) q : (⟨2, ![E, C]⟩ : Shape).Idx)) h.2)⟩
  refine Finset.sum_bij' (fun j _ => j 0) (fun e _ => ix2 e k) ?_ ?_ ?_ ?_ ?_
  · intro j hj
    exact (mem_edgesInto idx d (j 0)).mpr (key j (Finset.mem_filter.mp hj).2).1
  · intro e he
    exact Finset.mem_filter.mpr ⟨Finset.mem_univ _,
      (scatterRows_resultIdx_iff wf idx e k d k).mpr ⟨(mem_edgesInto idx d e).mp he, rfl⟩⟩
  · intro j hj
    exact (key j (Finset.mem_filter.mp hj).2).2.symm
  · intro e _
    rfl
  · intro j hj
    exact congrArg upd (key j (Finset.mem_filter.mp hj).2).2

end ScatterRows

/-- The dimension numbers of a `segment_sum` of elements `[E]` into `[N]` at row numbers `[E, 1]`. -/
abbrev scatterEltsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterElts
variable {N E w : Nat} (wf : ScatterDims.WF ⟨1, ![N]⟩ ⟨2, ![E, 1]⟩ ⟨1, ![E]⟩ [] [0] [0] 1)
  (idx : IVec ⟨2, ![E, 1]⟩ w) (e : Fin E)

theorem scatterElts_start0 : (scatterEltsDims N E wf).start (ix1 e) idx 0 = (idx (ix2 e (0 : Fin 1))).toInt := by
  unfold ScatterDims.start
  rw [dif_pos (show (0 : Fin 1) ∈ (scatterEltsDims N E wf).scatterDimsToOperandDims from List.mem_singleton.mpr rfl)]
  have hsi : (scatterEltsDims N E wf).siIdx (ix1 e) ⟨List.idxOf (0 : Fin 1) (scatterEltsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterElts_window0 : (scatterEltsDims N E wf).window (ix1 e) 0 = 0 := by
  unfold ScatterDims.window
  rw [dif_neg (fun h => ((mem_kept _ _).mp h) (List.mem_singleton.mpr rfl))]

/-- Update `e` lands on element `d` exactly when edge `e`'s row number, read signed, is `d`. -/
theorem scatterElts_resultIdx_iff (d : Fin N) :
    (scatterEltsDims N E wf).resultIdx? (ix1 e) idx = some (ix1 d) ↔ (idx (ix2 e (0 : Fin 1))).toInt = (d.val : Int) := by
  unfold ScatterDims.resultIdx?
  constructor
  · intro h
    by_cases hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a
    · rw [dif_pos hb] at h
      have hf := Option.some.inj h
      have h0 : ((scatterEltsDims N E wf).start (ix1 e) idx 0 + ((scatterEltsDims N E wf).window (ix1 e) 0 : Nat)).toNat = d.val :=
        congrArg Fin.val (congrFun hf 0)
      have hb0 := (hb 0).1
      rw [scatterElts_start0, scatterElts_window0] at h0 hb0
      omega
    · rw [dif_neg hb] at h
      exact absurd h (by simp)
  · intro hv
    have hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a := by
      intro a
      match a with
      | ⟨0, _⟩ =>
        show 0 ≤ (scatterEltsDims N E wf).start (ix1 e) idx 0 + ((scatterEltsDims N E wf).window (ix1 e) 0 : Nat)
          ∧ (scatterEltsDims N E wf).start (ix1 e) idx 0 + ((scatterEltsDims N E wf).window (ix1 e) 0 : Nat) < (N : Int)
        rw [scatterElts_start0, scatterElts_window0, hv]
        have := d.isLt
        omega
    rw [dif_pos hb]
    refine congrArg some (funext fun a => Fin.ext ?_)
    match a with
    | ⟨0, _⟩ =>
      show ((scatterEltsDims N E wf).start (ix1 e) idx 0 + ((scatterEltsDims N E wf).window (ix1 e) 0 : Nat)).toNat = d.val
      rw [scatterElts_start0, scatterElts_window0, hv]
      omega

/-- A `segment_sum` into `[N]`, read at `d`: what was there plus the messages of the edges sent to row `d`. -/
theorem scatterAddElts_apply (x : (⟨1, ![N]⟩ : Shape).Idx → EReal) (upd : (⟨1, ![E]⟩ : Shape).Idx → EReal) (d : Fin N) :
    Ideal.hostScatterAdd (scatterEltsDims N E wf) x idx upd (ix1 d) = x (ix1 d) + ∑ e ∈ edgesInto idx d, upd (ix1 e) := by
  unfold Ideal.hostScatterAdd
  congr 1
  refine Finset.sum_bij' (fun j _ => j 0) (fun e _ => ix1 e) ?_ ?_ ?_ ?_ ?_
  · intro j hj
    exact (mem_edgesInto idx d (j 0)).mpr ((scatterElts_resultIdx_iff wf idx (j 0) d).mp
      ((congrArg (fun q => (scatterEltsDims N E wf).resultIdx? q idx) (eq_ix1 j)).symm.trans (Finset.mem_filter.mp hj).2))
  · intro e he
    exact Finset.mem_filter.mpr ⟨Finset.mem_univ _, (scatterElts_resultIdx_iff wf idx e d).mpr ((mem_edgesInto idx d e).mp he)⟩
  · intro j _
    exact (eq_ix1 j).symm
  · intro e _
    rfl
  · intro j _
    exact congrArg upd (eq_ix1 j)

end ScatterElts

/-! ## Row numbers made nonnegative

`x[idx]` first turns a negative row number `v` into `v + N` (python's indexing from the end) and then gathers. For an edge
whose number, read signed, is a row `d` of the table, nothing changes. -/

/-- A row number that is a row of the table is not negative, so the python-style wrap leaves it alone. -/
theorem wrap_of_toInt (v c : BitVec 32) (d : Nat) (h : v.toInt = (d : Int)) :
    Scalar.select (IntOp.cmpi .slt v 0#32) (IntOp.addi v c) v = v := by
  have h0 : IntOp.cmpi .slt v 0#32 = 0#1 := by
    have hlt : ¬ v.toInt < 0 := by rw [h]; omega
    simp [IntOp.cmpi, BitVec.slt, hlt]
  rw [h0]
  exact if_neg (by decide)

end Cert.Lib.Rows

end
-- ==== Proof.Spec.lean ====
/-
  The mathematics of a three-layer mean-aggregating graph convolution with batch normalisation, a rectifier after
  every layer and a two-layer perceptron head, written row by row on the extended reals.

  A graph has `100000` nodes and `1600000` edges; edge `e` carries a source word `s e` and a destination word `d e`.
  A node's row of features is read at the source word (negative words counted from the end, then clamped into the table);
  a row is summed into node `n` by exactly the edges whose destination word, read signed, is `n`.  The mean divides that
  sum by the number of such edges, or by one when there are none.  A layer maps the mean row and the node's own row through
  two weight matrices, adds a bias, normalises by running statistics, scales, shifts, and rectifies.
-/
import Idealize.ShloMosaic.PureOps.Ideal
import Idealize.ShloMosaic.Lib.ValueIdx
import proofs.«164375_j16853451669719_2_alg».proof.Proof.LibRows

noncomputable section

namespace Cert.Sage

open Idealize.ShloMosaic Idealize.ShloMosaic.ValueIdx

/-- The number of nodes and of edges. -/
abbrev nN : Nat := 100000
abbrev nE : Nat := 1600000

theorem nN_pos : 0 < nN := by decide

/-- The single-precision words the programs spell: the variance floor `1e-5`, zero and one. -/
def eps : EReal := Ideal.ofBits .f32 0x3727C5AC#32
def zero : EReal := Ideal.ofBits .f32 0x00000000#32
def one : EReal := Ideal.ofBits .f32 0x3F800000#32

/-- A row number as written: a negative word counts from the end of the table. -/
def wrap (v : BitVec 32) : BitVec 32 := Scalar.select (IntOp.cmpi .slt v 0#32) (IntOp.addi v 100000#32) v

/-- The node whose row a source word reads: the wrapped word, clamped into the table. -/
def nodeOf (v : BitVec 32) : Fin nN := Cert.Lib.Rows.rowOf nN nN_pos (wrap v)

/-- The edges that send to node `n`: those whose destination word, read signed, is `n`. -/
def into (d : Fin nE → BitVec 32) (n : Fin nN) : Finset (Fin nE) :=
  Finset.univ.filter fun e => (d e).toInt = (n.val : Int)

/-- The sum, into node `n`, of the source rows of the edges sent there. -/
def aggr (s d : Fin nE → BitVec 32) (h : Fin nN → Fin 128 → EReal) (n : Fin nN) (k : Fin 128) : EReal :=
  zero + ∑ e ∈ into d n, h (nodeOf (s e)) k

/-- The number of edges sent to node `n`, as a sum of ones. -/
def degr (d : Fin nE → BitVec 32) (n : Fin nN) : EReal :=
  zero + ∑ _e ∈ into d n, one

/-- One row of a layer: the mean row `M` and the node's own row `x` through the two weight matrices, the bias, the
    normalisation by running mean `mu` and variance `v`, the scale `g`, the shift `be`, and the rectifier. -/
def denseRow (M x : Fin 128 → EReal) (Wl Wr : Fin 128 → Fin 128 → EReal) (bl g be mu v : Fin 128 → EReal)
    (j : Fin 128) : EReal :=
  max ((((((∑ k : Fin 128, M k * Wl k j) + bl j) + ∑ k : Fin 128, x k * Wr k j) - mu j) * Ideal.rsqrt (v j + eps)) * g j
    + be j) zero

/-- One row of the head: a rectified affine map to width 128, then an affine map to width 16. -/
def headRow (h : Fin 128 → EReal) (Wf : Fin 128 → Fin 128 → EReal) (bf : Fin 128 → EReal)
    (Wc : Fin 128 → Fin 16 → EReal) (bc : Fin 16 → EReal) (q : Fin 16) : EReal :=
  (∑ k : Fin 128, max ((∑ k' : Fin 128, h k' * Wf k' k) + bf k) zero * Wc k q) + bc q

/-- A whole layer: every node's mean row is its aggregated sum divided by its edge count (at least one). -/
def layer (s d : Fin nE → BitVec 32) (h : Fin nN → Fin 128 → EReal) (Wl Wr : Fin 128 → Fin 128 → EReal)
    (bl g be mu v : Fin 128 → EReal) : Fin nN → Fin 128 → EReal :=
  fun n j => denseRow (fun k => Ideal.div (aggr s d h n k) (max (degr d n) one)) (h n) Wl Wr bl g be mu v j

/-- The whole network at node `n`, output column `q`. -/
def net (s d : Fin nE → BitVec 32) (x : Fin nN → Fin 128 → EReal)
    (W1l W1r : Fin 128 → Fin 128 → EReal) (b1 g1 be1 m1 v1 : Fin 128 → EReal)
    (W2l W2r : Fin 128 → Fin 128 → EReal) (b2 g2 be2 m2 v2 : Fin 128 → EReal)
    (W3l W3r : Fin 128 → Fin 128 → EReal) (b3 g3 be3 m3 v3 : Fin 128 → EReal)
    (Wf : Fin 128 → Fin 128 → EReal) (bf : Fin 128 → EReal) (Wc : Fin 128 → Fin 16 → EReal) (bc : Fin 16 → EReal)
    (n : Fin nN) (q : Fin 16) : EReal :=
  headRow (layer s d (layer s d (layer s d x W1l W1r b1 g1 be1 m1 v1) W2l W2r b2 g2 be2 m2 v2) W3l W3r b3 g3 be3 m3 v3 n)
    Wf bf Wc bc q

/-! ## Arrays as functions of coordinates -/

/-- A rank-2 array read by coordinates, and a rank-1 array read by its coordinate. -/
def rd2 {a b : Nat} {α : Type} (X : (⟨2, ![a, b]⟩ : Shape).Idx → α) (i : Fin a) (j : Fin b) : α := X (ix2 i j)
def rd1 {a : Nat} {α : Type} (X : (⟨1, ![a]⟩ : Shape).Idx → α) (i : Fin a) : α := X (ix1 i)

/-- The source and destination words of edge `e` in a `[2, E]` edge list. -/
def srcOf (ei : (⟨2, ![2, nE]⟩ : Shape).Idx → BitVec 32) (e : Fin nE) : BitVec 32 := ei (ix2 (0 : Fin 2) e)
def dstOf (ei : (⟨2, ![2, nE]⟩ : Shape).Idx → BitVec 32) (e : Fin nE) : BitVec 32 := ei (ix2 (1 : Fin 2) e)

end Cert.Sage

end
-- ==== Proof.NetOf.lean ====
/-
  The network's result array as a function of the 27 argument arrays, in the order the programs take them: the node
  features, the edge list, then per layer the neighbour weights, the bias, the root weights, the scale, the shift, the
  running mean and the running variance, then the head's two weight matrices and biases.
-/
import proofs.«164375_j16853451669719_2_alg».proof.Proof.Spec

noncomputable section

namespace Cert.Sage

open Idealize.ShloMosaic Idealize.ShloMosaic.ValueIdx

/-- Shorthands for the argument shapes. -/
abbrev ANC := (⟨2, ![100000, 128]⟩ : Shape).Idx → EReal
abbrev AEI := (⟨2, ![2, 1600000]⟩ : Shape).Idx → BitVec 32
abbrev AM := (⟨2, ![128, 128]⟩ : Shape).Idx → EReal
abbrev AV := (⟨1, ![128]⟩ : Shape).Idx → EReal
abbrev AMC := (⟨2, ![128, 16]⟩ : Shape).Idx → EReal
abbrev AVC := (⟨1, ![16]⟩ : Shape).Idx → EReal

/-- The result array of the whole network. -/
def netArr (x0 : ANC) (x1 : AEI) (x2 : AM) (x3 : AV) (x4 : AM) (x5 x6 x7 x8 : AV) (x9 : AM) (x10 : AV) (x11 : AM)
    (x12 x13 x14 x15 : AV) (x16 : AM) (x17 : AV) (x18 : AM) (x19 x20 x21 x22 : AV) (x23 : AM) (x24 : AV) (x25 : AMC)
    (x26 : AVC) : (⟨2, ![100000, 16]⟩ : Shape).Idx → EReal := fun i =>
  net (srcOf x1) (dstOf x1) (rd2 x0) (rd2 x2) (rd2 x4) (rd1 x3) (rd1 x5) (rd1 x6) (rd1 x7) (rd1 x8)
    (rd2 x9) (rd2 x11) (rd1 x10) (rd1 x12) (rd1 x13) (rd1 x14) (rd1 x15)
    (rd2 x16) (rd2 x18) (rd1 x17) (rd1 x19) (rd1 x20) (rd1 x21) (rd1 x22)
    (rd2 x23) (rd1 x24) (rd2 x25) (rd1 x26) (i 0) (i 1)

end Cert.Sage

end
-- ==== Proof.RefRows.lean ====
/-
  The reference program's two row operations, read at a node.

  The program sums, into a table of `100000` rows, the rows it gathered from a table `h` at the source row numbers; and it
  sums a column of ones into a column of `100000` entries.  Both sums run over the edges whose destination row number,
  read signed, is the node; a gathered row is the table's row at the clamped source row number.
-/
import proofs.«164375_j16853451669719_2_alg».proof.Proof.Gen.ReferenceIdeal
import proofs.«164375_j16853451669719_2_alg».proof.Proof.Spec

noncomputable section

namespace Cert.Sage.Ref

open Cert.ReferenceIdeal Cert.ReferenceIdeal.Gen Idealize.ShloMosaic Idealize.ShloMosaic.ValueIdx Cert.Lib.Rows

/-- The program's dimension numbers are the row gather's and the row sums' at the literal sizes. -/
theorem scatterRec_eq : scatter_S100000x128_S1600000x1_S1600000x128_1_0_0_1
    = scatterRowsDims 100000 1600000 128 scatter_S100000x128_S1600000x1_S1600000x128_1_0_0_1_wf := rfl
theorem scatterRec1_eq : scatter_S100000x1_S1600000x1_S1600000x1_1_0_0_1
    = scatterRowsDims 100000 1600000 1 scatter_S100000x1_S1600000x1_S1600000x1_1_0_0_1_wf := rfl
theorem gatherRec_eq : gather_S100000x128_S1600000x1_S1600000x128_1_0_n_n_0_1_1128
    = gatherRowsDims 100000 1600000 128 gather_S100000x128_S1600000x1_S1600000x128_1_0_n_n_0_1_1128_wf := rfl

/-- The rows gathered at `idxS` and summed at `idxD`, read at node `n`, column `k`. -/
theorem agg_apply (Z h : S100000x128.Idx → EReal) (idxS idxD : IVec S1600000x1 32) (n : Fin 100000) (k : Fin 128) :
    Host.scatterAdd (F := Ideal) (φ := .f32) scatter_S100000x128_S1600000x1_S1600000x128_1_0_0_1 Z idxD
        (Host.gather gather_S100000x128_S1600000x1_S1600000x128_1_0_n_n_0_1_1128 h idxS) (ix2 n k)
      = Z (ix2 n k) + ∑ e ∈ edgesInto idxD n, h (ix2 (rowOf 100000 Cert.Sage.nN_pos (idxS (ix2 e (0 : Fin 1)))) k) := by
  rewrite [scatterRec_eq, gatherRec_eq]
  have hs := scatterAddRows_apply scatter_S100000x128_S1600000x1_S1600000x128_1_0_0_1_wf idxD k Z
    (Host.gather (gatherRowsDims 100000 1600000 128 gather_S100000x128_S1600000x1_S1600000x128_1_0_n_n_0_1_1128_wf) h idxS) n
  refine hs.trans (congrArg (fun t => Z (ix2 n k) + t) (Finset.sum_congr rfl fun e _ => ?_))
  exact gatherRows_apply Cert.Sage.nN_pos gather_S100000x128_S1600000x1_S1600000x128_1_0_n_n_0_1_1128_wf h idxS e k

/-- A column summed at `idxD`, read at node `n`. -/
theorem deg_apply (Z : S100000x1.Idx → EReal) (U : S1600000x1.Idx → EReal) (idxD : IVec S1600000x1 32) (n : Fin 100000) :
    Host.scatterAdd (F := Ideal) (φ := .f32) scatter_S100000x1_S1600000x1_S1600000x1_1_0_0_1 Z idxD U (ix2 n (0 : Fin 1))
      = Z (ix2 n (0 : Fin 1)) + ∑ e ∈ edgesInto idxD n, U (ix2 e (0 : Fin 1)) := by
  rewrite [scatterRec1_eq]
  exact scatterAddRows_apply scatter_S100000x1_S1600000x1_S1600000x1_1_0_0_1_wf idxD (0 : Fin 1) Z U n

/-- The edges a row-number column `idx` sends to node `n` are the edges `into` names, when the column holds the words `d`. -/
theorem edgesInto_eq (idx : IVec S1600000x1 32) (d : Fin 1600000 → BitVec 32)
    (hd : ∀ e : Fin 1600000, idx (ix2 e (0 : Fin 1)) = d e) (n : Fin 100000) :
    edgesInto idx n = Cert.Sage.into d n := by
  unfold edgesInto Cert.Sage.into
  refine Finset.filter_congr fun e _ => ?_
  rewrite [hd e]
  exact Iff.rfl

end Cert.Sage.Ref

end
-- ==== Proof.RefWords.lean ====
/-
  The reference program's row-number columns.

  The edge list `[2, 1600000]` is cut into its source row and its destination row.  Each layer builds the source column
  `[1600000, 1]` from the source row with negative words counted from the end, and the destination column from the
  destination row as it is.
-/
import proofs.«164375_j16853451669719_2_alg».proof.Proof.Gen.ReferenceIdeal.Read
import proofs.«164375_j16853451669719_2_alg».proof.Proof.Spec

noncomputable section

namespace Cert.Sage.Ref

open Cert.ReferenceIdeal Cert.ReferenceIdeal.Gen Cert.ReferenceIdeal.Read Idealize.ShloMosaic Idealize.ShloMosaic.ValueIdx

/-- The source row of the edge list, read at edge `e`. -/
theorem src_word (x1 : (⟨S2x1600000, .i32⟩ : BufTy).Contents (Elt Ideal)) (e : Fin 1600000) :
    val_main_v1 (F := Ideal) x1 (ix1 e) = Cert.Sage.srcOf x1 e := by
  rewrite [val_main_v1_apply, val_main_v0_apply]
  unfold Cert.Sage.srcOf
  refine congrArg x1 (funext fun a => Fin.ext ?_)
  match a with
  | ⟨0, _⟩ => rfl
  | ⟨1, _⟩ => exact Nat.mod_eq_of_lt e.isLt

/-- The destination row of the edge list, read at edge `e`. -/
theorem dst_word (x1 : (⟨S2x1600000, .i32⟩ : BufTy).Contents (Elt Ideal)) (e : Fin 1600000) :
    val_main_v3 (F := Ideal) x1 (ix1 e) = Cert.Sage.dstOf x1 e := by
  rewrite [val_main_v3_apply, val_main_v2_apply]
  unfold Cert.Sage.dstOf
  refine congrArg x1 (funext fun a => Fin.ext ?_)
  match a with
  | ⟨0, _⟩ => rfl
  | ⟨1, _⟩ => exact Nat.mod_eq_of_lt e.isLt

/-- Layer 1's source column holds, at edge `e`, the wrapped source word. -/
theorem src_col1 (x1 : (⟨S2x1600000, .i32⟩ : BufTy).Contents (Elt Ideal)) (e : Fin 1600000) :
    val_main_v9 (F := Ideal) x1 (ix2 e (0 : Fin 1)) = Cert.Sage.wrap (Cert.Sage.srcOf x1 e) := by
  have hi : idx_main_v9 (ix2 e (0 : Fin 1)) = ix1 e := funext fun a => match a with | ⟨0, _⟩ => rfl
  rewrite [val_main_v9_apply, hi, val_main_v8_apply, val_main_v5_apply, val_main_v7_apply, val_main_v4_apply,
    val_main_v6_apply, val_main_c_apply, val_main_c_0_apply, src_word]
  rfl

/-- Layer 1's destination column (a) holds, at edge `e`, the destination word. -/
theorem dst_col1a (x1 : (⟨S2x1600000, .i32⟩ : BufTy).Contents (Elt Ideal)) (e : Fin 1600000) :
    val_main_v12 (F := Ideal) x1 (ix2 e (0 : Fin 1)) = Cert.Sage.dstOf x1 e := by
  have hi : idx_main_v12 (ix2 e (0 : Fin 1)) = ix1 e := funext fun a => match a with | ⟨0, _⟩ => rfl
  rewrite [val_main_v12_apply, hi, dst_word]
  rfl

/-- Layer 1's destination column (b) holds, at edge `e`, the destination word. -/
theorem dst_col1b (x1 : (⟨S2x1600000, .i32⟩ : BufTy).Contents (Elt Ideal)) (e : Fin 1600000) :
    val_main_v16 (F := Ideal) x1 (ix2 e (0 : Fin 1)) = Cert.Sage.dstOf x1 e := by
  have hi : idx_main_v16 (ix2 e (0 : Fin 1)) = ix1 e := funext fun a => match a with | ⟨0, _⟩ => rfl
  rewrite [val_main_v16_apply, hi, dst_word]
  rfl

/-- Layer 2's source column holds, at edge `e`, the wrapped source word. -/
theorem src_col2 (x1 : (⟨S2x1600000, .i32⟩ : BufTy).Contents (Elt Ideal)) (e : Fin 1600000) :
    val_main_v49 (F := Ideal) x1 (ix2 e (0 : Fin 1)) = Cert.Sage.wrap (Cert.Sage.srcOf x1 e) := by
  have hi : idx_main_v49 (ix2 e (0 : Fin 1)) = ix1 e := funext fun a => match a with | ⟨0, _⟩ => rfl
  rewrite [val_main_v49_apply, hi, val_main_v48_apply, val_main_v45_apply, val_main_v47_apply, val_main_v44_apply,
    val_main_v46_apply, val_main_c_5_apply, val_main_c_6_apply, src_word]
  rfl

/-- Layer 2's destination column (a) holds, at edge `e`, the destination word. -/
theorem dst_col2a (x1 : (⟨S2x1600000, .i32⟩ : BufTy).Contents (Elt Ideal)) (e : Fin 1600000) :
    val_main_v52 (F := Ideal) x1 (ix2 e (0 : Fin 1)) = Cert.Sage.dstOf x1 e := by
  have hi : idx_main_v52 (ix2 e (0 : Fin 1)) = ix1 e := funext fun a => match a with | ⟨0, _⟩ => rfl
  rewrite [val_main_v52_apply, hi, dst_word]
  rfl

/-- Layer 2's destination column (b) holds, at edge `e`, the destination word. -/
theorem dst_col2b (x1 : (⟨S2x1600000, .i32⟩ : BufTy).Contents (Elt Ideal)) (e : Fin 1600000) :
    val_main_v56 (F := Ideal) x1 (ix2 e (0 : Fin 1)) = Cert.Sage.dstOf x1 e := by
  have hi : idx_main_v56 (ix2 e (0 : Fin 1)) = ix1 e := funext fun a => match a with | ⟨0, _⟩ => rfl
  rewrite [val_main_v56_apply, hi, dst_word]
  rfl

/-- Layer 3's source column holds, at edge `e`, the wrapped source word. -/
theorem src_col3 (x1 : (⟨S2x1600000, .i32⟩ : BufTy).Contents (Elt Ideal)) (e : Fin 1600000) :
    val_main_v89 (F := Ideal) x1 (ix2 e (0 : Fin 1)) = Cert.Sage.wrap (Cert.Sage.srcOf x1 e) := by
  have hi : idx_main_v89 (ix2 e (0 : Fin 1)) = ix1 e := funext fun a => match a with | ⟨0, _⟩ => rfl
  rewrite [val_main_v89_apply, hi, val_main_v88_apply, val_main_v85_apply, val_main_v87_apply, val_main_v84_apply,
    val_main_v86_apply, val_main_c_12_apply, val_main_c_13_apply, src_word]
  rfl

/-- Layer 3's destination column (a) holds, at edge `e`, the destination word. -/
theorem dst_col3a (x1 : (⟨S2x1600000, .i32⟩ : BufTy).Contents (Elt Ideal)) (e : Fin 1600000) :
    val_main_v92 (F := Ideal) x1 (ix2 e (0 : Fin 1)) = Cert.Sage.dstOf x1 e := by
  have hi : idx_main_v92 (ix2 e (0 : Fin 1)) = ix1 e := funext fun a => match a with | ⟨0, _⟩ => rfl
  rewrite [val_main_v92_apply, hi, dst_word]
  rfl

/-- Layer 3's destination column (b) holds, at edge `e`, the destination word. -/
theorem dst_col3b (x1 : (⟨S2x1600000, .i32⟩ : BufTy).Contents (Elt Ideal)) (e : Fin 1600000) :
    val_main_v96 (F := Ideal) x1 (ix2 e (0 : Fin 1)) = Cert.Sage.dstOf x1 e := by
  have hi : idx_main_v96 (ix2 e (0 : Fin 1)) = ix1 e := funext fun a => match a with | ⟨0, _⟩ => rfl
  rewrite [val_main_v96_apply, hi, dst_word]
  rfl

end Cert.Sage.Ref

end
-- ==== Proof.RefLayer1.lean ====
/-
  Layer 1 of the reference program is the specification's layer.

  The mean row of a node is the sum of the gathered rows over the edges sent to it, divided by their number (at least one);
  the layer's row is the mean row and the node's own row through the two weight matrices, plus the bias, normalised, scaled,
  shifted and rectified.
-/
import proofs.«164375_j16853451669719_2_alg».proof.Proof.Gen.ReferenceIdeal.Read
import proofs.«164375_j16853451669719_2_alg».proof.Proof.Spec
import proofs.«164375_j16853451669719_2_alg».proof.Proof.RefRows
import proofs.«164375_j16853451669719_2_alg».proof.Proof.RefWords

noncomputable section

namespace Cert.Sage.Ref

open Cert.ReferenceIdeal Cert.ReferenceIdeal.Gen Cert.ReferenceIdeal.Read Idealize.ShloMosaic Idealize.ShloMosaic.ValueIdx

/-- The mean row of layer 1, read at node `n`, column `k`. -/
theorem mean1 (x0 : (⟨S100000x128, .f32⟩ : BufTy).Contents (Elt Ideal)) (x1 : (⟨S2x1600000, .i32⟩ : BufTy).Contents (Elt Ideal)) (n : Fin 100000) (k : Fin 128) :
    val_main_v21 (F := Ideal) x0 x1 (ix2 n k)
      = Ideal.div (Cert.Sage.aggr (Cert.Sage.srcOf x1) (Cert.Sage.dstOf x1) (Cert.Sage.rd2 x0) n k)
          (max (Cert.Sage.degr (Cert.Sage.dstOf x1) n) Cert.Sage.one) := by
  have h20 : idx_main_v20 (ix2 n k) = ix2 n (0 : Fin 1) := funext fun a => Fin.ext (by match a with | ⟨0, _⟩ => rfl | ⟨1, _⟩ => rfl)
  rewrite [val_main_v21_apply, val_main_v20_apply, h20, val_main_v19_apply, val_main_v18_apply, val_main_cst_3_apply]
  unfold val_main_v13 val_main_v17 val_main_v10
  rewrite [agg_apply, deg_apply, val_main_v11_apply, val_main_cst_apply, val_main_v15_apply, val_main_cst_2_apply,
    edgesInto_eq (val_main_v12 (F := Ideal) x1) (Cert.Sage.dstOf x1) (dst_col1a x1),
    edgesInto_eq (val_main_v16 (F := Ideal) x1) (Cert.Sage.dstOf x1) (dst_col1b x1)]
  simp only [val_main_v14_apply, val_main_cst_1_apply, src_col1]
  rfl

/-- The mean row through the left weight matrix. -/
theorem dotl1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (n : Fin 100000) (j : Fin 128) :
    val_main_v22 (F := Ideal) x0 x1 x2 (ix2 n j)
      = ∑ k : Fin 128, Ideal.div (Cert.Sage.aggr (Cert.Sage.srcOf x1) (Cert.Sage.dstOf x1) (Cert.Sage.rd2 x0) n k)
          (max (Cert.Sage.degr (Cert.Sage.dstOf x1) n) Cert.Sage.one) * x2 (ix2 k j) := by
  rewrite [val_main_v22_apply]
  refine Finset.sum_congr rfl fun k _ => ?_
  have e1 : lidx_main_v22 (ix2 n j) k = ix2 n k := funext fun a => Fin.ext (by match a with | ⟨0, _⟩ => rfl | ⟨1, _⟩ => rfl)
  have e2 : ridx_main_v22 (ix2 n j) k = ix2 k j := funext fun a => Fin.ext (by match a with | ⟨0, _⟩ => rfl | ⟨1, _⟩ => rfl)
  rewrite [e1, e2, mean1]
  rfl

/-- The node's own row through the right weight matrix. -/
theorem dotr1 (x0 : (⟨S100000x128, .f32⟩ : BufTy).Contents (Elt Ideal)) (x4 : (⟨S128x128, .f32⟩ : BufTy).Contents (Elt Ideal)) (n : Fin 100000) (j : Fin 128) :
    val_main_v26 (F := Ideal) x0 x4 (ix2 n j) = ∑ k : Fin 128, x0 (ix2 n k) * x4 (ix2 k j) := by
  rewrite [val_main_v26_apply]
  refine Finset.sum_congr rfl fun k _ => ?_
  have e1 : lidx_main_v26 (ix2 n j) k = ix2 n k := funext fun a => Fin.ext (by match a with | ⟨0, _⟩ => rfl | ⟨1, _⟩ => rfl)
  have e2 : ridx_main_v26 (ix2 n j) k = ix2 k j := funext fun a => Fin.ext (by match a with | ⟨0, _⟩ => rfl | ⟨1, _⟩ => rfl)
  rewrite [e1, e2]
  rfl

/-- Layer 1, read at node `n`, column `j`. -/
theorem layer1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (n : Fin 100000) (j : Fin 128) :
    val_main_v43 (F := Ideal) x0 x1 x2 x3 x4 x5 x6 x7 x8 (ix2 n j)
      = Cert.Sage.layer (Cert.Sage.srcOf x1) (Cert.Sage.dstOf x1) (Cert.Sage.rd2 x0) (Cert.Sage.rd2 x2) (Cert.Sage.rd2 x4)
          (Cert.Sage.rd1 x3) (Cert.Sage.rd1 x5) (Cert.Sage.rd1 x6) (Cert.Sage.rd1 x7) (Cert.Sage.rd1 x8) n j := by
  have hb24 : idx_main_v24 (ix2 n j) = ix2 (0 : Fin 1) j := funext fun a => Fin.ext (by match a with | ⟨0, _⟩ => rfl | ⟨1, _⟩ => rfl)
  have hc23 : idx_main_v23 (ix2 (0 : Fin 1) j) = ix1 j := funext fun a => Fin.ext (by match a with | ⟨0, _⟩ => rfl)
  have hb29 : idx_main_v29 (ix2 n j) = ix2 (0 : Fin 1) j := funext fun a => Fin.ext (by match a with | ⟨0, _⟩ => rfl | ⟨1, _⟩ => rfl)
  have hc28 : idx_main_v28 (ix2 (0 : Fin 1) j) = ix1 j := funext fun a => Fin.ext (by match a with | ⟨0, _⟩ => rfl)
  have hb35 : idx_main_v35 (ix2 n j) = ix2 (0 : Fin 1) j := funext fun a => Fin.ext (by match a with | ⟨0, _⟩ => rfl | ⟨1, _⟩ => rfl)
  have hc34 : idx_main_v34 (ix2 (0 : Fin 1) j) = ix1 j := funext fun a => Fin.ext (by match a with | ⟨0, _⟩ => rfl)
  have hb38 : idx_main_v38 (ix2 n j) = ix2 (0 : Fin 1) j := funext fun a => Fin.ext (by match a with | ⟨0, _⟩ => rfl | ⟨1, _⟩ => rfl)
  have hc37 : idx_main_v37 (ix2 (0 : Fin 1) j) = ix1 j := funext fun a => Fin.ext (by match a with | ⟨0, _⟩ => rfl)
  have hb41 : idx_main_v41 (ix2 n j) = ix2 (0 : Fin 1) j := funext fun a => Fin.ext (by match a with | ⟨0, _⟩ => rfl | ⟨1, _⟩ => rfl)
  have hc40 : idx_main_v40 (ix2 (0 : Fin 1) j) = ix1 j := funext fun a => Fin.ext (by match a with | ⟨0, _⟩ => rfl)
  rewrite [val_main_v43_apply, val_main_v42_apply, val_main_v39_apply, val_main_v36_apply, val_main_v30_apply,
    val_main_v27_apply, val_main_v25_apply, dotl1, dotr1,
    val_main_v24_apply, hb24, val_main_v23_apply, hc23, val_main_v29_apply, hb29, val_main_v28_apply, hc28, val_main_v35_apply, hb35, val_main_v34_apply, hc34,
    val_main_v33_apply, val_main_v32_apply, val_main_v31_apply, val_main_cst_4_apply,
    val_main_v38_apply, hb38, val_main_v37_apply, hc37, val_main_v41_apply, hb41, val_main_v40_apply, hc40,
    val_main_call0_v0_apply, val_main_call0_cst_apply]
  rfl

/-- Layer 1 as a table of rows. -/
theorem layer1_rd2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) :
    Cert.Sage.rd2 (val_main_v43 (F := Ideal) x0 x1 x2 x3 x4 x5 x6 x7 x8)
      = Cert.Sage.layer (Cert.Sage.srcOf x1) (Cert.Sage.dstOf x1) (Cert.Sage.rd2 x0) (Cert.Sage.rd2 x2) (Cert.Sage.rd2 x4)
          (Cert.Sage.rd1 x3) (Cert.Sage.rd1 x5) (Cert.Sage.rd1 x6) (Cert.Sage.rd1 x7) (Cert.Sage.rd1 x8) :=
  funext fun n => funext fun j => layer1 x0 x1 x2 x3 x4 x5 x6 x7 x8 n j

end Cert.Sage.Ref

end
-- ==== Proof.RefLayer2.lean ====
/-
  Layer 2 of the reference program is the specification's layer.

  The mean row of a node is the sum of the gathered rows over the edges sent to it, divided by their number (at least one);
  the layer's row is the mean row and the node's own row through the two weight matrices, plus the bias, normalised, scaled,
  shifted and rectified.
-/
import proofs.«164375_j16853451669719_2_alg».proof.Proof.Gen.ReferenceIdeal.Read
import proofs.«164375_j16853451669719_2_alg».proof.Proof.Spec
import proofs.«164375_j16853451669719_2_alg».proof.Proof.RefRows
import proofs.«164375_j16853451669719_2_alg».proof.Proof.RefWords

noncomputable section

namespace Cert.Sage.Ref

open Cert.ReferenceIdeal Cert.ReferenceIdeal.Gen Cert.ReferenceIdeal.Read Idealize.ShloMosaic Idealize.ShloMosaic.ValueIdx

/-- The mean row of layer 2, read at node `n`, column `k`. -/
theorem mean2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (n : Fin 100000) (k : Fin 128) :
    val_main_v61 (F := Ideal) x0 x1 x2 x3 x4 x5 x6 x7 x8 (ix2 n k)
      = Ideal.div (Cert.Sage.aggr (Cert.Sage.srcOf x1) (Cert.Sage.dstOf x1) (Cert.Sage.rd2 (val_main_v43 (F := Ideal) x0 x1 x2 x3 x4 x5 x6 x7 x8)) n k)
          (max (Cert.Sage.degr (Cert.Sage.dstOf x1) n) Cert.Sage.one) := by
  have h20 : idx_main_v60 (ix2 n k) = ix2 n (0 : Fin 1) := funext fun a => Fin.ext (by match a with | ⟨0, _⟩ => rfl | ⟨1, _⟩ => rfl)
  rewrite [val_main_v61_apply, val_main_v60_apply, h20, val_main_v59_apply, val_main_v58_apply, val_main_cst_10_apply]
  unfold val_main_v53 val_main_v57 val_main_v50
  rewrite [agg_apply, deg_apply, val_main_v51_apply, val_main_cst_7_apply, val_main_v55_apply, val_main_cst_9_apply,
    edgesInto_eq (val_main_v52 (F := Ideal) x1) (Cert.Sage.dstOf x1) (dst_col2a x1),
    edgesInto_eq (val_main_v56 (F := Ideal) x1) (Cert.Sage.dstOf x1) (dst_col2b x1)]
  simp only [val_main_v54_apply, val_main_cst_8_apply, src_col2]
  rfl

/-- The mean row through the left weight matrix. -/
theorem dotl2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (n : Fin 100000) (j : Fin 128) :
    val_main_v62 (F := Ideal) x0 x1 x2 x3 x4 x5 x6 x7 x8 x9 (ix2 n j)
      = ∑ k : Fin 128, Ideal.div (Cert.Sage.aggr (Cert.Sage.srcOf x1) (Cert.Sage.dstOf x1) (Cert.Sage.rd2 (val_main_v43 (F := Ideal) x0 x1 x2 x3 x4 x5 x6 x7 x8)) n k)
          (max (Cert.Sage.degr (Cert.Sage.dstOf x1) n) Cert.Sage.one) * x9 (ix2 k j) := by
  rewrite [val_main_v62_apply]
  refine Finset.sum_congr rfl fun k _ => ?_
  have e1 : lidx_main_v62 (ix2 n j) k = ix2 n k := funext fun a => Fin.ext (by match a with | ⟨0, _⟩ => rfl | ⟨1, _⟩ => rfl)
  have e2 : ridx_main_v62 (ix2 n j) k = ix2 k j := funext fun a => Fin.ext (by match a with | ⟨0, _⟩ => rfl | ⟨1, _⟩ => rfl)
  rewrite [e1, e2, mean2]
  rfl

/-- The node's own row through the right weight matrix. -/
theorem dotr2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x11 : (⟨S128x128, .f32⟩ : BufTy).Contents (Elt Ideal)) (n : Fin 100000) (j : Fin 128) :
    val_main_v66 (F := Ideal) x0 x1 x2 x3 x4 x5 x6 x7 x8 x11 (ix2 n j) = ∑ k : Fin 128, (val_main_v43 (F := Ideal) x0 x1 x2 x3 x4 x5 x6 x7 x8) (ix2 n k) * x11 (ix2 k j) := by
  rewrite [val_main_v66_apply]
  refine Finset.sum_congr rfl fun k _ => ?_
  have e1 : lidx_main_v66 (ix2 n j) k = ix2 n k := funext fun a => Fin.ext (by match a with | ⟨0, _⟩ => rfl | ⟨1, _⟩ => rfl)
  have e2 : ridx_main_v66 (ix2 n j) k = ix2 k j := funext fun a => Fin.ext (by match a with | ⟨0, _⟩ => rfl | ⟨1, _⟩ => rfl)
  rewrite [e1, e2]
  rfl

/-- Layer 2, read at node `n`, column `j`. -/
theorem layer2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (n : Fin 100000) (j : Fin 128) :
    val_main_v83 (F := Ideal) x0 x1 x2 x3 x4 x5 x6 x7 x8 x9 x10 x11 x12 x13 x14 x15 (ix2 n j)
      = Cert.Sage.layer (Cert.Sage.srcOf x1) (Cert.Sage.dstOf x1) (Cert.Sage.rd2 (val_main_v43 (F := Ideal) x0 x1 x2 x3 x4 x5 x6 x7 x8)) (Cert.Sage.rd2 x9) (Cert.Sage.rd2 x11)
          (Cert.Sage.rd1 x10) (Cert.Sage.rd1 x12) (Cert.Sage.rd1 x13) (Cert.Sage.rd1 x14) (Cert.Sage.rd1 x15) n j := by
  have hb24 : idx_main_v64 (ix2 n j) = ix2 (0 : Fin 1) j := funext fun a => Fin.ext (by match a with | ⟨0, _⟩ => rfl | ⟨1, _⟩ => rfl)
  have hc23 : idx_main_v63 (ix2 (0 : Fin 1) j) = ix1 j := funext fun a => Fin.ext (by match a with | ⟨0, _⟩ => rfl)
  have hb29 : idx_main_v69 (ix2 n j) = ix2 (0 : Fin 1) j := funext fun a => Fin.ext (by match a with | ⟨0, _⟩ => rfl | ⟨1, _⟩ => rfl)
  have hc28 : idx_main_v68 (ix2 (0 : Fin 1) j) = ix1 j := funext fun a => Fin.ext (by match a with | ⟨0, _⟩ => rfl)
  have hb35 : idx_main_v75 (ix2 n j) = ix2 (0 : Fin 1) j := funext fun a => Fin.ext (by match a with | ⟨0, _⟩ => rfl | ⟨1, _⟩ => rfl)
  have hc34 : idx_main_v74 (ix2 (0 : Fin 1) j) = ix1 j := funext fun a => Fin.ext (by match a with | ⟨0, _⟩ => rfl)
  have hb38 : idx_main_v78 (ix2 n j) = ix2 (0 : Fin 1) j := funext fun a => Fin.ext (by match a with | ⟨0, _⟩ => rfl | ⟨1, _⟩ => rfl)
  have hc37 : idx_main_v77 (ix2 (0 : Fin 1) j) = ix1 j := funext fun a => Fin.ext (by match a with | ⟨0, _⟩ => rfl)
  have hb41 : idx_main_v81 (ix2 n j) = ix2 (0 : Fin 1) j := funext fun a => Fin.ext (by match a with | ⟨0, _⟩ => rfl | ⟨1, _⟩ => rfl)
  have hc40 : idx_main_v80 (ix2 (0 : Fin 1) j) = ix1 j := funext fun a => Fin.ext (by match a with | ⟨0, _⟩ => rfl)
  rewrite [val_main_v83_apply, val_main_v82_apply, val_main_v79_apply, val_main_v76_apply, val_main_v70_apply,
    val_main_v67_apply, val_main_v65_apply, dotl2, dotr2,
    val_main_v64_apply, hb24, val_main_v63_apply, hc23, val_main_v69_apply, hb29, val_main_v68_apply, hc28, val_main_v75_apply, hb35, val_main_v74_apply, hc34,
    val_main_v73_apply, val_main_v72_apply, val_main_v71_apply, val_main_cst_11_apply,
    val_main_v78_apply, hb38, val_main_v77_apply, hc37, val_main_v81_apply, hb41, val_main_v80_apply, hc40,
    val_main_call1_v0_apply, val_main_call1_cst_apply]
  rfl

/-- Layer 2 as a table of rows. -/
theorem layer2_rd2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) :
    Cert.Sage.rd2 (val_main_v83 (F := Ideal) x0 x1 x2 x3 x4 x5 x6 x7 x8 x9 x10 x11 x12 x13 x14 x15)
      = Cert.Sage.layer (Cert.Sage.srcOf x1) (Cert.Sage.dstOf x1) (Cert.Sage.rd2 (val_main_v43 (F := Ideal) x0 x1 x2 x3 x4 x5 x6 x7 x8)) (Cert.Sage.rd2 x9) (Cert.Sage.rd2 x11)
          (Cert.Sage.rd1 x10) (Cert.Sage.rd1 x12) (Cert.Sage.rd1 x13) (Cert.Sage.rd1 x14) (Cert.Sage.rd1 x15) :=
  funext fun n => funext fun j => layer2 x0 x1 x2 x3 x4 x5 x6 x7 x8 x9 x10 x11 x12 x13 x14 x15 n j

end Cert.Sage.Ref

end
-- ==== Proof.RefLayer3.lean ====
/-
  Layer 3 of the reference program is the specification's layer.

  The mean row of a node is the sum of the gathered rows over the edges sent to it, divided by their number (at least one);
  the layer's row is the mean row and the node's own row through the two weight matrices, plus the bias, normalised, scaled,
  shifted and rectified.
-/
import proofs.«164375_j16853451669719_2_alg».proof.Proof.Gen.ReferenceIdeal.Read
import proofs.«164375_j16853451669719_2_alg».proof.Proof.Spec
import proofs.«164375_j16853451669719_2_alg».proof.Proof.RefRows
import proofs.«164375_j16853451669719_2_alg».proof.Proof.RefWords

noncomputable section

namespace Cert.Sage.Ref

open Cert.ReferenceIdeal Cert.ReferenceIdeal.Gen Cert.ReferenceIdeal.Read Idealize.ShloMosaic Idealize.ShloMosaic.ValueIdx

/-- The mean row of layer 3, read at node `n`, column `k`. -/
theorem mean3 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (n : Fin 100000) (k : Fin 128) :
    val_main_v101 (F := Ideal) x0 x1 x2 x3 x4 x5 x6 x7 x8 x9 x10 x11 x12 x13 x14 x15 (ix2 n k)
      = Ideal.div (Cert.Sage.aggr (Cert.Sage.srcOf x1) (Cert.Sage.dstOf x1) (Cert.Sage.rd2 (val_main_v83 (F := Ideal) x0 x1 x2 x3 x4 x5 x6 x7 x8 x9 x10 x11 x12 x13 x14 x15)) n k)
          (max (Cert.Sage.degr (Cert.Sage.dstOf x1) n) Cert.Sage.one) := by
  have h20 : idx_main_v100 (ix2 n k) = ix2 n (0 : Fin 1) := funext fun a => Fin.ext (by match a with | ⟨0, _⟩ => rfl | ⟨1, _⟩ => rfl)
  rewrite [val_main_v101_apply, val_main_v100_apply, h20, val_main_v99_apply, val_main_v98_apply, val_main_cst_17_apply]
  unfold val_main_v93 val_main_v97 val_main_v90
  rewrite [agg_apply, deg_apply, val_main_v91_apply, val_main_cst_14_apply, val_main_v95_apply, val_main_cst_16_apply,
    edgesInto_eq (val_main_v92 (F := Ideal) x1) (Cert.Sage.dstOf x1) (dst_col3a x1),
    edgesInto_eq (val_main_v96 (F := Ideal) x1) (Cert.Sage.dstOf x1) (dst_col3b x1)]
  simp only [val_main_v94_apply, val_main_cst_15_apply, src_col3]
  rfl

/-- The mean row through the left weight matrix. -/
theorem dotl3 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x128, .f32⟩ : BufTy).Contents (Elt Ideal)) (n : Fin 100000) (j : Fin 128) :
    val_main_v102 (F := Ideal) x0 x1 x2 x3 x4 x5 x6 x7 x8 x9 x10 x11 x12 x13 x14 x15 x16 (ix2 n j)
      = ∑ k : Fin 128, Ideal.div (Cert.Sage.aggr (Cert.Sage.srcOf x1) (Cert.Sage.dstOf x1) (Cert.Sage.rd2 (val_main_v83 (F := Ideal) x0 x1 x2 x3 x4 x5 x6 x7 x8 x9 x10 x11 x12 x13 x14 x15)) n k)
          (max (Cert.Sage.degr (Cert.Sage.dstOf x1) n) Cert.Sage.one) * x16 (ix2 k j) := by
  rewrite [val_main_v102_apply]
  refine Finset.sum_congr rfl fun k _ => ?_
  have e1 : lidx_main_v102 (ix2 n j) k = ix2 n k := funext fun a => Fin.ext (by match a with | ⟨0, _⟩ => rfl | ⟨1, _⟩ => rfl)
  have e2 : ridx_main_v102 (ix2 n j) k = ix2 k j := funext fun a => Fin.ext (by match a with | ⟨0, _⟩ => rfl | ⟨1, _⟩ => rfl)
  rewrite [e1, e2, mean3]
  rfl

/-- The node's own row through the right weight matrix. -/
theorem dotr3 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x18 : (⟨S128x128, .f32⟩ : BufTy).Contents (Elt Ideal)) (n : Fin 100000) (j : Fin 128) :
    val_main_v106 (F := Ideal) x0 x1 x2 x3 x4 x5 x6 x7 x8 x9 x10 x11 x12 x13 x14 x15 x18 (ix2 n j) = ∑ k : Fin 128, (val_main_v83 (F := Ideal) x0 x1 x2 x3 x4 x5 x6 x7 x8 x9 x10 x11 x12 x13 x14 x15) (ix2 n k) * x18 (ix2 k j) := by
  rewrite [val_main_v106_apply]
  refine Finset.sum_congr rfl fun k _ => ?_
  have e1 : lidx_main_v106 (ix2 n j) k = ix2 n k := funext fun a => Fin.ext (by match a with | ⟨0, _⟩ => rfl | ⟨1, _⟩ => rfl)
  have e2 : ridx_main_v106 (ix2 n j) k = ix2 k j := funext fun a => Fin.ext (by match a with | ⟨0, _⟩ => rfl | ⟨1, _⟩ => rfl)
  rewrite [e1, e2]
  rfl

/-- Layer 3, read at node `n`, column `j`. -/
theorem layer3 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 x20 x21 x22 : (⟨S128, .f32⟩ : BufTy).Contents (Elt Ideal)) (n : Fin 100000) (j : Fin 128) :
    val_main_v123 (F := Ideal) x0 x1 x2 x3 x4 x5 x6 x7 x8 x9 x10 x11 x12 x13 x14 x15 x16 x17 x18 x19 x20 x21 x22 (ix2 n j)
      = Cert.Sage.layer (Cert.Sage.srcOf x1) (Cert.Sage.dstOf x1) (Cert.Sage.rd2 (val_main_v83 (F := Ideal) x0 x1 x2 x3 x4 x5 x6 x7 x8 x9 x10 x11 x12 x13 x14 x15)) (Cert.Sage.rd2 x16) (Cert.Sage.rd2 x18)
          (Cert.Sage.rd1 x17) (Cert.Sage.rd1 x19) (Cert.Sage.rd1 x20) (Cert.Sage.rd1 x21) (Cert.Sage.rd1 x22) n j := by
  have hb24 : idx_main_v104 (ix2 n j) = ix2 (0 : Fin 1) j := funext fun a => Fin.ext (by match a with | ⟨0, _⟩ => rfl | ⟨1, _⟩ => rfl)
  have hc23 : idx_main_v103 (ix2 (0 : Fin 1) j) = ix1 j := funext fun a => Fin.ext (by match a with | ⟨0, _⟩ => rfl)
  have hb29 : idx_main_v109 (ix2 n j) = ix2 (0 : Fin 1) j := funext fun a => Fin.ext (by match a with | ⟨0, _⟩ => rfl | ⟨1, _⟩ => rfl)
  have hc28 : idx_main_v108 (ix2 (0 : Fin 1) j) = ix1 j := funext fun a => Fin.ext (by match a with | ⟨0, _⟩ => rfl)
  have hb35 : idx_main_v115 (ix2 n j) = ix2 (0 : Fin 1) j := funext fun a => Fin.ext (by match a with | ⟨0, _⟩ => rfl | ⟨1, _⟩ => rfl)
  have hc34 : idx_main_v114 (ix2 (0 : Fin 1) j) = ix1 j := funext fun a => Fin.ext (by match a with | ⟨0, _⟩ => rfl)
  have hb38 : idx_main_v118 (ix2 n j) = ix2 (0 : Fin 1) j := funext fun a => Fin.ext (by match a with | ⟨0, _⟩ => rfl | ⟨1, _⟩ => rfl)
  have hc37 : idx_main_v117 (ix2 (0 : Fin 1) j) = ix1 j := funext fun a => Fin.ext (by match a with | ⟨0, _⟩ => rfl)
  have hb41 : idx_main_v121 (ix2 n j) = ix2 (0 : Fin 1) j := funext fun a => Fin.ext (by match a with | ⟨0, _⟩ => rfl | ⟨1, _⟩ => rfl)
  have hc40 : idx_main_v120 (ix2 (0 : Fin 1) j) = ix1 j := funext fun a => Fin.ext (by match a with | ⟨0, _⟩ => rfl)
  rewrite [val_main_v123_apply, val_main_v122_apply, val_main_v119_apply, val_main_v116_apply, val_main_v110_apply,
    val_main_v107_apply, val_main_v105_apply, dotl3, dotr3,
    val_main_v104_apply, hb24, val_main_v103_apply, hc23, val_main_v109_apply, hb29, val_main_v108_apply, hc28, val_main_v115_apply, hb35, val_main_v114_apply, hc34,
    val_main_v113_apply, val_main_v112_apply, val_main_v111_apply, val_main_cst_18_apply,
    val_main_v118_apply, hb38, val_main_v117_apply, hc37, val_main_v121_apply, hb41, val_main_v120_apply, hc40,
    val_main_call2_v0_apply, val_main_call2_cst_apply]
  rfl

/-- Layer 3 as a table of rows. -/
theorem layer3_rd2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 x20 x21 x22 : (⟨S128, .f32⟩ : BufTy).Contents (Elt Ideal)) :
    Cert.Sage.rd2 (val_main_v123 (F := Ideal) x0 x1 x2 x3 x4 x5 x6 x7 x8 x9 x10 x11 x12 x13 x14 x15 x16 x17 x18 x19 x20 x21 x22)
      = Cert.Sage.layer (Cert.Sage.srcOf x1) (Cert.Sage.dstOf x1) (Cert.Sage.rd2 (val_main_v83 (F := Ideal) x0 x1 x2 x3 x4 x5 x6 x7 x8 x9 x10 x11 x12 x13 x14 x15)) (Cert.Sage.rd2 x16) (Cert.Sage.rd2 x18)
          (Cert.Sage.rd1 x17) (Cert.Sage.rd1 x19) (Cert.Sage.rd1 x20) (Cert.Sage.rd1 x21) (Cert.Sage.rd1 x22) :=
  funext fun n => funext fun j => layer3 x0 x1 x2 x3 x4 x5 x6 x7 x8 x9 x10 x11 x12 x13 x14 x15 x16 x17 x18 x19 x20 x21 x22 n j

end Cert.Sage.Ref

end
-- ==== Proof.RefNet.lean ====
/-
  The reference program's result is the specification's network.

  After the three layers the head maps each node's row through a weight matrix and a bias, rectifies, and maps the result
  through a second weight matrix and bias to sixteen columns.
-/
import proofs.«164375_j16853451669719_2_alg».proof.Proof.Gen.ReferenceIdeal.Read
import proofs.«164375_j16853451669719_2_alg».proof.Proof.Spec
import proofs.«164375_j16853451669719_2_alg».proof.Proof.RefLayer1
import proofs.«164375_j16853451669719_2_alg».proof.Proof.RefLayer2
import proofs.«164375_j16853451669719_2_alg».proof.Proof.RefLayer3

noncomputable section

namespace Cert.Sage.Ref

open Cert.ReferenceIdeal Cert.ReferenceIdeal.Gen Cert.ReferenceIdeal.Read Idealize.ShloMosaic Idealize.ShloMosaic.ValueIdx

/-- The third layer's row through the head's first weight matrix. -/
theorem dot124 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 x20 x21 x22 : (⟨S128, .f32⟩ : BufTy).Contents (Elt Ideal)) (x23 : (⟨S128x128, .f32⟩ : BufTy).Contents (Elt Ideal)) (n : Fin 100000) (k : Fin 128) :
    val_main_v124 (F := Ideal) x0 x1 x2 x3 x4 x5 x6 x7 x8 x9 x10 x11 x12 x13 x14 x15 x16 x17 x18 x19 x20 x21 x22 x23 (ix2 n k) = ∑ k' : Fin 128, (val_main_v123 (F := Ideal) x0 x1 x2 x3 x4 x5 x6 x7 x8 x9 x10 x11 x12 x13 x14 x15 x16 x17 x18 x19 x20 x21 x22) (ix2 n k') * x23 (ix2 k' k) := by
  rewrite [val_main_v124_apply]
  refine Finset.sum_congr rfl fun k' _ => ?_
  have e1 : lidx_main_v124 (ix2 n k) k' = ix2 n k' := funext fun a => Fin.ext (by match a with | ⟨0, _⟩ => rfl | ⟨1, _⟩ => rfl)
  have e2 : ridx_main_v124 (ix2 n k) k' = ix2 k' k := funext fun a => Fin.ext (by match a with | ⟨0, _⟩ => rfl | ⟨1, _⟩ => rfl)
  rewrite [e1, e2]
  rfl

/-- The head's hidden row: affine, then rectified. -/
theorem hidden (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 x20 x21 x22 : (⟨S128, .f32⟩ : BufTy).Contents (Elt Ideal)) (x23 : (⟨S128x128, .f32⟩ : BufTy).Contents (Elt Ideal)) (x24 : (⟨S128, .f32⟩ : BufTy).Contents (Elt Ideal)) (n : Fin 100000) (k : Fin 128) :
    val_main_v128 (F := Ideal) x0 x1 x2 x3 x4 x5 x6 x7 x8 x9 x10 x11 x12 x13 x14 x15 x16 x17 x18 x19 x20 x21 x22 x23 x24 (ix2 n k)
      = max ((∑ k' : Fin 128, (val_main_v123 (F := Ideal) x0 x1 x2 x3 x4 x5 x6 x7 x8 x9 x10 x11 x12 x13 x14 x15 x16 x17 x18 x19 x20 x21 x22) (ix2 n k') * x23 (ix2 k' k)) + x24 (ix1 k)) Cert.Sage.zero := by
  have hb126 : idx_main_v126 (ix2 n k) = ix2 (0 : Fin 1) k := funext fun a => Fin.ext (by match a with | ⟨0, _⟩ => rfl | ⟨1, _⟩ => rfl)
  have hc125 : idx_main_v125 (ix2 (0 : Fin 1) k) = ix1 k := funext fun a => Fin.ext (by match a with | ⟨0, _⟩ => rfl)
  rewrite [val_main_v128_apply, val_main_v127_apply, dot124, val_main_v126_apply, hb126, val_main_v125_apply, hc125,
    val_main_call3_v0_apply, val_main_call3_cst_apply]
  rfl

/-- The hidden row through the head's second weight matrix. -/
theorem dot129 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 x20 x21 x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x16, .f32⟩ : BufTy).Contents (Elt Ideal)) (n : Fin 100000) (q : Fin 16) :
    val_main_v129 (F := Ideal) x0 x1 x2 x3 x4 x5 x6 x7 x8 x9 x10 x11 x12 x13 x14 x15 x16 x17 x18 x19 x20 x21 x22 x23 x24 x25 (ix2 n q)
      = ∑ k : Fin 128, max ((∑ k' : Fin 128, (val_main_v123 (F := Ideal) x0 x1 x2 x3 x4 x5 x6 x7 x8 x9 x10 x11 x12 x13 x14 x15 x16 x17 x18 x19 x20 x21 x22) (ix2 n k') * x23 (ix2 k' k)) + x24 (ix1 k)) Cert.Sage.zero * x25 (ix2 k q) := by
  rewrite [val_main_v129_apply]
  refine Finset.sum_congr rfl fun k _ => ?_
  have e1 : lidx_main_v129 (ix2 n q) k = ix2 n k := funext fun a => Fin.ext (by match a with | ⟨0, _⟩ => rfl | ⟨1, _⟩ => rfl)
  have e2 : ridx_main_v129 (ix2 n q) k = ix2 k q := funext fun a => Fin.ext (by match a with | ⟨0, _⟩ => rfl | ⟨1, _⟩ => rfl)
  rewrite [e1, e2, hidden]
  rfl

/-- The result, read at node `n`, column `q`: the head's row of the third layer's row. -/
theorem head (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 x20 x21 x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x16, .f32⟩ : BufTy).Contents (Elt Ideal)) (x26 : (⟨S16, .f32⟩ : BufTy).Contents (Elt Ideal)) (n : Fin 100000) (q : Fin 16) :
    val_main_v132 (F := Ideal) x0 x1 x2 x3 x4 x5 x6 x7 x8 x9 x10 x11 x12 x13 x14 x15 x16 x17 x18 x19 x20 x21 x22 x23 x24 x25 x26 (ix2 n q)
      = Cert.Sage.headRow (Cert.Sage.rd2 (val_main_v123 (F := Ideal) x0 x1 x2 x3 x4 x5 x6 x7 x8 x9 x10 x11 x12 x13 x14 x15 x16 x17 x18 x19 x20 x21 x22) n) (Cert.Sage.rd2 x23) (Cert.Sage.rd1 x24) (Cert.Sage.rd2 x25) (Cert.Sage.rd1 x26) q := by
  have hb131 : idx_main_v131 (ix2 n q) = ix2 (0 : Fin 1) q := funext fun a => Fin.ext (by match a with | ⟨0, _⟩ => rfl | ⟨1, _⟩ => rfl)
  have hc130 : idx_main_v130 (ix2 (0 : Fin 1) q) = ix1 q := funext fun a => Fin.ext (by match a with | ⟨0, _⟩ => rfl)
  rewrite [val_main_v132_apply, dot129, val_main_v131_apply, hb131, val_main_v130_apply, hc130]
  rfl

/-- The result, read at node `n`, column `q`, is the specification's network there. -/
theorem result_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 x20 x21 x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x16, .f32⟩ : BufTy).Contents (Elt Ideal)) (x26 : (⟨S16, .f32⟩ : BufTy).Contents (Elt Ideal)) (n : Fin 100000) (q : Fin 16) :
    val_main_v132 (F := Ideal) x0 x1 x2 x3 x4 x5 x6 x7 x8 x9 x10 x11 x12 x13 x14 x15 x16 x17 x18 x19 x20 x21 x22 x23 x24 x25 x26 (ix2 n q)
      = Cert.Sage.net (Cert.Sage.srcOf x1) (Cert.Sage.dstOf x1) (Cert.Sage.rd2 x0) (Cert.Sage.rd2 x2) (Cert.Sage.rd2 x4) (Cert.Sage.rd1 x3) (Cert.Sage.rd1 x5) (Cert.Sage.rd1 x6) (Cert.Sage.rd1 x7) (Cert.Sage.rd1 x8) (Cert.Sage.rd2 x9) (Cert.Sage.rd2 x11) (Cert.Sage.rd1 x10) (Cert.Sage.rd1 x12) (Cert.Sage.rd1 x13) (Cert.Sage.rd1 x14) (Cert.Sage.rd1 x15) (Cert.Sage.rd2 x16) (Cert.Sage.rd2 x18) (Cert.Sage.rd1 x17) (Cert.Sage.rd1 x19) (Cert.Sage.rd1 x20) (Cert.Sage.rd1 x21) (Cert.Sage.rd1 x22) (Cert.Sage.rd2 x23) (Cert.Sage.rd1 x24) (Cert.Sage.rd2 x25) (Cert.Sage.rd1 x26) n q := by
  rewrite [head]
  unfold Cert.Sage.net
  rewrite [layer3_rd2, layer2_rd2, layer1_rd2]
  rfl

/-- The reference program's result is the specification's network, read at the index's two coordinates. -/
theorem result_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 x20 x21 x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x16, .f32⟩ : BufTy).Contents (Elt Ideal)) (x26 : (⟨S16, .f32⟩ : BufTy).Contents (Elt Ideal)) :
    val_main_v132 (F := Ideal) x0 x1 x2 x3 x4 x5 x6 x7 x8 x9 x10 x11 x12 x13 x14 x15 x16 x17 x18 x19 x20 x21 x22 x23 x24 x25 x26
      = fun i => Cert.Sage.net (Cert.Sage.srcOf x1) (Cert.Sage.dstOf x1) (Cert.Sage.rd2 x0) (Cert.Sage.rd2 x2) (Cert.Sage.rd2 x4) (Cert.Sage.rd1 x3) (Cert.Sage.rd1 x5) (Cert.Sage.rd1 x6) (Cert.Sage.rd1 x7) (Cert.Sage.rd1 x8) (Cert.Sage.rd2 x9) (Cert.Sage.rd2 x11) (Cert.Sage.rd1 x10) (Cert.Sage.rd1 x12) (Cert.Sage.rd1 x13) (Cert.Sage.rd1 x14) (Cert.Sage.rd1 x15) (Cert.Sage.rd2 x16) (Cert.Sage.rd2 x18) (Cert.Sage.rd1 x17) (Cert.Sage.rd1 x19) (Cert.Sage.rd1 x20) (Cert.Sage.rd1 x21) (Cert.Sage.rd1 x22) (Cert.Sage.rd2 x23) (Cert.Sage.rd1 x24) (Cert.Sage.rd2 x25) (Cert.Sage.rd1 x26) (i 0) (i 1) := by
  funext i
  exact (congrArg (val_main_v132 (F := Ideal) x0 x1 x2 x3 x4 x5 x6 x7 x8 x9 x10 x11 x12 x13 x14 x15 x16 x17 x18 x19 x20 x21 x22 x23 x24 x25 x26) (eq_ix2 i)).trans
    (result_apply x0 x1 x2 x3 x4 x5 x6 x7 x8 x9 x10 x11 x12 x13 x14 x15 x16 x17 x18 x19 x20 x21 x22 x23 x24 x25 x26 (i 0) (i 1))

end Cert.Sage.Ref

end
-- ==== Proof.Claims.lean ====
/-
  The certificate's claims. Each program runs to the end without a fault and leaves its arguments as launched. At the
  exact values the kernel's result array and the reference program's result array are one function of the argument
  arrays: the three-layer mean-aggregating network with its head, `Cert.Sage.netArr`.
-/
import proofs.«164375_j16853451669719_2_alg».proof.Defs
import proofs.«164375_j16853451669719_2_alg».proof.Proof.Gen.Kernel
import proofs.«164375_j16853451669719_2_alg».proof.Proof.Gen.Kernel.Frame
import proofs.«164375_j16853451669719_2_alg».proof.Proof.Gen.KernelIdeal
import proofs.«164375_j16853451669719_2_alg».proof.Proof.Gen.KernelIdeal.Frame
import proofs.«164375_j16853451669719_2_alg».proof.Proof.Gen.ReferenceIdeal
import proofs.«164375_j16853451669719_2_alg».proof.Proof.Gen.Pre_finite_inputs
import proofs.«164375_j16853451669719_2_alg».proof.Proof.Gen.ReferenceIdeal.Run
import proofs.«164375_j16853451669719_2_alg».proof.Proof.Gen.ReferenceIdeal.Read
import proofs.«164375_j16853451669719_2_alg».proof.Proof.KernelRun
import proofs.«164375_j16853451669719_2_alg».proof.Proof.NetOf
import proofs.«164375_j16853451669719_2_alg».proof.Proof.RefNet

noncomputable section

open Idealize.ShloMosaic Idealize.ShloMosaic.TcCoe Idealize.SL.Sem

namespace Cert.Proof.SageClaims

/-- The kernel as printed runs and leaves its arguments unchanged. -/
theorem frame_p : Cert.frame_Kernel := fun m ρ _ => Cert.Kernel.Gen.frame m ρ

/-- The kernel at the exact values runs and leaves its arguments unchanged. -/
theorem frame_pi : Cert.frame_KernelIdeal := fun m ρ _ => Cert.KernelIdeal.Gen.frame m ρ

/-- The reference program at the exact values runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The exact-value reading rewrote no operation of the kernel. -/
theorem preserves : Cert.preserves_Kernel_KernelIdeal := trivial

set_option maxHeartbeats 4000000 in
/-- Given that the kernel's result array ends at the network of its arguments (`hK`), the kernel and the reference
    program, from memories agreeing on the arguments, both run, end with equal result arrays, namely the network of
    the arguments, and leave their arguments unchanged. -/
theorem algebraic_of
    (hK : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD),
      Cert.KernelIdeal.Gen.W8 (F := Ideal) m ρ c (Proc.devRef .tc Cert.KernelIdeal.main_v77)
        = Cert.Sage.netArr (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))
            (m ((c.tc : Thread Cert.KernelIdeal.nD Cert.KernelIdeal.τ).loc Cert.KernelIdeal.main_arg10))
            (m ((c.tc : Thread Cert.KernelIdeal.nD Cert.KernelIdeal.τ).loc Cert.KernelIdeal.main_arg11))
            (m ((c.tc : Thread Cert.KernelIdeal.nD Cert.KernelIdeal.τ).loc Cert.KernelIdeal.main_arg12))
            (m ((c.tc : Thread Cert.KernelIdeal.nD Cert.KernelIdeal.τ).loc Cert.KernelIdeal.main_arg13))
            (m ((c.tc : Thread Cert.KernelIdeal.nD Cert.KernelIdeal.τ).loc Cert.KernelIdeal.main_arg14))
            (m ((c.tc : Thread Cert.KernelIdeal.nD Cert.KernelIdeal.τ).loc Cert.KernelIdeal.main_arg15))
            (m ((c.tc : Thread Cert.KernelIdeal.nD Cert.KernelIdeal.τ).loc Cert.KernelIdeal.main_arg16))
            (m ((c.tc : Thread Cert.KernelIdeal.nD Cert.KernelIdeal.τ).loc Cert.KernelIdeal.main_arg17))
            (m ((c.tc : Thread Cert.KernelIdeal.nD Cert.KernelIdeal.τ).loc Cert.KernelIdeal.main_arg18))
            (m ((c.tc : Thread Cert.KernelIdeal.nD Cert.KernelIdeal.τ).loc Cert.KernelIdeal.main_arg19))
            (m ((c.tc : Thread Cert.KernelIdeal.nD Cert.KernelIdeal.τ).loc Cert.KernelIdeal.main_arg20))
            (m ((c.tc : Thread Cert.KernelIdeal.nD Cert.KernelIdeal.τ).loc Cert.KernelIdeal.main_arg21))
            (m ((c.tc : Thread Cert.KernelIdeal.nD Cert.KernelIdeal.τ).loc Cert.KernelIdeal.main_arg22))
            (m ((c.tc : Thread Cert.KernelIdeal.nD Cert.KernelIdeal.τ).loc Cert.KernelIdeal.main_arg23))
            (m ((c.tc : Thread Cert.KernelIdeal.nD Cert.KernelIdeal.τ).loc Cert.KernelIdeal.main_arg24))
            (m ((c.tc : Thread Cert.KernelIdeal.nD Cert.KernelIdeal.τ).loc Cert.KernelIdeal.main_arg25))
            (m ((c.tc : Thread Cert.KernelIdeal.nD Cert.KernelIdeal.τ).loc Cert.KernelIdeal.main_arg26))) :
    Cert.algebraic_KernelIdeal_ReferenceIdeal := by
  intro m ρ m' ρ' _ hagree
  refine ⟨fun c => Cert.Sage.netArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26)),
    (θ_run Cert.KernelIdeal.defs _ _).mono (fun r h c => ⟨(h c).1.trans (hK m ρ c), (h c).2⟩)
      (Cert.KernelIdeal.Gen.Named.run_value (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26⟩ := hagree c
  rewrite [Cert.ReferenceIdeal.Read.val_main_v132_eq, Cert.Sage.Ref.result_eq,
    h0, h1, h2, h3, h4, h5, h6, h7, h8, h9, h10, h11, h12, h13, h14, h15, h16, h17, h18, h19, h20, h21, h22, h23, h24, h25, h26]
  rfl

end Cert.Proof.SageClaims

end
-- ==== Proof.HostTerms.lean ====
/-
  The values the idealized kernel's host operations compute before and between its tiled regions, as functions of the
  edge list and of a node-feature table: the two rows of the edge list, the permutation that sorts the edges by
  destination, the source and destination words read through it, the reciprocal of every node's edge count (at least
  one), and the sum into every node of the rows of the sources of its edges.
-/
import proofs.«164375_j16853451669719_2_alg».proof.KernelIdeal
import proofs.«164375_j16853451669719_2_alg».proof.Proof.Gen.KernelIdeal
import Idealize.ShloMosaic.PureOps.Ideal

noncomputable section

namespace Cert.Sage.Host

open Cert.KernelIdeal Cert.KernelIdeal.Facts₀ Cert.KernelIdeal.Facts Idealize.ShloMosaic

/-- The destination and the source row of the edge list, flattened. -/
def dstT (ei : IVec S2x1600000 32) : IVec S1600000 32 :=
  shapeCast S1600000 (extractStridedSlice S1x1600000 ![1, 0] ei slices_S2x1600000_S1x1600000_1_0) shapeCasts_S1x1600000_S1600000
def srcT (ei : IVec S2x1600000 32) : IVec S1600000 32 :=
  shapeCast S1600000 (extractStridedSlice S1x1600000 ![0, 0] ei slices_S2x1600000_S1x1600000_0_0) shapeCasts_S1x1600000_S1600000

/-- The positions of the edges in the stable order of their destinations. -/
def ordT (ei : IVec S2x1600000 32) : IVec S1600000 32 :=
  (Host.sort2 S1600000 0 comparator_i32_i32_d0 (dstT ei) (iotaInDim S1600000 32 0)).2

/-- The same positions, a negative one counted from the end. -/
def ordW (ei : IVec S2x1600000 32) : IVec S1600000 32 :=
  select (cmpi .slt (ordT ei) (broadcastInDim S1600000 ![] bcast_S_S1600000 (constantI S_ 32 0#32)))
    (addi (ordT ei) (broadcastInDim S1600000 ![] bcast_S_S1600000 (constantI S_ 32 1600000#32))) (ordT ei)

/-- The source and destination words in sorted order. -/
def srcST (ei : IVec S2x1600000 32) : IVec S1600000 32 :=
  Host.gather gather_S1600000_S1600000x1_S1600000_n_0_n_n_0_1_1 (srcT ei)
    (broadcastInDim S1600000x1 ![0] bcast_S1600000_S1600000x1_0 (ordW ei))
def dstST (ei : IVec S2x1600000 32) : IVec S1600000 32 :=
  Host.gather gather_S1600000_S1600000x1_S1600000_n_0_n_n_0_1_1 (dstT ei)
    (broadcastInDim S1600000x1 ![0] bcast_S1600000_S1600000x1_0 (ordW ei))

/-- Every node's edge count, as a sum of ones. -/
def degT (ei : IVec S2x1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 (dstST ei))
    (broadcastInDim S1600000 ![] bcast_S_S1600000 (constant (F := Ideal) S_ .f32 0x3F800000#32))

/-- One over the edge count, the count replaced by one where it is smaller, as a column. -/
def invT (ei : IVec S2x1600000 32) : FVec Ideal S100000x1 .f32 :=
  shapeCast S100000x1
    (Host.divf (broadcastInDim S100000 ![] bcast_S_S100000 (constant (F := Ideal) S_ .f32 0x3F800000#32))
      (maximumf (degT ei) (broadcastInDim S100000 ![] bcast_S_S100000 (constant (F := Ideal) S_ .f32 0x3F800000#32))))
    shapeCasts_S100000_S100000x1

/-- Source words, a negative one counted from the end of the node table. -/
def wrapN (sS : IVec S1600000 32) : IVec S1600000 32 :=
  select (cmpi .slt sS (broadcastInDim S1600000 ![] bcast_S_S1600000 (constantI S_ 32 0#32)))
    (addi sS (broadcastInDim S1600000 ![] bcast_S_S1600000 (constantI S_ 32 100000#32))) sS

/-- The sum, into every node, of the rows of `h` at the sources `sS` of the edges sent to it by `dS`. -/
def aggOf (sS dS : IVec S1600000 32) (h : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dS)
    (Host.gather gather_S100000x128_S1600000x1_S1600000x128_1_0_n_n_0_1_1128 h
      (broadcastInDim S1600000x1 ![0] bcast_S1600000_S1600000x1_0 (wrapN sS)))

/-- A length-128 vector as one row, a length-16 vector as one row. -/
def row128 (b : FVec Ideal S128 .f32) : FVec Ideal S1x128 .f32 := shapeCast S1x128 b shapeCasts_S128_S1x128
def row16 (b : FVec Ideal S16 .f32) : FVec Ideal S1x16 .f32 := shapeCast S1x16 b shapeCasts_S16_S1x16

end Cert.Sage.Host

end
-- ==== Proof.Fold3.lean ====
/-
  The arrays the first tiled region finds, as the host operations before it compute them from the arguments: the sorted source and destination words, the reciprocal edge counts, the aggregated input rows, the bias and normalisation vectors as rows; the arguments themselves are untouched.
-/
import proofs.«164375_j16853451669719_2_alg».proof.Proof.Gen.KernelIdeal.Frame
import proofs.«164375_j16853451669719_2_alg».proof.Proof.HostTerms

import Idealize.ShloMosaic.Lib.StableHlo.Run
import Idealize.ShloMosaic.PureOps.Ideal

set_option maxRecDepth 16384

noncomputable section

namespace Cert.Sage.Fold

open Cert.KernelIdeal Cert.KernelIdeal.Gen Cert.Sage.Host
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
theorem W3_v11 (c : Dev nD) : (W3 m ρ c (Proc.devRef .tc main_v11) : IVec S1600000 32) = srcST (m ((c : Thread nD τ).loc main_arg1)) := by
  dsimp only [W3, W2, W1, W0]; after_results_simp; rfl

set_option maxHeartbeats 4000000 in
theorem W3_v18 (c : Dev nD) : (W3 m ρ c (Proc.devRef .tc main_v18) : IVec S1600000 32) = dstST (m ((c : Thread nD τ).loc main_arg1)) := by
  dsimp only [W3, W2, W1, W0]; after_results_simp; rfl

set_option maxHeartbeats 4000000 in
theorem W3_v27 (c : Dev nD) : (W3 m ρ c (Proc.devRef .tc main_v27) : FVec Ideal S100000x1 .f32) = invT (m ((c : Thread nD τ).loc main_arg1)) := by
  dsimp only [W3, W2, W1, W0]; after_results_simp; rfl

set_option maxHeartbeats 4000000 in
theorem W3_v37 (c : Dev nD) : (W3 m ρ c (Proc.devRef .tc main_v37) : FVec Ideal S100000x128 .f32)
    = aggOf (srcST (m ((c : Thread nD τ).loc main_arg1))) (dstST (m ((c : Thread nD τ).loc main_arg1))) (m ((c : Thread nD τ).loc main_arg0)) := by
  dsimp only [W3, W2, W1, W0]; after_results_simp; rfl

theorem W3_v38 (c : Dev nD) : (W3 m ρ c (Proc.devRef .tc main_v38) : FVec Ideal S1x128 .f32) = row128 (m ((c : Thread nD τ).loc main_arg3)) := by
  dsimp only [W3, W2, W1, W0]; after_results; rfl

theorem W3_v39 (c : Dev nD) : (W3 m ρ c (Proc.devRef .tc main_v39) : FVec Ideal S1x128 .f32) = row128 (m ((c : Thread nD τ).loc main_arg5)) := by
  dsimp only [W3, W2, W1, W0]; after_results; rfl

theorem W3_v40 (c : Dev nD) : (W3 m ρ c (Proc.devRef .tc main_v40) : FVec Ideal S1x128 .f32) = row128 (m ((c : Thread nD τ).loc main_arg6)) := by
  dsimp only [W3, W2, W1, W0]; after_results; rfl

theorem W3_v41 (c : Dev nD) : (W3 m ρ c (Proc.devRef .tc main_v41) : FVec Ideal S1x128 .f32) = row128 (m ((c : Thread nD τ).loc main_arg7)) := by
  dsimp only [W3, W2, W1, W0]; after_results; rfl

theorem W3_v42 (c : Dev nD) : (W3 m ρ c (Proc.devRef .tc main_v42) : FVec Ideal S1x128 .f32) = row128 (m ((c : Thread nD τ).loc main_arg8)) := by
  dsimp only [W3, W2, W1, W0]; after_results; rfl

theorem W3_arg0 (c : Dev nD) : W3 m ρ c (Proc.devRef .tc main_arg0) = m ((c : Thread nD τ).loc main_arg0) := by
  dsimp only [W3, W2, W1, W0]; after_results

theorem W3_arg2 (c : Dev nD) : W3 m ρ c (Proc.devRef .tc main_arg2) = m ((c : Thread nD τ).loc main_arg2) := by
  dsimp only [W3, W2, W1, W0]; after_results

theorem W3_arg4 (c : Dev nD) : W3 m ρ c (Proc.devRef .tc main_arg4) = m ((c : Thread nD τ).loc main_arg4) := by
  dsimp only [W3, W2, W1, W0]; after_results

theorem W3_arg9 (c : Dev nD) : W3 m ρ c (Proc.devRef .tc main_arg9) = m ((c : Thread nD τ).loc main_arg9) := by
  dsimp only [W3, W2, W1, W0]; after_results

theorem W3_arg10 (c : Dev nD) : W3 m ρ c (Proc.devRef .tc main_arg10) = m ((c : Thread nD τ).loc main_arg10) := by
  dsimp only [W3, W2, W1, W0]; after_results

theorem W3_arg11 (c : Dev nD) : W3 m ρ c (Proc.devRef .tc main_arg11) = m ((c : Thread nD τ).loc main_arg11) := by
  dsimp only [W3, W2, W1, W0]; after_results

theorem W3_arg12 (c : Dev nD) : W3 m ρ c (Proc.devRef .tc main_arg12) = m ((c : Thread nD τ).loc main_arg12) := by
  dsimp only [W3, W2, W1, W0]; after_results

theorem W3_arg13 (c : Dev nD) : W3 m ρ c (Proc.devRef .tc main_arg13) = m ((c : Thread nD τ).loc main_arg13) := by
  dsimp only [W3, W2, W1, W0]; after_results

theorem W3_arg14 (c : Dev nD) : W3 m ρ c (Proc.devRef .tc main_arg14) = m ((c : Thread nD τ).loc main_arg14) := by
  dsimp only [W3, W2, W1, W0]; after_results

theorem W3_arg15 (c : Dev nD) : W3 m ρ c (Proc.devRef .tc main_arg15) = m ((c : Thread nD τ).loc main_arg15) := by
  dsimp only [W3, W2, W1, W0]; after_results

theorem W3_arg16 (c : Dev nD) : W3 m ρ c (Proc.devRef .tc main_arg16) = m ((c : Thread nD τ).loc main_arg16) := by
  dsimp only [W3, W2, W1, W0]; after_results

theorem W3_arg17 (c : Dev nD) : W3 m ρ c (Proc.devRef .tc main_arg17) = m ((c : Thread nD τ).loc main_arg17) := by
  dsimp only [W3, W2, W1, W0]; after_results

theorem W3_arg18 (c : Dev nD) : W3 m ρ c (Proc.devRef .tc main_arg18) = m ((c : Thread nD τ).loc main_arg18) := by
  dsimp only [W3, W2, W1, W0]; after_results

theorem W3_arg19 (c : Dev nD) : W3 m ρ c (Proc.devRef .tc main_arg19) = m ((c : Thread nD τ).loc main_arg19) := by
  dsimp only [W3, W2, W1, W0]; after_results

theorem W3_arg20 (c : Dev nD) : W3 m ρ c (Proc.devRef .tc main_arg20) = m ((c : Thread nD τ).loc main_arg20) := by
  dsimp only [W3, W2, W1, W0]; after_results

theorem W3_arg21 (c : Dev nD) : W3 m ρ c (Proc.devRef .tc main_arg21) = m ((c : Thread nD τ).loc main_arg21) := by
  dsimp only [W3, W2, W1, W0]; after_results

theorem W3_arg22 (c : Dev nD) : W3 m ρ c (Proc.devRef .tc main_arg22) = m ((c : Thread nD τ).loc main_arg22) := by
  dsimp only [W3, W2, W1, W0]; after_results

theorem W3_arg23 (c : Dev nD) : W3 m ρ c (Proc.devRef .tc main_arg23) = m ((c : Thread nD τ).loc main_arg23) := by
  dsimp only [W3, W2, W1, W0]; after_results

theorem W3_arg24 (c : Dev nD) : W3 m ρ c (Proc.devRef .tc main_arg24) = m ((c : Thread nD τ).loc main_arg24) := by
  dsimp only [W3, W2, W1, W0]; after_results

theorem W3_arg25 (c : Dev nD) : W3 m ρ c (Proc.devRef .tc main_arg25) = m ((c : Thread nD τ).loc main_arg25) := by
  dsimp only [W3, W2, W1, W0]; after_results

theorem W3_arg26 (c : Dev nD) : W3 m ρ c (Proc.devRef .tc main_arg26) = m ((c : Thread nD τ).loc main_arg26) := by
  dsimp only [W3, W2, W1, W0]; after_results

end Cert.Sage.Fold

end
-- ==== Proof.KernelNet.lean ====
/-
  One layer and the head of the network as maps of whole arrays, in the layout the tiled kernel uses: the aggregated
  rows `A`, the column `I` of reciprocal edge counts that scales them, the node rows `H`, the two weight matrices, and
  the bias and the normalisation vectors as single rows.
-/
import proofs.«164375_j16853451669719_2_alg».proof.Proof.Spec

noncomputable section

namespace Cert.Sage

open Idealize.ShloMosaic Idealize.ShloMosaic.ValueIdx

/-- A layer, array to array: row `r` of the result is `denseRow` of row `r` of `A` scaled by `I r`, and of row `r` of `H`. -/
def kLayer (A : (⟨2, ![100000, 128]⟩ : Shape).Idx → EReal) (I : (⟨2, ![100000, 1]⟩ : Shape).Idx → EReal)
    (H : (⟨2, ![100000, 128]⟩ : Shape).Idx → EReal) (Wl : (⟨2, ![128, 128]⟩ : Shape).Idx → EReal)
    (bl : (⟨2, ![1, 128]⟩ : Shape).Idx → EReal) (Wr : (⟨2, ![128, 128]⟩ : Shape).Idx → EReal)
    (g be mu v : (⟨2, ![1, 128]⟩ : Shape).Idx → EReal) : (⟨2, ![100000, 128]⟩ : Shape).Idx → EReal := fun i =>
  (fun (r : Fin 100000) (j : Fin 128) =>
    denseRow (fun k => A (ix2 r k) * I (ix2 r (0 : Fin 1))) (fun k => H (ix2 r k)) (rd2 Wl) (rd2 Wr)
      (fun a => bl (ix2 (0 : Fin 1) a)) (fun a => g (ix2 (0 : Fin 1) a)) (fun a => be (ix2 (0 : Fin 1) a))
      (fun a => mu (ix2 (0 : Fin 1) a)) (fun a => v (ix2 (0 : Fin 1) a)) j) (i 0) (i 1)

/-- The last layer followed by the head, array to array. -/
def kHead (A : (⟨2, ![100000, 128]⟩ : Shape).Idx → EReal) (I : (⟨2, ![100000, 1]⟩ : Shape).Idx → EReal)
    (H : (⟨2, ![100000, 128]⟩ : Shape).Idx → EReal) (Wl : (⟨2, ![128, 128]⟩ : Shape).Idx → EReal)
    (bl : (⟨2, ![1, 128]⟩ : Shape).Idx → EReal) (Wr : (⟨2, ![128, 128]⟩ : Shape).Idx → EReal)
    (g be mu v : (⟨2, ![1, 128]⟩ : Shape).Idx → EReal) (Wf : (⟨2, ![128, 128]⟩ : Shape).Idx → EReal)
    (bf : (⟨2, ![1, 128]⟩ : Shape).Idx → EReal) (Wc : (⟨2, ![128, 16]⟩ : Shape).Idx → EReal)
    (bc : (⟨2, ![1, 16]⟩ : Shape).Idx → EReal) : (⟨2, ![100000, 16]⟩ : Shape).Idx → EReal := fun i =>
  (fun (r : Fin 100000) (j : Fin 16) =>
    headRow (fun a' => denseRow (fun k => A (ix2 r k) * I (ix2 r (0 : Fin 1))) (fun k => H (ix2 r k)) (rd2 Wl) (rd2 Wr)
      (fun a => bl (ix2 (0 : Fin 1) a)) (fun a => g (ix2 (0 : Fin 1) a)) (fun a => be (ix2 (0 : Fin 1) a))
      (fun a => mu (ix2 (0 : Fin 1) a)) (fun a => v (ix2 (0 : Fin 1) a)) a')
      (rd2 Wf) (fun a => bf (ix2 (0 : Fin 1) a)) (rd2 Wc) (fun a => bc (ix2 (0 : Fin 1) a)) j) (i 0) (i 1)

end Cert.Sage

end
-- ==== Proof.Region0.lean ====
/-
  Region 0 of the idealized kernel as one function of the arrays it finds: the grid's 25 points each take 4000
  consecutive rows, so point t writes rows 4000·t … 4000·t + 3999 of the output, each a function of the same row of the
  row-tiled inputs and of the whole of the small inputs; the 25 blocks tile the output array.
-/
import proofs.«164375_j16853451669719_2_alg».proof.Proof.Gen.KernelIdeal.Frame
import proofs.«164375_j16853451669719_2_alg».proof.Proof.Spec
import proofs.«164375_j16853451669719_2_alg».proof.Proof.KernelNet
import Idealize.ShloMosaic.Lib.Pipeline.Value
import Idealize.ShloMosaic.Lib.ValueIdx
import Idealize.ShloMosaic.PureOps.Ideal

set_option maxRecDepth 16384

noncomputable section

namespace Cert.Sage.Region0

open Cert.KernelIdeal Cert.KernelIdeal.Gen
open Idealize.ShloMosaic Idealize.ShloMosaic.TcCoe Idealize.ShloMosaic.ValueIdx Idealize.SL.Sem
open Idealize.ShloMosaic.Pipeline (Dat)

/-- What the body leaves in row r, column j of the output block, as a function of the input blocks. -/
def BodyAt : Prop := ∀ (x0 : Vec Ideal S4000x128 .f32) (x1 : Vec Ideal S4000x1 .f32) (x2 : Vec Ideal S4000x128 .f32) (x3 : Vec Ideal S128x128 .f32) (x4 : Vec Ideal S1x128 .f32) (x5 : Vec Ideal S128x128 .f32) (x6 : Vec Ideal S1x128 .f32) (x7 : Vec Ideal S1x128 .f32) (x8 : Vec Ideal S1x128 .f32) (x9 : Vec Ideal S1x128 .f32) (r : Fin 4000) (j : Fin 128),
    out0_10 (F := Ideal) x0 x1 x2 x3 x4 x5 x6 x7 x8 x9 (ix2 r j : S4000x128.Idx) =
      Cert.Sage.denseRow (fun k => x0 (ix2 r k) * x1 (ix2 r (0 : Fin 1))) (fun k => x2 (ix2 r k))
      (Cert.Sage.rd2 x3) (Cert.Sage.rd2 x5) (fun a => x4 (ix2 (0 : Fin 1) a)) (fun a => x6 (ix2 (0 : Fin 1) a))
      (fun a => x7 (ix2 (0 : Fin 1) a)) (fun a => x8 (ix2 (0 : Fin 1) a)) (fun a => x9 (ix2 (0 : Fin 1) a)) j

variable (V : (c : Dev nD) → (b : Ref sig .tc) → Buf (Elt Ideal) ((c : Thread nD τ).loc b))

theorem N_eq : cfg0.N = 25 := N_0

/-- Row r of point t's block is row 4000·t + r of the array. -/
def rowAt (t : Fin cfg0.N) (r : Fin 4000) : Fin 100000 :=
  ⟨t.val * 4000 + r.val, by have h : t.val < 25 := lt_of_lt_of_eq t.isLt N_eq; have := r.isLt; omega⟩

/-- Input array 0 of the region, as the region finds it. -/
abbrev a0 (c : Dev nD) : S100000x128.Idx → EReal := V c main_v37
/-- Input array 1 of the region, as the region finds it. -/
abbrev a1 (c : Dev nD) : S100000x1.Idx → EReal := V c main_v27
/-- Input array 2 of the region, as the region finds it. -/
abbrev a2 (c : Dev nD) : S100000x128.Idx → EReal := V c main_arg0
/-- Input array 3 of the region, as the region finds it. -/
abbrev a3 (c : Dev nD) : S128x128.Idx → EReal := V c main_arg2
/-- Input array 4 of the region, as the region finds it. -/
abbrev a4 (c : Dev nD) : S1x128.Idx → EReal := V c main_v38
/-- Input array 5 of the region, as the region finds it. -/
abbrev a5 (c : Dev nD) : S128x128.Idx → EReal := V c main_arg4
/-- Input array 6 of the region, as the region finds it. -/
abbrev a6 (c : Dev nD) : S1x128.Idx → EReal := V c main_v39
/-- Input array 7 of the region, as the region finds it. -/
abbrev a7 (c : Dev nD) : S1x128.Idx → EReal := V c main_v40
/-- Input array 8 of the region, as the region finds it. -/
abbrev a8 (c : Dev nD) : S1x128.Idx → EReal := V c main_v41
/-- Input array 9 of the region, as the region finds it. -/
abbrev a9 (c : Dev nD) : S1x128.Idx → EReal := V c main_v42

/-- The whole output array, row by row, from the arrays the region finds. -/
def G (c : Dev nD) : S100000x128.Idx → EReal :=
  Cert.Sage.kLayer (a0 V c) (a1 V c) (a2 V c) (a3 V c) (a4 V c) (a5 V c) (a6 V c) (a7 V c) (a8 V c) (a9 V c)

/-- The printed block index maps over the grid: a row-tiled window's block number is the point, the others' is zero. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = t.val
    ∧ win0_10.index t (1 : Fin 2) = 0 :=
  (by decide +kernel : ∀ t : Fin grid0.N, _)

theorem emb0 (t : Fin cfg0.N) (r : Fin 4000) (k : Fin 128) :
    ((cfg0.win 0).blk t).view.emb (ix2 r k : S4000x128.Idx) = ix2 (rowAt t r) k := by
  obtain ⟨f0, f1, f2, f3, f4, f5, f6, f7, f8, f9, f10, f11, f12, f13, f14, f15, f16, f17, f18, f19, f20, f21⟩ := idx_facts t
  funext a; apply Fin.ext
  match a with
  | ⟨0, _⟩ => show win0_0.index t (0 : Fin 2) * 4000 + 1 * r.val = t.val * 4000 + r.val; rw [f0]; omega
  | ⟨1, _⟩ => show win0_0.index t (1 : Fin 2) * 128 + 1 * k.val = k.val; rw [f1]; omega

theorem emb1 (t : Fin cfg0.N) (r : Fin 4000) (k : Fin 1) :
    ((cfg0.win 1).blk t).view.emb (ix2 r k : S4000x1.Idx) = ix2 (rowAt t r) k := by
  obtain ⟨f0, f1, f2, f3, f4, f5, f6, f7, f8, f9, f10, f11, f12, f13, f14, f15, f16, f17, f18, f19, f20, f21⟩ := idx_facts t
  funext a; apply Fin.ext
  match a with
  | ⟨0, _⟩ => show win0_1.index t (0 : Fin 2) * 4000 + 1 * r.val = t.val * 4000 + r.val; rw [f2]; omega
  | ⟨1, _⟩ => show win0_1.index t (1 : Fin 2) * 1 + 1 * k.val = k.val; rw [f3]; omega

theorem emb2 (t : Fin cfg0.N) (r : Fin 4000) (k : Fin 128) :
    ((cfg0.win 2).blk t).view.emb (ix2 r k : S4000x128.Idx) = ix2 (rowAt t r) k := by
  obtain ⟨f0, f1, f2, f3, f4, f5, f6, f7, f8, f9, f10, f11, f12, f13, f14, f15, f16, f17, f18, f19, f20, f21⟩ := idx_facts t
  funext a; apply Fin.ext
  match a with
  | ⟨0, _⟩ => show win0_2.index t (0 : Fin 2) * 4000 + 1 * r.val = t.val * 4000 + r.val; rw [f4]; omega
  | ⟨1, _⟩ => show win0_2.index t (1 : Fin 2) * 128 + 1 * k.val = k.val; rw [f5]; omega

theorem emb3 (t : Fin cfg0.N) (y : S128x128.Idx) : ((cfg0.win 3).blk t).view.emb y = y := by
  obtain ⟨f0, f1, f2, f3, f4, f5, f6, f7, f8, f9, f10, f11, f12, f13, f14, f15, f16, f17, f18, f19, f20, f21⟩ := idx_facts t
  funext a; apply Fin.ext
  match a with
  | ⟨0, _⟩ => show win0_3.index t (0 : Fin 2) * 128 + 1 * (y 0).val = (y 0).val; rw [f6]; omega
  | ⟨1, _⟩ => show win0_3.index t (1 : Fin 2) * 128 + 1 * (y 1).val = (y 1).val; rw [f7]; omega

theorem emb4 (t : Fin cfg0.N) (y : S1x128.Idx) : ((cfg0.win 4).blk t).view.emb y = y := by
  obtain ⟨f0, f1, f2, f3, f4, f5, f6, f7, f8, f9, f10, f11, f12, f13, f14, f15, f16, f17, f18, f19, f20, f21⟩ := idx_facts t
  funext a; apply Fin.ext
  match a with
  | ⟨0, _⟩ => show win0_4.index t (0 : Fin 2) * 1 + 1 * (y 0).val = (y 0).val; rw [f8]; omega
  | ⟨1, _⟩ => show win0_4.index t (1 : Fin 2) * 128 + 1 * (y 1).val = (y 1).val; rw [f9]; omega

theorem emb5 (t : Fin cfg0.N) (y : S128x128.Idx) : ((cfg0.win 5).blk t).view.emb y = y := by
  obtain ⟨f0, f1, f2, f3, f4, f5, f6, f7, f8, f9, f10, f11, f12, f13, f14, f15, f16, f17, f18, f19, f20, f21⟩ := idx_facts t
  funext a; apply Fin.ext
  match a with
  | ⟨0, _⟩ => show win0_5.index t (0 : Fin 2) * 128 + 1 * (y 0).val = (y 0).val; rw [f10]; omega
  | ⟨1, _⟩ => show win0_5.index t (1 : Fin 2) * 128 + 1 * (y 1).val = (y 1).val; rw [f11]; omega

theorem emb6 (t : Fin cfg0.N) (y : S1x128.Idx) : ((cfg0.win 6).blk t).view.emb y = y := by
  obtain ⟨f0, f1, f2, f3, f4, f5, f6, f7, f8, f9, f10, f11, f12, f13, f14, f15, f16, f17, f18, f19, f20, f21⟩ := idx_facts t
  funext a; apply Fin.ext
  match a with
  | ⟨0, _⟩ => show win0_6.index t (0 : Fin 2) * 1 + 1 * (y 0).val = (y 0).val; rw [f12]; omega
  | ⟨1, _⟩ => show win0_6.index t (1 : Fin 2) * 128 + 1 * (y 1).val = (y 1).val; rw [f13]; omega

theorem emb7 (t : Fin cfg0.N) (y : S1x128.Idx) : ((cfg0.win 7).blk t).view.emb y = y := by
  obtain ⟨f0, f1, f2, f3, f4, f5, f6, f7, f8, f9, f10, f11, f12, f13, f14, f15, f16, f17, f18, f19, f20, f21⟩ := idx_facts t
  funext a; apply Fin.ext
  match a with
  | ⟨0, _⟩ => show win0_7.index t (0 : Fin 2) * 1 + 1 * (y 0).val = (y 0).val; rw [f14]; omega
  | ⟨1, _⟩ => show win0_7.index t (1 : Fin 2) * 128 + 1 * (y 1).val = (y 1).val; rw [f15]; omega

theorem emb8 (t : Fin cfg0.N) (y : S1x128.Idx) : ((cfg0.win 8).blk t).view.emb y = y := by
  obtain ⟨f0, f1, f2, f3, f4, f5, f6, f7, f8, f9, f10, f11, f12, f13, f14, f15, f16, f17, f18, f19, f20, f21⟩ := idx_facts t
  funext a; apply Fin.ext
  match a with
  | ⟨0, _⟩ => show win0_8.index t (0 : Fin 2) * 1 + 1 * (y 0).val = (y 0).val; rw [f16]; omega
  | ⟨1, _⟩ => show win0_8.index t (1 : Fin 2) * 128 + 1 * (y 1).val = (y 1).val; rw [f17]; omega

theorem emb9 (t : Fin cfg0.N) (y : S1x128.Idx) : ((cfg0.win 9).blk t).view.emb y = y := by
  obtain ⟨f0, f1, f2, f3, f4, f5, f6, f7, f8, f9, f10, f11, f12, f13, f14, f15, f16, f17, f18, f19, f20, f21⟩ := idx_facts t
  funext a; apply Fin.ext
  match a with
  | ⟨0, _⟩ => show win0_9.index t (0 : Fin 2) * 1 + 1 * (y 0).val = (y 0).val; rw [f18]; omega
  | ⟨1, _⟩ => show win0_9.index t (1 : Fin 2) * 128 + 1 * (y 1).val = (y 1).val; rw [f19]; omega

theorem emb10 (t : Fin cfg0.N) (r : Fin 4000) (k : Fin 128) :
    ((cfg0.win 10).blk t).view.emb (ix2 r k : S4000x128.Idx) = ix2 (rowAt t r) k := by
  obtain ⟨f0, f1, f2, f3, f4, f5, f6, f7, f8, f9, f10, f11, f12, f13, f14, f15, f16, f17, f18, f19, f20, f21⟩ := idx_facts t
  funext a; apply Fin.ext
  match a with
  | ⟨0, _⟩ => show win0_10.index t (0 : Fin 2) * 4000 + 1 * r.val = t.val * 4000 + r.val; rw [f20]; omega
  | ⟨1, _⟩ => show win0_10.index t (1 : Fin 2) * 128 + 1 * k.val = k.val; rw [f21]; omega

/-- What point t writes back is block t of `G`. -/
theorem flushed_eq (hbody : BodyAt) (c : Dev nD) (t : Fin cfg0.N) :
    (dat0 V c).flushed 10 t = ((cfg0.win 10).blk t).view.read (Elt Ideal) (G V c) := by
  show (cfg0.win 10).cut (grid0.coords t) ((dat0 V c).after 10 t) = _
  rw [after0_10]
  funext y
  obtain ⟨r, j, rfl⟩ : ∃ (r : Fin 4000) (j : Fin 128), y = ix2 r j := ⟨y 0, y 1, eq_ix2 y⟩
  show out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (ix2 r j) = G V c (((cfg0.win 10).blk t).view.emb (ix2 r j))
  rw [emb10 t r j]
  refine (hbody _ _ _ _ _ _ _ _ _ _ r j).trans ?_
  have e0 : ∀ k : Fin 128, iblk0 V c 0 t (ix2 r k) = (a0 V c) (ix2 (rowAt t r) k) := fun k => congrArg (a0 V c) (emb0 t r k)
  have e1 : iblk0 V c 1 t (ix2 r (0 : Fin 1)) = (a1 V c) (ix2 (rowAt t r) (0 : Fin 1)) := congrArg (a1 V c) (emb1 t r 0)
  have e2 : ∀ k : Fin 128, iblk0 V c 2 t (ix2 r k) = (a2 V c) (ix2 (rowAt t r) k) := fun k => congrArg (a2 V c) (emb2 t r k)
  have e3 : iblk0 V c 3 t = (a3 V c) := funext fun y => congrArg (a3 V c) (emb3 t y)
  have e4 : iblk0 V c 4 t = (a4 V c) := funext fun y => congrArg (a4 V c) (emb4 t y)
  have e5 : iblk0 V c 5 t = (a5 V c) := funext fun y => congrArg (a5 V c) (emb5 t y)
  have e6 : iblk0 V c 6 t = (a6 V c) := funext fun y => congrArg (a6 V c) (emb6 t y)
  have e7 : iblk0 V c 7 t = (a7 V c) := funext fun y => congrArg (a7 V c) (emb7 t y)
  have e8 : iblk0 V c 8 t = (a8 V c) := funext fun y => congrArg (a8 V c) (emb8 t y)
  have e9 : iblk0 V c 9 t = (a9 V c) := funext fun y => congrArg (a9 V c) (emb9 t y)
  simp only [e0, e1, e2, e3, e4, e5, e6, e7, e8, e9]
  rfl

/-- An index of the array is in point t's block iff each coordinate is in the block's range. -/
theorem mem_blk (t : Fin cfg0.N) (i : S100000x128.Idx) :
    i ∈ ((cfg0.win 10).blk t).view.set ↔ ∀ a : Fin 2, win0_10.index t a * S4000x128.size a ≤ (i a).val ∧ (i a).val < win0_10.index t a * S4000x128.size a + S4000x128.size a := by
  show i ∈ ((View.whole main_v43).slice (win0_10.rect t)).set ↔ _
  rw [View.set_slice_whole, Rect.mem_set_unit]
  exact Iff.rfl

/-- Every row is in the block of the point it divides into. -/
theorem covered (i : S100000x128.Idx) :
    ∃ t : Fin cfg0.N, (cfg0.win 10).flush t = true ∧ i ∈ ((cfg0.win 10).blk t).view.set := by
  have hi0 : (i 0).val < 100000 := (i 0).isLt
  have hi1 : (i 1).val < 128 := (i 1).isLt
  let t : Fin cfg0.N := ⟨(i 0).val / 4000, by rw [N_eq]; omega⟩
  have htv : t.val = (i 0).val / 4000 := rfl
  obtain ⟨f0, f1, f2, f3, f4, f5, f6, f7, f8, f9, f10, f11, f12, f13, f14, f15, f16, f17, f18, f19, f20, f21⟩ := idx_facts t
  refine ⟨t, flush0_10 t, ?_⟩
  rw [mem_blk]
  intro a
  match a with
  | ⟨0, _⟩ => show win0_10.index t (0 : Fin 2) * 4000 ≤ (i 0).val ∧ (i 0).val < win0_10.index t (0 : Fin 2) * 4000 + 4000; rw [f20, htv]; omega
  | ⟨1, _⟩ => show win0_10.index t (1 : Fin 2) * 128 ≤ (i 1).val ∧ (i 1).val < win0_10.index t (1 : Fin 2) * 128 + 128; rw [f21]; omega

/-- The output array after the region is `G` of the arrays it found. -/
theorem final (hbody : BodyAt) (c : Dev nD) : (dat0 V c).arrAt 10 cfg0.N = G V c :=
  (dat0 V c).arrAt_eq_of_cover 10 (G V c) (fun t _ => flushed_eq V hbody c t) (covered)

end Cert.Sage.Region0

end
-- ==== Proof.KernelBody0.lean ====
/-
  What one grid step of each fused layer leaves in its output block, read at a row and a column: the dense
  layer formula of the specification, on the rows of the input blocks.
-/
import proofs.«164375_j16853451669719_2_alg».proof.Proof.Gen.KernelIdeal.Frame
import proofs.«164375_j16853451669719_2_alg».proof.Proof.Spec
import Idealize.ShloMosaic.Lib.ValueLayout
import Idealize.ShloMosaic.Lib.Pipeline.Value
import Idealize.ShloMosaic.PureOps.Ideal.Laws

set_option maxRecDepth 16384

noncomputable section

namespace Cert.Sage.Body

open Idealize.ShloMosaic Idealize.ShloMosaic.ValueIdx Idealize.ShloMosaic.TcCoe Cert.KernelIdeal

/-- The zero offsets of a whole-block access. -/
theorem hz : (![0, 0] : Fin 2 → Nat) = fun _ => 0 := funext fun a => by
  match a with
  | ⟨0, _⟩ => rfl
  | ⟨1, _⟩ => rfl

/-- The reciprocal square root of a vector, read at an index. -/
theorem rsqrt_apply {s : Shape} {φ : FTy} (a : FVec Ideal s φ) (i : s.Idx) : rsqrt a i = Ideal.rsqrt (a i) := rfl

/-- A column `[a, 1]` broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem matmul_128_lhs0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem matmul_128_lhs1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem matmul_128_rhs0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem matmul_128_rhs1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- A `4000x128 × 128x128` product into the zero accumulator, at a row and a column: the sum over the
    contracted axis of the products of the row's and the column's entries. -/
theorem matmul_128 (A : FVec Ideal S4000x128 .bf16) (B : FVec Ideal S128x128 .bf16) (r : Fin 4000) (j : Fin 128) :
    matmul dot_S4000x128_S128x128_S4000x128_1_0_0_1_n_n none A B (constant (F := Ideal) S4000x128 .f32 0x00000000#32) (ix2 r j)
      = ∑ k : Fin 128, A (ix2 r k) * B (ix2 k j) := by
  refine (Ideal.matmul_constant_zero_apply dot_S4000x128_S128x128_S4000x128_1_0_0_1_n_n none A B (ix2 r j)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 r j) ((ValueIdx.contrEquiv1 dot_S4000x128_S128x128_S4000x128_1_0_0_1_n_n 128 rfl rfl).symm k) = ix2 r k :=
    funext fun a => Fin.ext (by
      match a with
      | ⟨0, _⟩ => exact matmul_128_lhs0 _ _
      | ⟨1, _⟩ => exact (matmul_128_lhs1 _ _).trans hk)
  have er : dot_S4000x128_S128x128_S4000x128_1_0_0_1_n_n.rhsIdx (ix2 r j) ((ValueIdx.contrEquiv1 dot_S4000x128_S128x128_S4000x128_1_0_0_1_n_n 128 rfl rfl).symm k) = ix2 k j :=
    funext fun a => Fin.ext (by
      match a with
      | ⟨0, _⟩ => exact (matmul_128_rhs0 _ _).trans hk
      | ⟨1, _⟩ => exact matmul_128_rhs1 _ _)
  rw [el, er]

/-- What the body of layer one leaves in its output block, at row `r` and column `j`: the dense layer formula on row `r` of
    the aggregated block scaled by the row's reciprocal count, and row `r` of the feature block. -/
theorem out0_10_apply (x0 : Vec Ideal S4000x128 .f32) (x1 : Vec Ideal S4000x1 .f32) (x2 : Vec Ideal S4000x128 .f32)
    (x3 : Vec Ideal S128x128 .f32) (x4 : Vec Ideal S1x128 .f32) (x5 : Vec Ideal S128x128 .f32) (x6 : Vec Ideal S1x128 .f32)
    (x7 : Vec Ideal S1x128 .f32) (x8 : Vec Ideal S1x128 .f32) (x9 : Vec Ideal S1x128 .f32) (r : Fin 4000) (j : Fin 128) :
    Gen.out0_10 (F := Ideal) x0 x1 x2 x3 x4 x5 x6 x7 x8 x9 (ix2 r j)
      = Cert.Sage.denseRow (fun k => x0 (ix2 r k) * x1 (ix2 r (0 : Fin 1))) (fun k => x2 (ix2 r k)) (Cert.Sage.rd2 x3) (Cert.Sage.rd2 x5)
        (fun c => x4 (ix2 (0 : Fin 1) c)) (fun c => x6 (ix2 (0 : Fin 1) c)) (fun c => x7 (ix2 (0 : Fin 1) c))
        (fun c => x8 (ix2 (0 : Fin 1) c)) (fun c => x9 (ix2 (0 : Fin 1) c)) j := by
  unfold Gen.out0_10
  rw [View.canon_unit_zero hz]
  simp only [View.ld_unit_zero (S := S4000x128) hz, View.ld_unit_zero (S := S4000x1) hz,
    View.ld_unit_zero (S := S128x128) hz, View.ld_unit_zero (S := S1x128) hz]
  unfold Gen.k0_pay1 Gen.k0_pay2
  simp only [shapeCast_self]
  simp only [maximumf_apply, addf_apply, mulf_apply, subf_apply, broadcast_apply, rsqrt_apply, truncf_apply,
    broadcastTo_1b_ab_apply, broadcastTo_a1_ab_apply, matmul_128]
  rfl

end Cert.Sage.Body

end
-- ==== Proof.Fold4.lean ====
/-
  The arrays after the first tiled region: its output is the first layer of the network applied to the arrays it found; the sorted words, the reciprocal edge counts and the later arguments are as before it.
-/
import proofs.«164375_j16853451669719_2_alg».proof.Proof.Gen.KernelIdeal.Frame
import proofs.«164375_j16853451669719_2_alg».proof.Proof.HostTerms
import proofs.«164375_j16853451669719_2_alg».proof.Proof.Fold3
import proofs.«164375_j16853451669719_2_alg».proof.Proof.Region0
import proofs.«164375_j16853451669719_2_alg».proof.Proof.KernelBody0
import proofs.«164375_j16853451669719_2_alg».proof.Proof.KernelNet
import Idealize.ShloMosaic.Lib.StableHlo.Run
import Idealize.ShloMosaic.PureOps.Ideal

set_option maxRecDepth 16384

noncomputable section

namespace Cert.Sage.Fold

open Cert.KernelIdeal Cert.KernelIdeal.Gen Cert.Sage.Host
open Idealize.ShloMosaic Idealize.ShloMosaic.TcCoe Idealize.SL.Sem Idealize.ShloMosaic.StableHlo

variable (m : (ℓ : Loc nD τ sig) → Buf (Elt Ideal) ℓ) (ρ : Dev nD → PrngReg)

/-- The first layer's rows. -/
def H1 (c : Dev nD) : FVec Ideal S100000x128 .f32 :=
  Cert.Sage.kLayer (aggOf (srcST (m ((c : Thread nD τ).loc main_arg1))) (dstST (m ((c : Thread nD τ).loc main_arg1))) (m ((c : Thread nD τ).loc main_arg0))) (invT (m ((c : Thread nD τ).loc main_arg1))) (m ((c : Thread nD τ).loc main_arg0)) (m ((c : Thread nD τ).loc main_arg2)) (row128 (m ((c : Thread nD τ).loc main_arg3))) (m ((c : Thread nD τ).loc main_arg4)) (row128 (m ((c : Thread nD τ).loc main_arg5))) (row128 (m ((c : Thread nD τ).loc main_arg6))) (row128 (m ((c : Thread nD τ).loc main_arg7))) (row128 (m ((c : Thread nD τ).loc main_arg8)))

theorem W4_v43 (c : Dev nD) : (W4 m ρ c (Proc.devRef .tc main_v43) : FVec Ideal S100000x128 .f32) = H1 m c := by
  refine (W4_arr m ρ c 10).trans ((Cert.Sage.Region0.final (V3 m ρ) Cert.Sage.Body.out0_10_apply c).trans ?_)
  show Cert.Sage.kLayer (W3 m ρ c (Proc.devRef .tc main_v37)) (W3 m ρ c (Proc.devRef .tc main_v27)) (W3 m ρ c (Proc.devRef .tc main_arg0)) (W3 m ρ c (Proc.devRef .tc main_arg2)) (W3 m ρ c (Proc.devRef .tc main_v38)) (W3 m ρ c (Proc.devRef .tc main_arg4)) (W3 m ρ c (Proc.devRef .tc main_v39)) (W3 m ρ c (Proc.devRef .tc main_v40)) (W3 m ρ c (Proc.devRef .tc main_v41)) (W3 m ρ c (Proc.devRef .tc main_v42)) = _
  rw [W3_v37 m ρ c, W3_v27 m ρ c, W3_arg0 m ρ c, W3_arg2 m ρ c, W3_v38 m ρ c, W3_arg4 m ρ c, W3_v39 m ρ c, W3_v40 m ρ c, W3_v41 m ρ c, W3_v42 m ρ c]
  rfl

theorem W4_v11 (c : Dev nD) : (W4 m ρ c (Proc.devRef .tc main_v11) : IVec S1600000 32) = srcST (m ((c : Thread nD τ).loc main_arg1)) :=
  (W4_of_ne m ρ c main_v11 (by decide)).trans (W3_v11 m ρ c)

theorem W4_v18 (c : Dev nD) : (W4 m ρ c (Proc.devRef .tc main_v18) : IVec S1600000 32) = dstST (m ((c : Thread nD τ).loc main_arg1)) :=
  (W4_of_ne m ρ c main_v18 (by decide)).trans (W3_v18 m ρ c)

theorem W4_v27 (c : Dev nD) : (W4 m ρ c (Proc.devRef .tc main_v27) : FVec Ideal S100000x1 .f32) = invT (m ((c : Thread nD τ).loc main_arg1)) :=
  (W4_arr m ρ c 1).trans (((dat0 (V3 m ρ) c).arrAt_in 1 rfl _).trans ((A_eq0 (V3 m ρ) c 1).trans (W3_v27 m ρ c)))

theorem W4_arg9 (c : Dev nD) : W4 m ρ c (Proc.devRef .tc main_arg9) = (m ((c : Thread nD τ).loc main_arg9)) :=
  (W4_of_ne m ρ c main_arg9 (by decide)).trans (W3_arg9 m ρ c)

theorem W4_arg10 (c : Dev nD) : W4 m ρ c (Proc.devRef .tc main_arg10) = (m ((c : Thread nD τ).loc main_arg10)) :=
  (W4_of_ne m ρ c main_arg10 (by decide)).trans (W3_arg10 m ρ c)

theorem W4_arg11 (c : Dev nD) : W4 m ρ c (Proc.devRef .tc main_arg11) = (m ((c : Thread nD τ).loc main_arg11)) :=
  (W4_of_ne m ρ c main_arg11 (by decide)).trans (W3_arg11 m ρ c)

theorem W4_arg12 (c : Dev nD) : W4 m ρ c (Proc.devRef .tc main_arg12) = (m ((c : Thread nD τ).loc main_arg12)) :=
  (W4_of_ne m ρ c main_arg12 (by decide)).trans (W3_arg12 m ρ c)

theorem W4_arg13 (c : Dev nD) : W4 m ρ c (Proc.devRef .tc main_arg13) = (m ((c : Thread nD τ).loc main_arg13)) :=
  (W4_of_ne m ρ c main_arg13 (by decide)).trans (W3_arg13 m ρ c)

theorem W4_arg14 (c : Dev nD) : W4 m ρ c (Proc.devRef .tc main_arg14) = (m ((c : Thread nD τ).loc main_arg14)) :=
  (W4_of_ne m ρ c main_arg14 (by decide)).trans (W3_arg14 m ρ c)

theorem W4_arg15 (c : Dev nD) : W4 m ρ c (Proc.devRef .tc main_arg15) = (m ((c : Thread nD τ).loc main_arg15)) :=
  (W4_of_ne m ρ c main_arg15 (by decide)).trans (W3_arg15 m ρ c)

theorem W4_arg16 (c : Dev nD) : W4 m ρ c (Proc.devRef .tc main_arg16) = (m ((c : Thread nD τ).loc main_arg16)) :=
  (W4_of_ne m ρ c main_arg16 (by decide)).trans (W3_arg16 m ρ c)

theorem W4_arg17 (c : Dev nD) : W4 m ρ c (Proc.devRef .tc main_arg17) = (m ((c : Thread nD τ).loc main_arg17)) :=
  (W4_of_ne m ρ c main_arg17 (by decide)).trans (W3_arg17 m ρ c)

theorem W4_arg18 (c : Dev nD) : W4 m ρ c (Proc.devRef .tc main_arg18) = (m ((c : Thread nD τ).loc main_arg18)) :=
  (W4_of_ne m ρ c main_arg18 (by decide)).trans (W3_arg18 m ρ c)

theorem W4_arg19 (c : Dev nD) : W4 m ρ c (Proc.devRef .tc main_arg19) = (m ((c : Thread nD τ).loc main_arg19)) :=
  (W4_of_ne m ρ c main_arg19 (by decide)).trans (W3_arg19 m ρ c)

theorem W4_arg20 (c : Dev nD) : W4 m ρ c (Proc.devRef .tc main_arg20) = (m ((c : Thread nD τ).loc main_arg20)) :=
  (W4_of_ne m ρ c main_arg20 (by decide)).trans (W3_arg20 m ρ c)

theorem W4_arg21 (c : Dev nD) : W4 m ρ c (Proc.devRef .tc main_arg21) = (m ((c : Thread nD τ).loc main_arg21)) :=
  (W4_of_ne m ρ c main_arg21 (by decide)).trans (W3_arg21 m ρ c)

theorem W4_arg22 (c : Dev nD) : W4 m ρ c (Proc.devRef .tc main_arg22) = (m ((c : Thread nD τ).loc main_arg22)) :=
  (W4_of_ne m ρ c main_arg22 (by decide)).trans (W3_arg22 m ρ c)

theorem W4_arg23 (c : Dev nD) : W4 m ρ c (Proc.devRef .tc main_arg23) = (m ((c : Thread nD τ).loc main_arg23)) :=
  (W4_of_ne m ρ c main_arg23 (by decide)).trans (W3_arg23 m ρ c)

theorem W4_arg24 (c : Dev nD) : W4 m ρ c (Proc.devRef .tc main_arg24) = (m ((c : Thread nD τ).loc main_arg24)) :=
  (W4_of_ne m ρ c main_arg24 (by decide)).trans (W3_arg24 m ρ c)

theorem W4_arg25 (c : Dev nD) : W4 m ρ c (Proc.devRef .tc main_arg25) = (m ((c : Thread nD τ).loc main_arg25)) :=
  (W4_of_ne m ρ c main_arg25 (by decide)).trans (W3_arg25 m ρ c)

theorem W4_arg26 (c : Dev nD) : W4 m ρ c (Proc.devRef .tc main_arg26) = (m ((c : Thread nD τ).loc main_arg26)) :=
  (W4_of_ne m ρ c main_arg26 (by decide)).trans (W3_arg26 m ρ c)

end Cert.Sage.Fold

end
-- ==== Proof.Fold5.lean ====
/-
  The arrays the second tiled region finds: the first layer's rows aggregated over the sorted edges, the second layer's bias and normalisation vectors as rows, and everything carried over.
-/
import proofs.«164375_j16853451669719_2_alg».proof.Proof.Gen.KernelIdeal.Frame
import proofs.«164375_j16853451669719_2_alg».proof.Proof.HostTerms
import proofs.«164375_j16853451669719_2_alg».proof.Proof.Fold4
import Idealize.ShloMosaic.Lib.StableHlo.Run
import Idealize.ShloMosaic.PureOps.Ideal

set_option maxRecDepth 16384

noncomputable section

namespace Cert.Sage.Fold

open Cert.KernelIdeal Cert.KernelIdeal.Gen Cert.Sage.Host
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
theorem W5_v53 (c : Dev nD) : (W5 m ρ c (Proc.devRef .tc main_v53) : FVec Ideal S100000x128 .f32) = aggOf (srcST (m ((c : Thread nD τ).loc main_arg1))) (dstST (m ((c : Thread nD τ).loc main_arg1))) (H1 m c) := by
  have h : (W5 m ρ c (Proc.devRef .tc main_v53) : FVec Ideal S100000x128 .f32)
      = aggOf (W4 m ρ c (Proc.devRef .tc main_v11)) (W4 m ρ c (Proc.devRef .tc main_v18)) (W4 m ρ c (Proc.devRef .tc main_v43)) := by
    dsimp only [W5]; after_results_simp; rfl
  rw [h, W4_v11 m ρ c, W4_v18 m ρ c, W4_v43 m ρ c]

theorem W5_v43 (c : Dev nD) : (W5 m ρ c (Proc.devRef .tc main_v43) : FVec Ideal S100000x128 .f32) = H1 m c := by
  dsimp only [W5]; after_results; exact W4_v43 m ρ c

theorem W5_v54 (c : Dev nD) : (W5 m ρ c (Proc.devRef .tc main_v54) : FVec Ideal S1x128 .f32) = row128 (m ((c : Thread nD τ).loc main_arg10)) := by
  have h : (W5 m ρ c (Proc.devRef .tc main_v54) : FVec Ideal S1x128 .f32) = row128 (W4 m ρ c (Proc.devRef .tc main_arg10)) := by
    dsimp only [W5]; after_results; rfl
  rw [h, W4_arg10 m ρ c]

theorem W5_v55 (c : Dev nD) : (W5 m ρ c (Proc.devRef .tc main_v55) : FVec Ideal S1x128 .f32) = row128 (m ((c : Thread nD τ).loc main_arg12)) := by
  have h : (W5 m ρ c (Proc.devRef .tc main_v55) : FVec Ideal S1x128 .f32) = row128 (W4 m ρ c (Proc.devRef .tc main_arg12)) := by
    dsimp only [W5]; after_results; rfl
  rw [h, W4_arg12 m ρ c]

theorem W5_v56 (c : Dev nD) : (W5 m ρ c (Proc.devRef .tc main_v56) : FVec Ideal S1x128 .f32) = row128 (m ((c : Thread nD τ).loc main_arg13)) := by
  have h : (W5 m ρ c (Proc.devRef .tc main_v56) : FVec Ideal S1x128 .f32) = row128 (W4 m ρ c (Proc.devRef .tc main_arg13)) := by
    dsimp only [W5]; after_results; rfl
  rw [h, W4_arg13 m ρ c]

theorem W5_v57 (c : Dev nD) : (W5 m ρ c (Proc.devRef .tc main_v57) : FVec Ideal S1x128 .f32) = row128 (m ((c : Thread nD τ).loc main_arg14)) := by
  have h : (W5 m ρ c (Proc.devRef .tc main_v57) : FVec Ideal S1x128 .f32) = row128 (W4 m ρ c (Proc.devRef .tc main_arg14)) := by
    dsimp only [W5]; after_results; rfl
  rw [h, W4_arg14 m ρ c]

theorem W5_v58 (c : Dev nD) : (W5 m ρ c (Proc.devRef .tc main_v58) : FVec Ideal S1x128 .f32) = row128 (m ((c : Thread nD τ).loc main_arg15)) := by
  have h : (W5 m ρ c (Proc.devRef .tc main_v58) : FVec Ideal S1x128 .f32) = row128 (W4 m ρ c (Proc.devRef .tc main_arg15)) := by
    dsimp only [W5]; after_results; rfl
  rw [h, W4_arg15 m ρ c]

theorem W5_v11 (c : Dev nD) : (W5 m ρ c (Proc.devRef .tc main_v11) : IVec S1600000 32) = srcST (m ((c : Thread nD τ).loc main_arg1)) := by
  dsimp only [W5]; after_results; exact W4_v11 m ρ c

theorem W5_v18 (c : Dev nD) : (W5 m ρ c (Proc.devRef .tc main_v18) : IVec S1600000 32) = dstST (m ((c : Thread nD τ).loc main_arg1)) := by
  dsimp only [W5]; after_results; exact W4_v18 m ρ c

theorem W5_v27 (c : Dev nD) : (W5 m ρ c (Proc.devRef .tc main_v27) : FVec Ideal S100000x1 .f32) = invT (m ((c : Thread nD τ).loc main_arg1)) := by
  dsimp only [W5]; after_results; exact W4_v27 m ρ c

theorem W5_arg9 (c : Dev nD) : W5 m ρ c (Proc.devRef .tc main_arg9) = (m ((c : Thread nD τ).loc main_arg9)) := by
  dsimp only [W5]; after_results; exact W4_arg9 m ρ c

theorem W5_arg11 (c : Dev nD) : W5 m ρ c (Proc.devRef .tc main_arg11) = (m ((c : Thread nD τ).loc main_arg11)) := by
  dsimp only [W5]; after_results; exact W4_arg11 m ρ c

theorem W5_arg16 (c : Dev nD) : W5 m ρ c (Proc.devRef .tc main_arg16) = (m ((c : Thread nD τ).loc main_arg16)) := by
  dsimp only [W5]; after_results; exact W4_arg16 m ρ c

theorem W5_arg17 (c : Dev nD) : W5 m ρ c (Proc.devRef .tc main_arg17) = (m ((c : Thread nD τ).loc main_arg17)) := by
  dsimp only [W5]; after_results; exact W4_arg17 m ρ c

theorem W5_arg18 (c : Dev nD) : W5 m ρ c (Proc.devRef .tc main_arg18) = (m ((c : Thread nD τ).loc main_arg18)) := by
  dsimp only [W5]; after_results; exact W4_arg18 m ρ c

theorem W5_arg19 (c : Dev nD) : W5 m ρ c (Proc.devRef .tc main_arg19) = (m ((c : Thread nD τ).loc main_arg19)) := by
  dsimp only [W5]; after_results; exact W4_arg19 m ρ c

theorem W5_arg20 (c : Dev nD) : W5 m ρ c (Proc.devRef .tc main_arg20) = (m ((c : Thread nD τ).loc main_arg20)) := by
  dsimp only [W5]; after_results; exact W4_arg20 m ρ c

theorem W5_arg21 (c : Dev nD) : W5 m ρ c (Proc.devRef .tc main_arg21) = (m ((c : Thread nD τ).loc main_arg21)) := by
  dsimp only [W5]; after_results; exact W4_arg21 m ρ c

theorem W5_arg22 (c : Dev nD) : W5 m ρ c (Proc.devRef .tc main_arg22) = (m ((c : Thread nD τ).loc main_arg22)) := by
  dsimp only [W5]; after_results; exact W4_arg22 m ρ c

theorem W5_arg23 (c : Dev nD) : W5 m ρ c (Proc.devRef .tc main_arg23) = (m ((c : Thread nD τ).loc main_arg23)) := by
  dsimp only [W5]; after_results; exact W4_arg23 m ρ c

theorem W5_arg24 (c : Dev nD) : W5 m ρ c (Proc.devRef .tc main_arg24) = (m ((c : Thread nD τ).loc main_arg24)) := by
  dsimp only [W5]; after_results; exact W4_arg24 m ρ c

theorem W5_arg25 (c : Dev nD) : W5 m ρ c (Proc.devRef .tc main_arg25) = (m ((c : Thread nD τ).loc main_arg25)) := by
  dsimp only [W5]; after_results; exact W4_arg25 m ρ c

theorem W5_arg26 (c : Dev nD) : W5 m ρ c (Proc.devRef .tc main_arg26) = (m ((c : Thread nD τ).loc main_arg26)) := by
  dsimp only [W5]; after_results; exact W4_arg26 m ρ c

end Cert.Sage.Fold

end
-- ==== Proof.Region1.lean ====
/-
  Region 1 of the idealized kernel as one function of the arrays it finds: the grid's 25 points each take 4000
  consecutive rows, so point t writes rows 4000·t … 4000·t + 3999 of the output, each a function of the same row of the
  row-tiled inputs and of the whole of the small inputs; the 25 blocks tile the output array.
-/
import proofs.«164375_j16853451669719_2_alg».proof.Proof.Gen.KernelIdeal.Frame
import proofs.«164375_j16853451669719_2_alg».proof.Proof.Spec
import proofs.«164375_j16853451669719_2_alg».proof.Proof.KernelNet
import Idealize.ShloMosaic.Lib.Pipeline.Value
import Idealize.ShloMosaic.Lib.ValueIdx
import Idealize.ShloMosaic.PureOps.Ideal

set_option maxRecDepth 16384

noncomputable section

namespace Cert.Sage.Region1

open Cert.KernelIdeal Cert.KernelIdeal.Gen
open Idealize.ShloMosaic Idealize.ShloMosaic.TcCoe Idealize.ShloMosaic.ValueIdx Idealize.SL.Sem
open Idealize.ShloMosaic.Pipeline (Dat)

/-- What the body leaves in row r, column j of the output block, as a function of the input blocks. -/
def BodyAt : Prop := ∀ (x0 : Vec Ideal S4000x128 .f32) (x1 : Vec Ideal S4000x1 .f32) (x2 : Vec Ideal S4000x128 .f32) (x3 : Vec Ideal S128x128 .f32) (x4 : Vec Ideal S1x128 .f32) (x5 : Vec Ideal S128x128 .f32) (x6 : Vec Ideal S1x128 .f32) (x7 : Vec Ideal S1x128 .f32) (x8 : Vec Ideal S1x128 .f32) (x9 : Vec Ideal S1x128 .f32) (r : Fin 4000) (j : Fin 128),
    out1_10 (F := Ideal) x0 x1 x2 x3 x4 x5 x6 x7 x8 x9 (ix2 r j : S4000x128.Idx) =
      Cert.Sage.denseRow (fun k => x0 (ix2 r k) * x1 (ix2 r (0 : Fin 1))) (fun k => x2 (ix2 r k))
      (Cert.Sage.rd2 x3) (Cert.Sage.rd2 x5) (fun a => x4 (ix2 (0 : Fin 1) a)) (fun a => x6 (ix2 (0 : Fin 1) a))
      (fun a => x7 (ix2 (0 : Fin 1) a)) (fun a => x8 (ix2 (0 : Fin 1) a)) (fun a => x9 (ix2 (0 : Fin 1) a)) j

variable (V : (c : Dev nD) → (b : Ref sig .tc) → Buf (Elt Ideal) ((c : Thread nD τ).loc b))

theorem N_eq : cfg1.N = 25 := N_1

/-- Row r of point t's block is row 4000·t + r of the array. -/
def rowAt (t : Fin cfg1.N) (r : Fin 4000) : Fin 100000 :=
  ⟨t.val * 4000 + r.val, by have h : t.val < 25 := lt_of_lt_of_eq t.isLt N_eq; have := r.isLt; omega⟩

/-- Input array 0 of the region, as the region finds it. -/
abbrev a0 (c : Dev nD) : S100000x128.Idx → EReal := V c main_v53
/-- Input array 1 of the region, as the region finds it. -/
abbrev a1 (c : Dev nD) : S100000x1.Idx → EReal := V c main_v27
/-- Input array 2 of the region, as the region finds it. -/
abbrev a2 (c : Dev nD) : S100000x128.Idx → EReal := V c main_v43
/-- Input array 3 of the region, as the region finds it. -/
abbrev a3 (c : Dev nD) : S128x128.Idx → EReal := V c main_arg9
/-- Input array 4 of the region, as the region finds it. -/
abbrev a4 (c : Dev nD) : S1x128.Idx → EReal := V c main_v54
/-- Input array 5 of the region, as the region finds it. -/
abbrev a5 (c : Dev nD) : S128x128.Idx → EReal := V c main_arg11
/-- Input array 6 of the region, as the region finds it. -/
abbrev a6 (c : Dev nD) : S1x128.Idx → EReal := V c main_v55
/-- Input array 7 of the region, as the region finds it. -/
abbrev a7 (c : Dev nD) : S1x128.Idx → EReal := V c main_v56
/-- Input array 8 of the region, as the region finds it. -/
abbrev a8 (c : Dev nD) : S1x128.Idx → EReal := V c main_v57
/-- Input array 9 of the region, as the region finds it. -/
abbrev a9 (c : Dev nD) : S1x128.Idx → EReal := V c main_v58

/-- The whole output array, row by row, from the arrays the region finds. -/
def G (c : Dev nD) : S100000x128.Idx → EReal :=
  Cert.Sage.kLayer (a0 V c) (a1 V c) (a2 V c) (a3 V c) (a4 V c) (a5 V c) (a6 V c) (a7 V c) (a8 V c) (a9 V c)

/-- The printed block index maps over the grid: a row-tiled window's block number is the point, the others' is zero. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = t.val
    ∧ win1_10.index t (1 : Fin 2) = 0 :=
  (by decide +kernel : ∀ t : Fin grid1.N, _)

theorem emb0 (t : Fin cfg1.N) (r : Fin 4000) (k : Fin 128) :
    ((cfg1.win 0).blk t).view.emb (ix2 r k : S4000x128.Idx) = ix2 (rowAt t r) k := by
  obtain ⟨f0, f1, f2, f3, f4, f5, f6, f7, f8, f9, f10, f11, f12, f13, f14, f15, f16, f17, f18, f19, f20, f21⟩ := idx_facts t
  funext a; apply Fin.ext
  match a with
  | ⟨0, _⟩ => show win1_0.index t (0 : Fin 2) * 4000 + 1 * r.val = t.val * 4000 + r.val; rw [f0]; omega
  | ⟨1, _⟩ => show win1_0.index t (1 : Fin 2) * 128 + 1 * k.val = k.val; rw [f1]; omega

theorem emb1 (t : Fin cfg1.N) (r : Fin 4000) (k : Fin 1) :
    ((cfg1.win 1).blk t).view.emb (ix2 r k : S4000x1.Idx) = ix2 (rowAt t r) k := by
  obtain ⟨f0, f1, f2, f3, f4, f5, f6, f7, f8, f9, f10, f11, f12, f13, f14, f15, f16, f17, f18, f19, f20, f21⟩ := idx_facts t
  funext a; apply Fin.ext
  match a with
  | ⟨0, _⟩ => show win1_1.index t (0 : Fin 2) * 4000 + 1 * r.val = t.val * 4000 + r.val; rw [f2]; omega
  | ⟨1, _⟩ => show win1_1.index t (1 : Fin 2) * 1 + 1 * k.val = k.val; rw [f3]; omega

theorem emb2 (t : Fin cfg1.N) (r : Fin 4000) (k : Fin 128) :
    ((cfg1.win 2).blk t).view.emb (ix2 r k : S4000x128.Idx) = ix2 (rowAt t r) k := by
  obtain ⟨f0, f1, f2, f3, f4, f5, f6, f7, f8, f9, f10, f11, f12, f13, f14, f15, f16, f17, f18, f19, f20, f21⟩ := idx_facts t
  funext a; apply Fin.ext
  match a with
  | ⟨0, _⟩ => show win1_2.index t (0 : Fin 2) * 4000 + 1 * r.val = t.val * 4000 + r.val; rw [f4]; omega
  | ⟨1, _⟩ => show win1_2.index t (1 : Fin 2) * 128 + 1 * k.val = k.val; rw [f5]; omega

theorem emb3 (t : Fin cfg1.N) (y : S128x128.Idx) : ((cfg1.win 3).blk t).view.emb y = y := by
  obtain ⟨f0, f1, f2, f3, f4, f5, f6, f7, f8, f9, f10, f11, f12, f13, f14, f15, f16, f17, f18, f19, f20, f21⟩ := idx_facts t
  funext a; apply Fin.ext
  match a with
  | ⟨0, _⟩ => show win1_3.index t (0 : Fin 2) * 128 + 1 * (y 0).val = (y 0).val; rw [f6]; omega
  | ⟨1, _⟩ => show win1_3.index t (1 : Fin 2) * 128 + 1 * (y 1).val = (y 1).val; rw [f7]; omega

theorem emb4 (t : Fin cfg1.N) (y : S1x128.Idx) : ((cfg1.win 4).blk t).view.emb y = y := by
  obtain ⟨f0, f1, f2, f3, f4, f5, f6, f7, f8, f9, f10, f11, f12, f13, f14, f15, f16, f17, f18, f19, f20, f21⟩ := idx_facts t
  funext a; apply Fin.ext
  match a with
  | ⟨0, _⟩ => show win1_4.index t (0 : Fin 2) * 1 + 1 * (y 0).val = (y 0).val; rw [f8]; omega
  | ⟨1, _⟩ => show win1_4.index t (1 : Fin 2) * 128 + 1 * (y 1).val = (y 1).val; rw [f9]; omega

theorem emb5 (t : Fin cfg1.N) (y : S128x128.Idx) : ((cfg1.win 5).blk t).view.emb y = y := by
  obtain ⟨f0, f1, f2, f3, f4, f5, f6, f7, f8, f9, f10, f11, f12, f13, f14, f15, f16, f17, f18, f19, f20, f21⟩ := idx_facts t
  funext a; apply Fin.ext
  match a with
  | ⟨0, _⟩ => show win1_5.index t (0 : Fin 2) * 128 + 1 * (y 0).val = (y 0).val; rw [f10]; omega
  | ⟨1, _⟩ => show win1_5.index t (1 : Fin 2) * 128 + 1 * (y 1).val = (y 1).val; rw [f11]; omega

theorem emb6 (t : Fin cfg1.N) (y : S1x128.Idx) : ((cfg1.win 6).blk t).view.emb y = y := by
  obtain ⟨f0, f1, f2, f3, f4, f5, f6, f7, f8, f9, f10, f11, f12, f13, f14, f15, f16, f17, f18, f19, f20, f21⟩ := idx_facts t
  funext a; apply Fin.ext
  match a with
  | ⟨0, _⟩ => show win1_6.index t (0 : Fin 2) * 1 + 1 * (y 0).val = (y 0).val; rw [f12]; omega
  | ⟨1, _⟩ => show win1_6.index t (1 : Fin 2) * 128 + 1 * (y 1).val = (y 1).val; rw [f13]; omega

theorem emb7 (t : Fin cfg1.N) (y : S1x128.Idx) : ((cfg1.win 7).blk t).view.emb y = y := by
  obtain ⟨f0, f1, f2, f3, f4, f5, f6, f7, f8, f9, f10, f11, f12, f13, f14, f15, f16, f17, f18, f19, f20, f21⟩ := idx_facts t
  funext a; apply Fin.ext
  match a with
  | ⟨0, _⟩ => show win1_7.index t (0 : Fin 2) * 1 + 1 * (y 0).val = (y 0).val; rw [f14]; omega
  | ⟨1, _⟩ => show win1_7.index t (1 : Fin 2) * 128 + 1 * (y 1).val = (y 1).val; rw [f15]; omega

theorem emb8 (t : Fin cfg1.N) (y : S1x128.Idx) : ((cfg1.win 8).blk t).view.emb y = y := by
  obtain ⟨f0, f1, f2, f3, f4, f5, f6, f7, f8, f9, f10, f11, f12, f13, f14, f15, f16, f17, f18, f19, f20, f21⟩ := idx_facts t
  funext a; apply Fin.ext
  match a with
  | ⟨0, _⟩ => show win1_8.index t (0 : Fin 2) * 1 + 1 * (y 0).val = (y 0).val; rw [f16]; omega
  | ⟨1, _⟩ => show win1_8.index t (1 : Fin 2) * 128 + 1 * (y 1).val = (y 1).val; rw [f17]; omega

theorem emb9 (t : Fin cfg1.N) (y : S1x128.Idx) : ((cfg1.win 9).blk t).view.emb y = y := by
  obtain ⟨f0, f1, f2, f3, f4, f5, f6, f7, f8, f9, f10, f11, f12, f13, f14, f15, f16, f17, f18, f19, f20, f21⟩ := idx_facts t
  funext a; apply Fin.ext
  match a with
  | ⟨0, _⟩ => show win1_9.index t (0 : Fin 2) * 1 + 1 * (y 0).val = (y 0).val; rw [f18]; omega
  | ⟨1, _⟩ => show win1_9.index t (1 : Fin 2) * 128 + 1 * (y 1).val = (y 1).val; rw [f19]; omega

theorem emb10 (t : Fin cfg1.N) (r : Fin 4000) (k : Fin 128) :
    ((cfg1.win 10).blk t).view.emb (ix2 r k : S4000x128.Idx) = ix2 (rowAt t r) k := by
  obtain ⟨f0, f1, f2, f3, f4, f5, f6, f7, f8, f9, f10, f11, f12, f13, f14, f15, f16, f17, f18, f19, f20, f21⟩ := idx_facts t
  funext a; apply Fin.ext
  match a with
  | ⟨0, _⟩ => show win1_10.index t (0 : Fin 2) * 4000 + 1 * r.val = t.val * 4000 + r.val; rw [f20]; omega
  | ⟨1, _⟩ => show win1_10.index t (1 : Fin 2) * 128 + 1 * k.val = k.val; rw [f21]; omega

/-- What point t writes back is block t of `G`. -/
theorem flushed_eq (hbody : BodyAt) (c : Dev nD) (t : Fin cfg1.N) :
    (dat1 V c).flushed 10 t = ((cfg1.win 10).blk t).view.read (Elt Ideal) (G V c) := by
  show (cfg1.win 10).cut (grid1.coords t) ((dat1 V c).after 10 t) = _
  rw [after1_10]
  funext y
  obtain ⟨r, j, rfl⟩ : ∃ (r : Fin 4000) (j : Fin 128), y = ix2 r j := ⟨y 0, y 1, eq_ix2 y⟩
  show out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 r j) = G V c (((cfg1.win 10).blk t).view.emb (ix2 r j))
  rw [emb10 t r j]
  refine (hbody _ _ _ _ _ _ _ _ _ _ r j).trans ?_
  have e0 : ∀ k : Fin 128, iblk1 V c 0 t (ix2 r k) = (a0 V c) (ix2 (rowAt t r) k) := fun k => congrArg (a0 V c) (emb0 t r k)
  have e1 : iblk1 V c 1 t (ix2 r (0 : Fin 1)) = (a1 V c) (ix2 (rowAt t r) (0 : Fin 1)) := congrArg (a1 V c) (emb1 t r 0)
  have e2 : ∀ k : Fin 128, iblk1 V c 2 t (ix2 r k) = (a2 V c) (ix2 (rowAt t r) k) := fun k => congrArg (a2 V c) (emb2 t r k)
  have e3 : iblk1 V c 3 t = (a3 V c) := funext fun y => congrArg (a3 V c) (emb3 t y)
  have e4 : iblk1 V c 4 t = (a4 V c) := funext fun y => congrArg (a4 V c) (emb4 t y)
  have e5 : iblk1 V c 5 t = (a5 V c) := funext fun y => congrArg (a5 V c) (emb5 t y)
  have e6 : iblk1 V c 6 t = (a6 V c) := funext fun y => congrArg (a6 V c) (emb6 t y)
  have e7 : iblk1 V c 7 t = (a7 V c) := funext fun y => congrArg (a7 V c) (emb7 t y)
  have e8 : iblk1 V c 8 t = (a8 V c) := funext fun y => congrArg (a8 V c) (emb8 t y)
  have e9 : iblk1 V c 9 t = (a9 V c) := funext fun y => congrArg (a9 V c) (emb9 t y)
  simp only [e0, e1, e2, e3, e4, e5, e6, e7, e8, e9]
  rfl

/-- An index of the array is in point t's block iff each coordinate is in the block's range. -/
theorem mem_blk (t : Fin cfg1.N) (i : S100000x128.Idx) :
    i ∈ ((cfg1.win 10).blk t).view.set ↔ ∀ a : Fin 2, win1_10.index t a * S4000x128.size a ≤ (i a).val ∧ (i a).val < win1_10.index t a * S4000x128.size a + S4000x128.size a := by
  show i ∈ ((View.whole main_v59).slice (win1_10.rect t)).set ↔ _
  rw [View.set_slice_whole, Rect.mem_set_unit]
  exact Iff.rfl

/-- Every row is in the block of the point it divides into. -/
theorem covered (i : S100000x128.Idx) :
    ∃ t : Fin cfg1.N, (cfg1.win 10).flush t = true ∧ i ∈ ((cfg1.win 10).blk t).view.set := by
  have hi0 : (i 0).val < 100000 := (i 0).isLt
  have hi1 : (i 1).val < 128 := (i 1).isLt
  let t : Fin cfg1.N := ⟨(i 0).val / 4000, by rw [N_eq]; omega⟩
  have htv : t.val = (i 0).val / 4000 := rfl
  obtain ⟨f0, f1, f2, f3, f4, f5, f6, f7, f8, f9, f10, f11, f12, f13, f14, f15, f16, f17, f18, f19, f20, f21⟩ := idx_facts t
  refine ⟨t, flush1_10 t, ?_⟩
  rw [mem_blk]
  intro a
  match a with
  | ⟨0, _⟩ => show win1_10.index t (0 : Fin 2) * 4000 ≤ (i 0).val ∧ (i 0).val < win1_10.index t (0 : Fin 2) * 4000 + 4000; rw [f20, htv]; omega
  | ⟨1, _⟩ => show win1_10.index t (1 : Fin 2) * 128 ≤ (i 1).val ∧ (i 1).val < win1_10.index t (1 : Fin 2) * 128 + 128; rw [f21]; omega

/-- The output array after the region is `G` of the arrays it found. -/
theorem final (hbody : BodyAt) (c : Dev nD) : (dat1 V c).arrAt 10 cfg1.N = G V c :=
  (dat1 V c).arrAt_eq_of_cover 10 (G V c) (fun t _ => flushed_eq V hbody c t) (covered)

end Cert.Sage.Region1

end
-- ==== Proof.KernelBody1.lean ====
/-
  What one grid step of the second fused layer leaves in its output block, read at a row and a column.
-/
import proofs.«164375_j16853451669719_2_alg».proof.Proof.KernelBody0

set_option maxRecDepth 16384

noncomputable section

namespace Cert.Sage.Body

open Idealize.ShloMosaic Idealize.ShloMosaic.ValueIdx Idealize.ShloMosaic.TcCoe Cert.KernelIdeal

/-- What the body of layer two leaves in its output block, at row `r` and column `j`: the dense layer formula on row `r` of
    the aggregated block scaled by the row's reciprocal count, and row `r` of the feature block. -/
theorem out1_10_apply (x0 : Vec Ideal S4000x128 .f32) (x1 : Vec Ideal S4000x1 .f32) (x2 : Vec Ideal S4000x128 .f32)
    (x3 : Vec Ideal S128x128 .f32) (x4 : Vec Ideal S1x128 .f32) (x5 : Vec Ideal S128x128 .f32) (x6 : Vec Ideal S1x128 .f32)
    (x7 : Vec Ideal S1x128 .f32) (x8 : Vec Ideal S1x128 .f32) (x9 : Vec Ideal S1x128 .f32) (r : Fin 4000) (j : Fin 128) :
    Gen.out1_10 (F := Ideal) x0 x1 x2 x3 x4 x5 x6 x7 x8 x9 (ix2 r j)
      = Cert.Sage.denseRow (fun k => x0 (ix2 r k) * x1 (ix2 r (0 : Fin 1))) (fun k => x2 (ix2 r k)) (Cert.Sage.rd2 x3) (Cert.Sage.rd2 x5)
        (fun c => x4 (ix2 (0 : Fin 1) c)) (fun c => x6 (ix2 (0 : Fin 1) c)) (fun c => x7 (ix2 (0 : Fin 1) c))
        (fun c => x8 (ix2 (0 : Fin 1) c)) (fun c => x9 (ix2 (0 : Fin 1) c)) j := by
  unfold Gen.out1_10
  rw [View.canon_unit_zero hz]
  simp only [View.ld_unit_zero (S := S4000x128) hz, View.ld_unit_zero (S := S4000x1) hz,
    View.ld_unit_zero (S := S128x128) hz, View.ld_unit_zero (S := S1x128) hz]
  unfold Gen.k1_pay1 Gen.k1_pay2
  simp only [shapeCast_self]
  simp only [maximumf_apply, addf_apply, mulf_apply, subf_apply, broadcast_apply, rsqrt_apply, truncf_apply,
    broadcastTo_1b_ab_apply, broadcastTo_a1_ab_apply, matmul_128]
  rfl

end Cert.Sage.Body

end
-- ==== Proof.Fold6.lean ====
/-
  The arrays after the second tiled region: its output is the second layer applied to the first layer's rows.
-/
import proofs.«164375_j16853451669719_2_alg».proof.Proof.Gen.KernelIdeal.Frame
import proofs.«164375_j16853451669719_2_alg».proof.Proof.HostTerms
import proofs.«164375_j16853451669719_2_alg».proof.Proof.Fold5
import proofs.«164375_j16853451669719_2_alg».proof.Proof.Region1
import proofs.«164375_j16853451669719_2_alg».proof.Proof.KernelBody1
import proofs.«164375_j16853451669719_2_alg».proof.Proof.KernelNet
import Idealize.ShloMosaic.Lib.StableHlo.Run
import Idealize.ShloMosaic.PureOps.Ideal

set_option maxRecDepth 16384

noncomputable section

namespace Cert.Sage.Fold

open Cert.KernelIdeal Cert.KernelIdeal.Gen Cert.Sage.Host
open Idealize.ShloMosaic Idealize.ShloMosaic.TcCoe Idealize.SL.Sem Idealize.ShloMosaic.StableHlo

variable (m : (ℓ : Loc nD τ sig) → Buf (Elt Ideal) ℓ) (ρ : Dev nD → PrngReg)

/-- The second layer's rows. -/
def H2 (c : Dev nD) : FVec Ideal S100000x128 .f32 :=
  Cert.Sage.kLayer (aggOf (srcST (m ((c : Thread nD τ).loc main_arg1))) (dstST (m ((c : Thread nD τ).loc main_arg1))) (H1 m c)) (invT (m ((c : Thread nD τ).loc main_arg1))) (H1 m c) (m ((c : Thread nD τ).loc main_arg9)) (row128 (m ((c : Thread nD τ).loc main_arg10))) (m ((c : Thread nD τ).loc main_arg11)) (row128 (m ((c : Thread nD τ).loc main_arg12))) (row128 (m ((c : Thread nD τ).loc main_arg13))) (row128 (m ((c : Thread nD τ).loc main_arg14))) (row128 (m ((c : Thread nD τ).loc main_arg15)))

theorem W6_v59 (c : Dev nD) : (W6 m ρ c (Proc.devRef .tc main_v59) : FVec Ideal S100000x128 .f32) = H2 m c := by
  refine (W6_arr m ρ c 10).trans ((Cert.Sage.Region1.final (V5 m ρ) Cert.Sage.Body.out1_10_apply c).trans ?_)
  show Cert.Sage.kLayer (W5 m ρ c (Proc.devRef .tc main_v53)) (W5 m ρ c (Proc.devRef .tc main_v27)) (W5 m ρ c (Proc.devRef .tc main_v43)) (W5 m ρ c (Proc.devRef .tc main_arg9)) (W5 m ρ c (Proc.devRef .tc main_v54)) (W5 m ρ c (Proc.devRef .tc main_arg11)) (W5 m ρ c (Proc.devRef .tc main_v55)) (W5 m ρ c (Proc.devRef .tc main_v56)) (W5 m ρ c (Proc.devRef .tc main_v57)) (W5 m ρ c (Proc.devRef .tc main_v58)) = _
  rw [W5_v53 m ρ c, W5_v27 m ρ c, W5_v43 m ρ c, W5_arg9 m ρ c, W5_v54 m ρ c, W5_arg11 m ρ c, W5_v55 m ρ c, W5_v56 m ρ c, W5_v57 m ρ c, W5_v58 m ρ c]
  rfl

theorem W6_v11 (c : Dev nD) : (W6 m ρ c (Proc.devRef .tc main_v11) : IVec S1600000 32) = srcST (m ((c : Thread nD τ).loc main_arg1)) :=
  (W6_of_ne m ρ c main_v11 (by decide)).trans (W5_v11 m ρ c)

theorem W6_v18 (c : Dev nD) : (W6 m ρ c (Proc.devRef .tc main_v18) : IVec S1600000 32) = dstST (m ((c : Thread nD τ).loc main_arg1)) :=
  (W6_of_ne m ρ c main_v18 (by decide)).trans (W5_v18 m ρ c)

theorem W6_v27 (c : Dev nD) : (W6 m ρ c (Proc.devRef .tc main_v27) : FVec Ideal S100000x1 .f32) = invT (m ((c : Thread nD τ).loc main_arg1)) :=
  (W6_arr m ρ c 1).trans (((dat1 (V5 m ρ) c).arrAt_in 1 rfl _).trans ((A_eq1 (V5 m ρ) c 1).trans (W5_v27 m ρ c)))

theorem W6_arg16 (c : Dev nD) : W6 m ρ c (Proc.devRef .tc main_arg16) = (m ((c : Thread nD τ).loc main_arg16)) :=
  (W6_of_ne m ρ c main_arg16 (by decide)).trans (W5_arg16 m ρ c)

theorem W6_arg17 (c : Dev nD) : W6 m ρ c (Proc.devRef .tc main_arg17) = (m ((c : Thread nD τ).loc main_arg17)) :=
  (W6_of_ne m ρ c main_arg17 (by decide)).trans (W5_arg17 m ρ c)

theorem W6_arg18 (c : Dev nD) : W6 m ρ c (Proc.devRef .tc main_arg18) = (m ((c : Thread nD τ).loc main_arg18)) :=
  (W6_of_ne m ρ c main_arg18 (by decide)).trans (W5_arg18 m ρ c)

theorem W6_arg19 (c : Dev nD) : W6 m ρ c (Proc.devRef .tc main_arg19) = (m ((c : Thread nD τ).loc main_arg19)) :=
  (W6_of_ne m ρ c main_arg19 (by decide)).trans (W5_arg19 m ρ c)

theorem W6_arg20 (c : Dev nD) : W6 m ρ c (Proc.devRef .tc main_arg20) = (m ((c : Thread nD τ).loc main_arg20)) :=
  (W6_of_ne m ρ c main_arg20 (by decide)).trans (W5_arg20 m ρ c)

theorem W6_arg21 (c : Dev nD) : W6 m ρ c (Proc.devRef .tc main_arg21) = (m ((c : Thread nD τ).loc main_arg21)) :=
  (W6_of_ne m ρ c main_arg21 (by decide)).trans (W5_arg21 m ρ c)

theorem W6_arg22 (c : Dev nD) : W6 m ρ c (Proc.devRef .tc main_arg22) = (m ((c : Thread nD τ).loc main_arg22)) :=
  (W6_of_ne m ρ c main_arg22 (by decide)).trans (W5_arg22 m ρ c)

theorem W6_arg23 (c : Dev nD) : W6 m ρ c (Proc.devRef .tc main_arg23) = (m ((c : Thread nD τ).loc main_arg23)) :=
  (W6_of_ne m ρ c main_arg23 (by decide)).trans (W5_arg23 m ρ c)

theorem W6_arg24 (c : Dev nD) : W6 m ρ c (Proc.devRef .tc main_arg24) = (m ((c : Thread nD τ).loc main_arg24)) :=
  (W6_of_ne m ρ c main_arg24 (by decide)).trans (W5_arg24 m ρ c)

theorem W6_arg25 (c : Dev nD) : W6 m ρ c (Proc.devRef .tc main_arg25) = (m ((c : Thread nD τ).loc main_arg25)) :=
  (W6_of_ne m ρ c main_arg25 (by decide)).trans (W5_arg25 m ρ c)

theorem W6_arg26 (c : Dev nD) : W6 m ρ c (Proc.devRef .tc main_arg26) = (m ((c : Thread nD τ).loc main_arg26)) :=
  (W6_of_ne m ρ c main_arg26 (by decide)).trans (W5_arg26 m ρ c)

end Cert.Sage.Fold

end
-- ==== Proof.Fold7.lean ====
/-
  The arrays the third tiled region finds: the second layer's rows aggregated over the sorted edges, the third layer's and the head's vectors as rows, and everything carried over.
-/
import proofs.«164375_j16853451669719_2_alg».proof.Proof.Gen.KernelIdeal.Frame
import proofs.«164375_j16853451669719_2_alg».proof.Proof.HostTerms
import proofs.«164375_j16853451669719_2_alg».proof.Proof.Fold6
import Idealize.ShloMosaic.Lib.StableHlo.Run
import Idealize.ShloMosaic.PureOps.Ideal

set_option maxRecDepth 16384

noncomputable section

namespace Cert.Sage.Fold

open Cert.KernelIdeal Cert.KernelIdeal.Gen Cert.Sage.Host
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
theorem W7_v69 (c : Dev nD) : (W7 m ρ c (Proc.devRef .tc main_v69) : FVec Ideal S100000x128 .f32) = aggOf (srcST (m ((c : Thread nD τ).loc main_arg1))) (dstST (m ((c : Thread nD τ).loc main_arg1))) (H2 m c) := by
  have h : (W7 m ρ c (Proc.devRef .tc main_v69) : FVec Ideal S100000x128 .f32)
      = aggOf (W6 m ρ c (Proc.devRef .tc main_v11)) (W6 m ρ c (Proc.devRef .tc main_v18)) (W6 m ρ c (Proc.devRef .tc main_v59)) := by
    dsimp only [W7]; after_results_simp; rfl
  rw [h, W6_v11 m ρ c, W6_v18 m ρ c, W6_v59 m ρ c]

theorem W7_v59 (c : Dev nD) : (W7 m ρ c (Proc.devRef .tc main_v59) : FVec Ideal S100000x128 .f32) = H2 m c := by
  dsimp only [W7]; after_results; exact W6_v59 m ρ c

theorem W7_v70 (c : Dev nD) : (W7 m ρ c (Proc.devRef .tc main_v70) : FVec Ideal S1x128 .f32) = row128 (m ((c : Thread nD τ).loc main_arg17)) := by
  have h : (W7 m ρ c (Proc.devRef .tc main_v70) : FVec Ideal S1x128 .f32) = row128 (W6 m ρ c (Proc.devRef .tc main_arg17)) := by
    dsimp only [W7]; after_results; rfl
  rw [h, W6_arg17 m ρ c]

theorem W7_v71 (c : Dev nD) : (W7 m ρ c (Proc.devRef .tc main_v71) : FVec Ideal S1x128 .f32) = row128 (m ((c : Thread nD τ).loc main_arg19)) := by
  have h : (W7 m ρ c (Proc.devRef .tc main_v71) : FVec Ideal S1x128 .f32) = row128 (W6 m ρ c (Proc.devRef .tc main_arg19)) := by
    dsimp only [W7]; after_results; rfl
  rw [h, W6_arg19 m ρ c]

theorem W7_v72 (c : Dev nD) : (W7 m ρ c (Proc.devRef .tc main_v72) : FVec Ideal S1x128 .f32) = row128 (m ((c : Thread nD τ).loc main_arg20)) := by
  have h : (W7 m ρ c (Proc.devRef .tc main_v72) : FVec Ideal S1x128 .f32) = row128 (W6 m ρ c (Proc.devRef .tc main_arg20)) := by
    dsimp only [W7]; after_results; rfl
  rw [h, W6_arg20 m ρ c]

theorem W7_v73 (c : Dev nD) : (W7 m ρ c (Proc.devRef .tc main_v73) : FVec Ideal S1x128 .f32) = row128 (m ((c : Thread nD τ).loc main_arg21)) := by
  have h : (W7 m ρ c (Proc.devRef .tc main_v73) : FVec Ideal S1x128 .f32) = row128 (W6 m ρ c (Proc.devRef .tc main_arg21)) := by
    dsimp only [W7]; after_results; rfl
  rw [h, W6_arg21 m ρ c]

theorem W7_v74 (c : Dev nD) : (W7 m ρ c (Proc.devRef .tc main_v74) : FVec Ideal S1x128 .f32) = row128 (m ((c : Thread nD τ).loc main_arg22)) := by
  have h : (W7 m ρ c (Proc.devRef .tc main_v74) : FVec Ideal S1x128 .f32) = row128 (W6 m ρ c (Proc.devRef .tc main_arg22)) := by
    dsimp only [W7]; after_results; rfl
  rw [h, W6_arg22 m ρ c]

theorem W7_v75 (c : Dev nD) : (W7 m ρ c (Proc.devRef .tc main_v75) : FVec Ideal S1x128 .f32) = row128 (m ((c : Thread nD τ).loc main_arg24)) := by
  have h : (W7 m ρ c (Proc.devRef .tc main_v75) : FVec Ideal S1x128 .f32) = row128 (W6 m ρ c (Proc.devRef .tc main_arg24)) := by
    dsimp only [W7]; after_results; rfl
  rw [h, W6_arg24 m ρ c]

theorem W7_v76 (c : Dev nD) : (W7 m ρ c (Proc.devRef .tc main_v76) : FVec Ideal S1x16 .f32) = row16 (m ((c : Thread nD τ).loc main_arg26)) := by
  have h : (W7 m ρ c (Proc.devRef .tc main_v76) : FVec Ideal S1x16 .f32) = row16 (W6 m ρ c (Proc.devRef .tc main_arg26)) := by
    dsimp only [W7]; after_results; rfl
  rw [h, W6_arg26 m ρ c]

theorem W7_v27 (c : Dev nD) : (W7 m ρ c (Proc.devRef .tc main_v27) : FVec Ideal S100000x1 .f32) = invT (m ((c : Thread nD τ).loc main_arg1)) := by
  dsimp only [W7]; after_results; exact W6_v27 m ρ c

theorem W7_arg16 (c : Dev nD) : W7 m ρ c (Proc.devRef .tc main_arg16) = (m ((c : Thread nD τ).loc main_arg16)) := by
  dsimp only [W7]; after_results; exact W6_arg16 m ρ c

theorem W7_arg18 (c : Dev nD) : W7 m ρ c (Proc.devRef .tc main_arg18) = (m ((c : Thread nD τ).loc main_arg18)) := by
  dsimp only [W7]; after_results; exact W6_arg18 m ρ c

theorem W7_arg23 (c : Dev nD) : W7 m ρ c (Proc.devRef .tc main_arg23) = (m ((c : Thread nD τ).loc main_arg23)) := by
  dsimp only [W7]; after_results; exact W6_arg23 m ρ c

theorem W7_arg25 (c : Dev nD) : W7 m ρ c (Proc.devRef .tc main_arg25) = (m ((c : Thread nD τ).loc main_arg25)) := by
  dsimp only [W7]; after_results; exact W6_arg25 m ρ c

end Cert.Sage.Fold

end
-- ==== Proof.Region2.lean ====
/-
  Region 2 of the idealized kernel as one function of the arrays it finds: the grid's 25 points each take 4000
  consecutive rows, so point t writes rows 4000·t … 4000·t + 3999 of the output, each a function of the same row of the
  row-tiled inputs and of the whole of the small inputs; the 25 blocks tile the output array.
-/
import proofs.«164375_j16853451669719_2_alg».proof.Proof.Gen.KernelIdeal.Frame
import proofs.«164375_j16853451669719_2_alg».proof.Proof.Spec
import proofs.«164375_j16853451669719_2_alg».proof.Proof.KernelNet
import Idealize.ShloMosaic.Lib.Pipeline.Value
import Idealize.ShloMosaic.Lib.ValueIdx
import Idealize.ShloMosaic.PureOps.Ideal

set_option maxRecDepth 16384

noncomputable section

namespace Cert.Sage.Region2

open Cert.KernelIdeal Cert.KernelIdeal.Gen
open Idealize.ShloMosaic Idealize.ShloMosaic.TcCoe Idealize.ShloMosaic.ValueIdx Idealize.SL.Sem
open Idealize.ShloMosaic.Pipeline (Dat)

/-- What the body leaves in row r, column j of the output block, as a function of the input blocks. -/
def BodyAt : Prop := ∀ (x0 : Vec Ideal S4000x128 .f32) (x1 : Vec Ideal S4000x1 .f32) (x2 : Vec Ideal S4000x128 .f32) (x3 : Vec Ideal S128x128 .f32) (x4 : Vec Ideal S1x128 .f32) (x5 : Vec Ideal S128x128 .f32) (x6 : Vec Ideal S1x128 .f32) (x7 : Vec Ideal S1x128 .f32) (x8 : Vec Ideal S1x128 .f32) (x9 : Vec Ideal S1x128 .f32) (x10 : Vec Ideal S128x128 .f32) (x11 : Vec Ideal S1x128 .f32) (x12 : Vec Ideal S128x16 .f32) (x13 : Vec Ideal S1x16 .f32) (r : Fin 4000) (j : Fin 16),
    out2_14 (F := Ideal) x0 x1 x2 x3 x4 x5 x6 x7 x8 x9 x10 x11 x12 x13 (ix2 r j : S4000x16.Idx) =
      Cert.Sage.headRow (fun a' => Cert.Sage.denseRow (fun k => x0 (ix2 r k) * x1 (ix2 r (0 : Fin 1))) (fun k => x2 (ix2 r k))
      (Cert.Sage.rd2 x3) (Cert.Sage.rd2 x5) (fun a => x4 (ix2 (0 : Fin 1) a)) (fun a => x6 (ix2 (0 : Fin 1) a))
      (fun a => x7 (ix2 (0 : Fin 1) a)) (fun a => x8 (ix2 (0 : Fin 1) a)) (fun a => x9 (ix2 (0 : Fin 1) a)) a') (Cert.Sage.rd2 x10) (fun a => x11 (ix2 (0 : Fin 1) a)) (Cert.Sage.rd2 x12) (fun a => x13 (ix2 (0 : Fin 1) a)) j

variable (V : (c : Dev nD) → (b : Ref sig .tc) → Buf (Elt Ideal) ((c : Thread nD τ).loc b))

theorem N_eq : cfg2.N = 25 := N_2

/-- Row r of point t's block is row 4000·t + r of the array. -/
def rowAt (t : Fin cfg2.N) (r : Fin 4000) : Fin 100000 :=
  ⟨t.val * 4000 + r.val, by have h : t.val < 25 := lt_of_lt_of_eq t.isLt N_eq; have := r.isLt; omega⟩

/-- Input array 0 of the region, as the region finds it. -/
abbrev a0 (c : Dev nD) : S100000x128.Idx → EReal := V c main_v69
/-- Input array 1 of the region, as the region finds it. -/
abbrev a1 (c : Dev nD) : S100000x1.Idx → EReal := V c main_v27
/-- Input array 2 of the region, as the region finds it. -/
abbrev a2 (c : Dev nD) : S100000x128.Idx → EReal := V c main_v59
/-- Input array 3 of the region, as the region finds it. -/
abbrev a3 (c : Dev nD) : S128x128.Idx → EReal := V c main_arg16
/-- Input array 4 of the region, as the region finds it. -/
abbrev a4 (c : Dev nD) : S1x128.Idx → EReal := V c main_v70
/-- Input array 5 of the region, as the region finds it. -/
abbrev a5 (c : Dev nD) : S128x128.Idx → EReal := V c main_arg18
/-- Input array 6 of the region, as the region finds it. -/
abbrev a6 (c : Dev nD) : S1x128.Idx → EReal := V c main_v71
/-- Input array 7 of the region, as the region finds it. -/
abbrev a7 (c : Dev nD) : S1x128.Idx → EReal := V c main_v72
/-- Input array 8 of the region, as the region finds it. -/
abbrev a8 (c : Dev nD) : S1x128.Idx → EReal := V c main_v73
/-- Input array 9 of the region, as the region finds it. -/
abbrev a9 (c : Dev nD) : S1x128.Idx → EReal := V c main_v74
/-- Input array 10 of the region, as the region finds it. -/
abbrev a10 (c : Dev nD) : S128x128.Idx → EReal := V c main_arg23
/-- Input array 11 of the region, as the region finds it. -/
abbrev a11 (c : Dev nD) : S1x128.Idx → EReal := V c main_v75
/-- Input array 12 of the region, as the region finds it. -/
abbrev a12 (c : Dev nD) : S128x16.Idx → EReal := V c main_arg25
/-- Input array 13 of the region, as the region finds it. -/
abbrev a13 (c : Dev nD) : S1x16.Idx → EReal := V c main_v76

/-- The whole output array, row by row, from the arrays the region finds. -/
def G (c : Dev nD) : S100000x16.Idx → EReal :=
  Cert.Sage.kHead (a0 V c) (a1 V c) (a2 V c) (a3 V c) (a4 V c) (a5 V c) (a6 V c) (a7 V c) (a8 V c) (a9 V c) (a10 V c) (a11 V c) (a12 V c) (a13 V c)

/-- The printed block index maps over the grid: a row-tiled window's block number is the point, the others' is zero. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = 0
    ∧ win2_11.index t (1 : Fin 2) = 0
    ∧ win2_12.index t (0 : Fin 2) = 0
    ∧ win2_12.index t (1 : Fin 2) = 0
    ∧ win2_13.index t (0 : Fin 2) = 0
    ∧ win2_13.index t (1 : Fin 2) = 0
    ∧ win2_14.index t (0 : Fin 2) = t.val
    ∧ win2_14.index t (1 : Fin 2) = 0 :=
  (by decide +kernel : ∀ t : Fin grid2.N, _)

theorem emb0 (t : Fin cfg2.N) (r : Fin 4000) (k : Fin 128) :
    ((cfg2.win 0).blk t).view.emb (ix2 r k : S4000x128.Idx) = ix2 (rowAt t r) k := by
  obtain ⟨f0, f1, f2, f3, f4, f5, f6, f7, f8, f9, f10, f11, f12, f13, f14, f15, f16, f17, f18, f19, f20, f21, f22, f23, f24, f25, f26, f27, f28, f29⟩ := idx_facts t
  funext a; apply Fin.ext
  match a with
  | ⟨0, _⟩ => show win2_0.index t (0 : Fin 2) * 4000 + 1 * r.val = t.val * 4000 + r.val; rw [f0]; omega
  | ⟨1, _⟩ => show win2_0.index t (1 : Fin 2) * 128 + 1 * k.val = k.val; rw [f1]; omega

theorem emb1 (t : Fin cfg2.N) (r : Fin 4000) (k : Fin 1) :
    ((cfg2.win 1).blk t).view.emb (ix2 r k : S4000x1.Idx) = ix2 (rowAt t r) k := by
  obtain ⟨f0, f1, f2, f3, f4, f5, f6, f7, f8, f9, f10, f11, f12, f13, f14, f15, f16, f17, f18, f19, f20, f21, f22, f23, f24, f25, f26, f27, f28, f29⟩ := idx_facts t
  funext a; apply Fin.ext
  match a with
  | ⟨0, _⟩ => show win2_1.index t (0 : Fin 2) * 4000 + 1 * r.val = t.val * 4000 + r.val; rw [f2]; omega
  | ⟨1, _⟩ => show win2_1.index t (1 : Fin 2) * 1 + 1 * k.val = k.val; rw [f3]; omega

theorem emb2 (t : Fin cfg2.N) (r : Fin 4000) (k : Fin 128) :
    ((cfg2.win 2).blk t).view.emb (ix2 r k : S4000x128.Idx) = ix2 (rowAt t r) k := by
  obtain ⟨f0, f1, f2, f3, f4, f5, f6, f7, f8, f9, f10, f11, f12, f13, f14, f15, f16, f17, f18, f19, f20, f21, f22, f23, f24, f25, f26, f27, f28, f29⟩ := idx_facts t
  funext a; apply Fin.ext
  match a with
  | ⟨0, _⟩ => show win2_2.index t (0 : Fin 2) * 4000 + 1 * r.val = t.val * 4000 + r.val; rw [f4]; omega
  | ⟨1, _⟩ => show win2_2.index t (1 : Fin 2) * 128 + 1 * k.val = k.val; rw [f5]; omega

theorem emb3 (t : Fin cfg2.N) (y : S128x128.Idx) : ((cfg2.win 3).blk t).view.emb y = y := by
  obtain ⟨f0, f1, f2, f3, f4, f5, f6, f7, f8, f9, f10, f11, f12, f13, f14, f15, f16, f17, f18, f19, f20, f21, f22, f23, f24, f25, f26, f27, f28, f29⟩ := idx_facts t
  funext a; apply Fin.ext
  match a with
  | ⟨0, _⟩ => show win2_3.index t (0 : Fin 2) * 128 + 1 * (y 0).val = (y 0).val; rw [f6]; omega
  | ⟨1, _⟩ => show win2_3.index t (1 : Fin 2) * 128 + 1 * (y 1).val = (y 1).val; rw [f7]; omega

theorem emb4 (t : Fin cfg2.N) (y : S1x128.Idx) : ((cfg2.win 4).blk t).view.emb y = y := by
  obtain ⟨f0, f1, f2, f3, f4, f5, f6, f7, f8, f9, f10, f11, f12, f13, f14, f15, f16, f17, f18, f19, f20, f21, f22, f23, f24, f25, f26, f27, f28, f29⟩ := idx_facts t
  funext a; apply Fin.ext
  match a with
  | ⟨0, _⟩ => show win2_4.index t (0 : Fin 2) * 1 + 1 * (y 0).val = (y 0).val; rw [f8]; omega
  | ⟨1, _⟩ => show win2_4.index t (1 : Fin 2) * 128 + 1 * (y 1).val = (y 1).val; rw [f9]; omega

theorem emb5 (t : Fin cfg2.N) (y : S128x128.Idx) : ((cfg2.win 5).blk t).view.emb y = y := by
  obtain ⟨f0, f1, f2, f3, f4, f5, f6, f7, f8, f9, f10, f11, f12, f13, f14, f15, f16, f17, f18, f19, f20, f21, f22, f23, f24, f25, f26, f27, f28, f29⟩ := idx_facts t
  funext a; apply Fin.ext
  match a with
  | ⟨0, _⟩ => show win2_5.index t (0 : Fin 2) * 128 + 1 * (y 0).val = (y 0).val; rw [f10]; omega
  | ⟨1, _⟩ => show win2_5.index t (1 : Fin 2) * 128 + 1 * (y 1).val = (y 1).val; rw [f11]; omega

theorem emb6 (t : Fin cfg2.N) (y : S1x128.Idx) : ((cfg2.win 6).blk t).view.emb y = y := by
  obtain ⟨f0, f1, f2, f3, f4, f5, f6, f7, f8, f9, f10, f11, f12, f13, f14, f15, f16, f17, f18, f19, f20, f21, f22, f23, f24, f25, f26, f27, f28, f29⟩ := idx_facts t
  funext a; apply Fin.ext
  match a with
  | ⟨0, _⟩ => show win2_6.index t (0 : Fin 2) * 1 + 1 * (y 0).val = (y 0).val; rw [f12]; omega
  | ⟨1, _⟩ => show win2_6.index t (1 : Fin 2) * 128 + 1 * (y 1).val = (y 1).val; rw [f13]; omega

theorem emb7 (t : Fin cfg2.N) (y : S1x128.Idx) : ((cfg2.win 7).blk t).view.emb y = y := by
  obtain ⟨f0, f1, f2, f3, f4, f5, f6, f7, f8, f9, f10, f11, f12, f13, f14, f15, f16, f17, f18, f19, f20, f21, f22, f23, f24, f25, f26, f27, f28, f29⟩ := idx_facts t
  funext a; apply Fin.ext
  match a with
  | ⟨0, _⟩ => show win2_7.index t (0 : Fin 2) * 1 + 1 * (y 0).val = (y 0).val; rw [f14]; omega
  | ⟨1, _⟩ => show win2_7.index t (1 : Fin 2) * 128 + 1 * (y 1).val = (y 1).val; rw [f15]; omega

theorem emb8 (t : Fin cfg2.N) (y : S1x128.Idx) : ((cfg2.win 8).blk t).view.emb y = y := by
  obtain ⟨f0, f1, f2, f3, f4, f5, f6, f7, f8, f9, f10, f11, f12, f13, f14, f15, f16, f17, f18, f19, f20, f21, f22, f23, f24, f25, f26, f27, f28, f29⟩ := idx_facts t
  funext a; apply Fin.ext
  match a with
  | ⟨0, _⟩ => show win2_8.index t (0 : Fin 2) * 1 + 1 * (y 0).val = (y 0).val; rw [f16]; omega
  | ⟨1, _⟩ => show win2_8.index t (1 : Fin 2) * 128 + 1 * (y 1).val = (y 1).val; rw [f17]; omega

theorem emb9 (t : Fin cfg2.N) (y : S1x128.Idx) : ((cfg2.win 9).blk t).view.emb y = y := by
  obtain ⟨f0, f1, f2, f3, f4, f5, f6, f7, f8, f9, f10, f11, f12, f13, f14, f15, f16, f17, f18, f19, f20, f21, f22, f23, f24, f25, f26, f27, f28, f29⟩ := idx_facts t
  funext a; apply Fin.ext
  match a with
  | ⟨0, _⟩ => show win2_9.index t (0 : Fin 2) * 1 + 1 * (y 0).val = (y 0).val; rw [f18]; omega
  | ⟨1, _⟩ => show win2_9.index t (1 : Fin 2) * 128 + 1 * (y 1).val = (y 1).val; rw [f19]; omega

theorem emb10 (t : Fin cfg2.N) (y : S128x128.Idx) : ((cfg2.win 10).blk t).view.emb y = y := by
  obtain ⟨f0, f1, f2, f3, f4, f5, f6, f7, f8, f9, f10, f11, f12, f13, f14, f15, f16, f17, f18, f19, f20, f21, f22, f23, f24, f25, f26, f27, f28, f29⟩ := idx_facts t
  funext a; apply Fin.ext
  match a with
  | ⟨0, _⟩ => show win2_10.index t (0 : Fin 2) * 128 + 1 * (y 0).val = (y 0).val; rw [f20]; omega
  | ⟨1, _⟩ => show win2_10.index t (1 : Fin 2) * 128 + 1 * (y 1).val = (y 1).val; rw [f21]; omega

theorem emb11 (t : Fin cfg2.N) (y : S1x128.Idx) : ((cfg2.win 11).blk t).view.emb y = y := by
  obtain ⟨f0, f1, f2, f3, f4, f5, f6, f7, f8, f9, f10, f11, f12, f13, f14, f15, f16, f17, f18, f19, f20, f21, f22, f23, f24, f25, f26, f27, f28, f29⟩ := idx_facts t
  funext a; apply Fin.ext
  match a with
  | ⟨0, _⟩ => show win2_11.index t (0 : Fin 2) * 1 + 1 * (y 0).val = (y 0).val; rw [f22]; omega
  | ⟨1, _⟩ => show win2_11.index t (1 : Fin 2) * 128 + 1 * (y 1).val = (y 1).val; rw [f23]; omega

theorem emb12 (t : Fin cfg2.N) (y : S128x16.Idx) : ((cfg2.win 12).blk t).view.emb y = y := by
  obtain ⟨f0, f1, f2, f3, f4, f5, f6, f7, f8, f9, f10, f11, f12, f13, f14, f15, f16, f17, f18, f19, f20, f21, f22, f23, f24, f25, f26, f27, f28, f29⟩ := idx_facts t
  funext a; apply Fin.ext
  match a with
  | ⟨0, _⟩ => show win2_12.index t (0 : Fin 2) * 128 + 1 * (y 0).val = (y 0).val; rw [f24]; omega
  | ⟨1, _⟩ => show win2_12.index t (1 : Fin 2) * 16 + 1 * (y 1).val = (y 1).val; rw [f25]; omega

theorem emb13 (t : Fin cfg2.N) (y : S1x16.Idx) : ((cfg2.win 13).blk t).view.emb y = y := by
  obtain ⟨f0, f1, f2, f3, f4, f5, f6, f7, f8, f9, f10, f11, f12, f13, f14, f15, f16, f17, f18, f19, f20, f21, f22, f23, f24, f25, f26, f27, f28, f29⟩ := idx_facts t
  funext a; apply Fin.ext
  match a with
  | ⟨0, _⟩ => show win2_13.index t (0 : Fin 2) * 1 + 1 * (y 0).val = (y 0).val; rw [f26]; omega
  | ⟨1, _⟩ => show win2_13.index t (1 : Fin 2) * 16 + 1 * (y 1).val = (y 1).val; rw [f27]; omega

theorem emb14 (t : Fin cfg2.N) (r : Fin 4000) (k : Fin 16) :
    ((cfg2.win 14).blk t).view.emb (ix2 r k : S4000x16.Idx) = ix2 (rowAt t r) k := by
  obtain ⟨f0, f1, f2, f3, f4, f5, f6, f7, f8, f9, f10, f11, f12, f13, f14, f15, f16, f17, f18, f19, f20, f21, f22, f23, f24, f25, f26, f27, f28, f29⟩ := idx_facts t
  funext a; apply Fin.ext
  match a with
  | ⟨0, _⟩ => show win2_14.index t (0 : Fin 2) * 4000 + 1 * r.val = t.val * 4000 + r.val; rw [f28]; omega
  | ⟨1, _⟩ => show win2_14.index t (1 : Fin 2) * 16 + 1 * k.val = k.val; rw [f29]; omega

/-- What point t writes back is block t of `G`. -/
theorem flushed_eq (hbody : BodyAt) (c : Dev nD) (t : Fin cfg2.N) :
    (dat2 V c).flushed 14 t = ((cfg2.win 14).blk t).view.read (Elt Ideal) (G V c) := by
  show (cfg2.win 14).cut (grid2.coords t) ((dat2 V c).after 14 t) = _
  rw [after2_14]
  funext y
  obtain ⟨r, j, rfl⟩ : ∃ (r : Fin 4000) (j : Fin 16), y = ix2 r j := ⟨y 0, y 1, eq_ix2 y⟩
  show out2_14 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (ix2 r j) = G V c (((cfg2.win 14).blk t).view.emb (ix2 r j))
  rw [emb14 t r j]
  refine (hbody _ _ _ _ _ _ _ _ _ _ _ _ _ _ r j).trans ?_
  have e0 : ∀ k : Fin 128, iblk2 V c 0 t (ix2 r k) = (a0 V c) (ix2 (rowAt t r) k) := fun k => congrArg (a0 V c) (emb0 t r k)
  have e1 : iblk2 V c 1 t (ix2 r (0 : Fin 1)) = (a1 V c) (ix2 (rowAt t r) (0 : Fin 1)) := congrArg (a1 V c) (emb1 t r 0)
  have e2 : ∀ k : Fin 128, iblk2 V c 2 t (ix2 r k) = (a2 V c) (ix2 (rowAt t r) k) := fun k => congrArg (a2 V c) (emb2 t r k)
  have e3 : iblk2 V c 3 t = (a3 V c) := funext fun y => congrArg (a3 V c) (emb3 t y)
  have e4 : iblk2 V c 4 t = (a4 V c) := funext fun y => congrArg (a4 V c) (emb4 t y)
  have e5 : iblk2 V c 5 t = (a5 V c) := funext fun y => congrArg (a5 V c) (emb5 t y)
  have e6 : iblk2 V c 6 t = (a6 V c) := funext fun y => congrArg (a6 V c) (emb6 t y)
  have e7 : iblk2 V c 7 t = (a7 V c) := funext fun y => congrArg (a7 V c) (emb7 t y)
  have e8 : iblk2 V c 8 t = (a8 V c) := funext fun y => congrArg (a8 V c) (emb8 t y)
  have e9 : iblk2 V c 9 t = (a9 V c) := funext fun y => congrArg (a9 V c) (emb9 t y)
  have e10 : iblk2 V c 10 t = (a10 V c) := funext fun y => congrArg (a10 V c) (emb10 t y)
  have e11 : iblk2 V c 11 t = (a11 V c) := funext fun y => congrArg (a11 V c) (emb11 t y)
  have e12 : iblk2 V c 12 t = (a12 V c) := funext fun y => congrArg (a12 V c) (emb12 t y)
  have e13 : iblk2 V c 13 t = (a13 V c) := funext fun y => congrArg (a13 V c) (emb13 t y)
  simp only [e0, e1, e2, e3, e4, e5, e6, e7, e8, e9, e10, e11, e12, e13]
  rfl

/-- An index of the array is in point t's block iff each coordinate is in the block's range. -/
theorem mem_blk (t : Fin cfg2.N) (i : S100000x16.Idx) :
    i ∈ ((cfg2.win 14).blk t).view.set ↔ ∀ a : Fin 2, win2_14.index t a * S4000x16.size a ≤ (i a).val ∧ (i a).val < win2_14.index t a * S4000x16.size a + S4000x16.size a := by
  show i ∈ ((View.whole main_v77).slice (win2_14.rect t)).set ↔ _
  rw [View.set_slice_whole, Rect.mem_set_unit]
  exact Iff.rfl

/-- Every row is in the block of the point it divides into. -/
theorem covered (i : S100000x16.Idx) :
    ∃ t : Fin cfg2.N, (cfg2.win 14).flush t = true ∧ i ∈ ((cfg2.win 14).blk t).view.set := by
  have hi0 : (i 0).val < 100000 := (i 0).isLt
  have hi1 : (i 1).val < 16 := (i 1).isLt
  let t : Fin cfg2.N := ⟨(i 0).val / 4000, by rw [N_eq]; omega⟩
  have htv : t.val = (i 0).val / 4000 := rfl
  obtain ⟨f0, f1, f2, f3, f4, f5, f6, f7, f8, f9, f10, f11, f12, f13, f14, f15, f16, f17, f18, f19, f20, f21, f22, f23, f24, f25, f26, f27, f28, f29⟩ := idx_facts t
  refine ⟨t, flush2_14 t, ?_⟩
  rw [mem_blk]
  intro a
  match a with
  | ⟨0, _⟩ => show win2_14.index t (0 : Fin 2) * 4000 ≤ (i 0).val ∧ (i 0).val < win2_14.index t (0 : Fin 2) * 4000 + 4000; rw [f28, htv]; omega
  | ⟨1, _⟩ => show win2_14.index t (1 : Fin 2) * 16 ≤ (i 1).val ∧ (i 1).val < win2_14.index t (1 : Fin 2) * 16 + 16; rw [f29]; omega

/-- The output array after the region is `G` of the arrays it found. -/
theorem final (hbody : BodyAt) (c : Dev nD) : (dat2 V c).arrAt 14 cfg2.N = G V c :=
  (dat2 V c).arrAt_eq_of_cover 14 (G V c) (fun t _ => flushed_eq V hbody c t) (covered)

end Cert.Sage.Region2

end
-- ==== Proof.KernelBody2.lean ====
/-
  What one grid step of the last fused layer, with the head, leaves in its output block, read at a row and a column.
-/
import proofs.«164375_j16853451669719_2_alg».proof.Proof.KernelBody0

set_option maxRecDepth 16384

noncomputable section

namespace Cert.Sage.Body

open Idealize.ShloMosaic Idealize.ShloMosaic.ValueIdx Idealize.ShloMosaic.TcCoe Cert.KernelIdeal

theorem matmul_16_lhs0 (i : S4000x16.Idx) (q : dot_S4000x128_S128x16_S4000x16_1_0_0_1_n_n.contr.Idx) : (dot_S4000x128_S128x16_S4000x16_1_0_0_1_n_n.lhsIdx i q 0).val = (i 0).val := by
  unfold DotDims.lhsIdx
  rw [dif_neg (show ¬(0 : Fin S4000x128.rank) ∈ dot_S4000x128_S128x16_S4000x16_1_0_0_1_n_n.lhsBatch by decide),
    dif_pos (show (0 : Fin S4000x128.rank) ∈ dot_S4000x128_S128x16_S4000x16_1_0_0_1_n_n.lhsNonContracting by decide)]
  rfl
theorem matmul_16_lhs1 (i : S4000x16.Idx) (q : dot_S4000x128_S128x16_S4000x16_1_0_0_1_n_n.contr.Idx) : (dot_S4000x128_S128x16_S4000x16_1_0_0_1_n_n.lhsIdx i q 1).val = (q ⟨0, by decide⟩).val :=
  dot_S4000x128_S128x16_S4000x16_1_0_0_1_n_n.lhsIdx_val_of_single rfl i q
theorem matmul_16_rhs0 (i : S4000x16.Idx) (q : dot_S4000x128_S128x16_S4000x16_1_0_0_1_n_n.contr.Idx) : (dot_S4000x128_S128x16_S4000x16_1_0_0_1_n_n.rhsIdx i q 0).val = (q ⟨0, by decide⟩).val :=
  dot_S4000x128_S128x16_S4000x16_1_0_0_1_n_n.rhsIdx_val_of_single rfl i q
theorem matmul_16_rhs1 (i : S4000x16.Idx) (q : dot_S4000x128_S128x16_S4000x16_1_0_0_1_n_n.contr.Idx) : (dot_S4000x128_S128x16_S4000x16_1_0_0_1_n_n.rhsIdx i q 1).val = (i 1).val := by
  unfold DotDims.rhsIdx
  rw [dif_neg (show ¬(1 : Fin S128x16.rank) ∈ dot_S4000x128_S128x16_S4000x16_1_0_0_1_n_n.rhsBatch by decide),
    dif_pos (show (1 : Fin S128x16.rank) ∈ dot_S4000x128_S128x16_S4000x16_1_0_0_1_n_n.rhsNonContracting by decide)]
  rfl

/-- A `4000x128 × 128x16` product into the zero accumulator, at a row and a column: the sum over the
    contracted axis of the products of the row's and the column's entries. -/
theorem matmul_16 (A : FVec Ideal S4000x128 .bf16) (B : FVec Ideal S128x16 .bf16) (r : Fin 4000) (j : Fin 16) :
    matmul dot_S4000x128_S128x16_S4000x16_1_0_0_1_n_n none A B (constant (F := Ideal) S4000x16 .f32 0x00000000#32) (ix2 r j)
      = ∑ k : Fin 128, A (ix2 r k) * B (ix2 k j) := by
  refine (Ideal.matmul_constant_zero_apply dot_S4000x128_S128x16_S4000x16_1_0_0_1_n_n none A B (ix2 r j)).trans ?_
  rw [← Equiv.sum_comp (ValueIdx.contrEquiv1 dot_S4000x128_S128x16_S4000x16_1_0_0_1_n_n 128 rfl rfl).symm]
  refine Finset.sum_congr rfl fun k _ => ?_
  have hk := ValueIdx.contrEquiv1_symm_val dot_S4000x128_S128x16_S4000x16_1_0_0_1_n_n 128 rfl rfl k
  have el : dot_S4000x128_S128x16_S4000x16_1_0_0_1_n_n.lhsIdx (ix2 r j) ((ValueIdx.contrEquiv1 dot_S4000x128_S128x16_S4000x16_1_0_0_1_n_n 128 rfl rfl).symm k) = ix2 r k :=
    funext fun a => Fin.ext (by
      match a with
      | ⟨0, _⟩ => exact matmul_16_lhs0 _ _
      | ⟨1, _⟩ => exact (matmul_16_lhs1 _ _).trans hk)
  have er : dot_S4000x128_S128x16_S4000x16_1_0_0_1_n_n.rhsIdx (ix2 r j) ((ValueIdx.contrEquiv1 dot_S4000x128_S128x16_S4000x16_1_0_0_1_n_n 128 rfl rfl).symm k) = ix2 k j :=
    funext fun a => Fin.ext (by
      match a with
      | ⟨0, _⟩ => exact (matmul_16_rhs0 _ _).trans hk
      | ⟨1, _⟩ => exact matmul_16_rhs1 _ _)
  rw [el, er]

/-- What the body of the last layer leaves in its output block, at row `r` and output column `q`: the head applied
    to the dense layer formula on row `r` of the input blocks. -/
theorem out2_14_apply (x0 : Vec Ideal S4000x128 .f32) (x1 : Vec Ideal S4000x1 .f32) (x2 : Vec Ideal S4000x128 .f32)
    (x3 : Vec Ideal S128x128 .f32) (x4 : Vec Ideal S1x128 .f32) (x5 : Vec Ideal S128x128 .f32) (x6 : Vec Ideal S1x128 .f32)
    (x7 : Vec Ideal S1x128 .f32) (x8 : Vec Ideal S1x128 .f32) (x9 : Vec Ideal S1x128 .f32)
    (x10 : Vec Ideal S128x128 .f32) (x11 : Vec Ideal S1x128 .f32) (x12 : Vec Ideal S128x16 .f32) (x13 : Vec Ideal S1x16 .f32) (r : Fin 4000) (q : Fin 16) :
    Gen.out2_14 (F := Ideal) x0 x1 x2 x3 x4 x5 x6 x7 x8 x9 x10 x11 x12 x13 (ix2 r q)
      = Cert.Sage.headRow (fun c => Cert.Sage.denseRow (fun k => x0 (ix2 r k) * x1 (ix2 r (0 : Fin 1))) (fun k => x2 (ix2 r k)) (Cert.Sage.rd2 x3) (Cert.Sage.rd2 x5)
        (fun c => x4 (ix2 (0 : Fin 1) c)) (fun c => x6 (ix2 (0 : Fin 1) c)) (fun c => x7 (ix2 (0 : Fin 1) c))
        (fun c => x8 (ix2 (0 : Fin 1) c)) (fun c => x9 (ix2 (0 : Fin 1) c)) c)
        (Cert.Sage.rd2 x10) (fun c => x11 (ix2 (0 : Fin 1) c)) (Cert.Sage.rd2 x12) (fun c => x13 (ix2 (0 : Fin 1) c)) q := by
  unfold Gen.out2_14
  rw [View.canon_unit_zero hz]
  simp only [View.ld_unit_zero (S := S4000x128) hz, View.ld_unit_zero (S := S4000x1) hz,
    View.ld_unit_zero (S := S128x128) hz, View.ld_unit_zero (S := S1x128) hz,
    View.ld_unit_zero (S := S128x16) hz, View.ld_unit_zero (S := S1x16) hz]
  unfold Gen.k2_pay1 Gen.k2_pay2
  simp only [shapeCast_self]
  simp only [maximumf_apply, addf_apply, mulf_apply, subf_apply, broadcast_apply, rsqrt_apply, truncf_apply,
    broadcastTo_1b_ab_apply, broadcastTo_a1_ab_apply, matmul_128, matmul_16]
  rfl

end Cert.Sage.Body

end
-- ==== Proof.Fold8.lean ====
/-
  The result array after the third tiled region: the third layer and the head applied to the second layer's rows.
-/
import proofs.«164375_j16853451669719_2_alg».proof.Proof.Gen.KernelIdeal.Frame
import proofs.«164375_j16853451669719_2_alg».proof.Proof.HostTerms
import proofs.«164375_j16853451669719_2_alg».proof.Proof.Fold7
import proofs.«164375_j16853451669719_2_alg».proof.Proof.Region2
import proofs.«164375_j16853451669719_2_alg».proof.Proof.KernelBody2
import proofs.«164375_j16853451669719_2_alg».proof.Proof.KernelNet
import Idealize.ShloMosaic.Lib.StableHlo.Run
import Idealize.ShloMosaic.PureOps.Ideal

set_option maxRecDepth 16384

noncomputable section

namespace Cert.Sage.Fold

open Cert.KernelIdeal Cert.KernelIdeal.Gen Cert.Sage.Host
open Idealize.ShloMosaic Idealize.ShloMosaic.TcCoe Idealize.SL.Sem Idealize.ShloMosaic.StableHlo

variable (m : (ℓ : Loc nD τ sig) → Buf (Elt Ideal) ℓ) (ρ : Dev nD → PrngReg)

/-- The result of the kernel's three regions, as the three layers and the head composed over the sorted edge list. -/
def OUT (c : Dev nD) : FVec Ideal S100000x16 .f32 :=
  Cert.Sage.kHead (aggOf (srcST (m ((c : Thread nD τ).loc main_arg1))) (dstST (m ((c : Thread nD τ).loc main_arg1))) (H2 m c)) (invT (m ((c : Thread nD τ).loc main_arg1))) (H2 m c) (m ((c : Thread nD τ).loc main_arg16)) (row128 (m ((c : Thread nD τ).loc main_arg17))) (m ((c : Thread nD τ).loc main_arg18)) (row128 (m ((c : Thread nD τ).loc main_arg19))) (row128 (m ((c : Thread nD τ).loc main_arg20))) (row128 (m ((c : Thread nD τ).loc main_arg21))) (row128 (m ((c : Thread nD τ).loc main_arg22))) (m ((c : Thread nD τ).loc main_arg23)) (row128 (m ((c : Thread nD τ).loc main_arg24))) (m ((c : Thread nD τ).loc main_arg25)) (row16 (m ((c : Thread nD τ).loc main_arg26)))

theorem W8_v77 (c : Dev nD) : (W8 m ρ c (Proc.devRef .tc main_v77) : FVec Ideal S100000x16 .f32) = OUT m c := by
  refine (W8_arr m ρ c 14).trans ((Cert.Sage.Region2.final (V7 m ρ) Cert.Sage.Body.out2_14_apply c).trans ?_)
  show Cert.Sage.kHead (W7 m ρ c (Proc.devRef .tc main_v69)) (W7 m ρ c (Proc.devRef .tc main_v27)) (W7 m ρ c (Proc.devRef .tc main_v59)) (W7 m ρ c (Proc.devRef .tc main_arg16)) (W7 m ρ c (Proc.devRef .tc main_v70)) (W7 m ρ c (Proc.devRef .tc main_arg18)) (W7 m ρ c (Proc.devRef .tc main_v71)) (W7 m ρ c (Proc.devRef .tc main_v72)) (W7 m ρ c (Proc.devRef .tc main_v73)) (W7 m ρ c (Proc.devRef .tc main_v74)) (W7 m ρ c (Proc.devRef .tc main_arg23)) (W7 m ρ c (Proc.devRef .tc main_v75)) (W7 m ρ c (Proc.devRef .tc main_arg25)) (W7 m ρ c (Proc.devRef .tc main_v76)) = _
  rw [W7_v69 m ρ c, W7_v27 m ρ c, W7_v59 m ρ c, W7_arg16 m ρ c, W7_v70 m ρ c, W7_arg18 m ρ c, W7_v71 m ρ c, W7_v72 m ρ c, W7_v73 m ρ c, W7_v74 m ρ c, W7_arg23 m ρ c, W7_v75 m ρ c, W7_arg25 m ρ c, W7_v76 m ρ c]
  rfl

end Cert.Sage.Fold

end
-- ==== Proof.EdgeSort.lean ====
/-
  Sorting a list of edge numbers only rearranges them.

  A stable sort of `n` keys that carries along the list `0, 1, …, n − 1` reads both lists through one and the same
  self-map of the positions, and that self-map is a bijection: every position is the source of exactly one sorted
  position.  So the carried list, after the sort, holds at position `e` the number `π e` for a bijection `π` — whatever
  the comparator is.  Such a number is below `2³¹`, so as a signed word it is itself, it is not negative, counting from
  the end leaves it alone, and clamping it into the table leaves it alone too.
-/
import proofs.«164375_j16853451669719_2_alg».proof.Proof.LibRows
import Idealize.ShloMosaic.Lib.SortFacts

noncomputable section

namespace Cert.Sage.EdgeSort

open Idealize.ShloMosaic Idealize.ShloMosaic.ValueIdx

/-- The two spellings of the rank-1 index at coordinate `k` agree. -/
theorem ofFin_eq_ix1 {n : Nat} (k : Fin n) : Shape.Idx.ofFin k = ix1 k := by
  funext d
  match d with
  | ⟨0, _⟩ => exact Fin.ext rfl

/-- "Position `k` sorts before position `k'`": the comparator on the pairs (key, position number). -/
def before {n : Nat} (cmp : BitVec 32 × BitVec 32 → BitVec 32 × BitVec 32 → BitVec 1)
    (keys : (⟨1, ![n]⟩ : Shape).Idx → BitVec 32) (k k' : Fin n) : Bool :=
  cmp (keys (ix1 k), BitVec.ofNat 32 k.val) (keys (ix1 k'), BitVec.ofNat 32 k'.val) == 1#1

/-- The carried list after the sort, read at position `e`: the number of the position the sort put there. -/
theorem sort2_iota_snd {n : Nat} (cmp : BitVec 32 × BitVec 32 → BitVec 32 × BitVec 32 → BitVec 1)
    (keys : (⟨1, ![n]⟩ : Shape).Idx → BitVec 32) (e : Fin n) :
    (Host.sort2 (⟨1, ![n]⟩ : Shape) 0 cmp keys (iotaInDim (⟨1, ![n]⟩ : Shape) 32 0)).2 (ix1 e)
      = BitVec.ofNat 32 (sortedFrom (before cmp keys) e).val := by
  unfold Host.sort2
  simp [iotaInDim, ofFin_eq_ix1]
  rfl

/-- THE SORTED POSITION NUMBERS ARE A REARRANGEMENT, for a list of any length `n`: the carried list after the sort holds
    at position `e` the number `π e`, for a bijection `π` of the positions. -/
theorem order_perm_general {n : Nat} (cmp : BitVec 32 × BitVec 32 → BitVec 32 × BitVec 32 → BitVec 1)
    (keys : (⟨1, ![n]⟩ : Shape).Idx → BitVec 32) :
    ∃ π : Fin n → Fin n, Function.Bijective π ∧ ∀ e : Fin n,
      (Host.sort2 (⟨1, ![n]⟩ : Shape) 0 cmp keys (iotaInDim (⟨1, ![n]⟩ : Shape) 32 0)).2 (ix1 e)
        = BitVec.ofNat 32 (π e).val :=
  ⟨sortedFrom (before cmp keys), ⟨sortedFrom_injective _, sortedFrom_surjective _⟩, sort2_iota_snd cmp keys⟩

/-- The same at the length of the edge list. -/
theorem order_perm (cmp : BitVec 32 × BitVec 32 → BitVec 32 × BitVec 32 → BitVec 1)
    (keys : (⟨1, ![1600000]⟩ : Shape).Idx → BitVec 32) :
    ∃ π : Fin 1600000 → Fin 1600000, Function.Bijective π ∧ ∀ e : Fin 1600000,
      (Host.sort2 (⟨1, ![1600000]⟩ : Shape) 0 cmp keys (iotaInDim (⟨1, ![1600000]⟩ : Shape) 32 0)).2 (ix1 e)
        = BitVec.ofNat 32 (π e).val :=
  order_perm_general cmp keys

/-! ## The arithmetic done on a sorted position number -/

/-- A number below `2³¹`, written as a 32-bit word and read signed, is itself. -/
theorem toInt_ofNat_of_lt (p : Nat) (hp : p < 2 ^ 31) : (BitVec.ofNat 32 p).toInt = (p : Int) := by
  rw [BitVec.toInt_eq_toNat_cond, BitVec.toNat_ofNat]
  have h32 : p % 2 ^ 32 = p := Nat.mod_eq_of_lt (by omega)
  rw [h32, if_pos (by omega)]

/-- Counting from the end of a list of `c` entries, as the programs spell it. -/
def wrapBy (c v : BitVec 32) : BitVec 32 := Scalar.select (IntOp.cmpi .slt v 0#32) (IntOp.addi v c) v

/-- A position number of a list shorter than `2³¹`, wrapped and clamped into the list, is itself. -/
theorem row_of_ofNat {n : Nat} (hn : n ≤ 2 ^ 31) (hN : 0 < n) (c : BitVec 32) (p : Fin n) :
    Cert.Lib.Rows.rowOf n hN (wrapBy c (BitVec.ofNat 32 p.val)) = p := by
  have hp : (BitVec.ofNat 32 p.val).toInt = (p.val : Int) := toInt_ofNat_of_lt p.val (lt_of_lt_of_le p.isLt hn)
  unfold wrapBy
  rw [Cert.Lib.Rows.wrap_of_toInt _ c p.val hp]
  exact Cert.Lib.Rows.rowOf_of_toInt hN _ p hp

/-- Counting from the end of the edge list. -/
def wrapE (v : BitVec 32) : BitVec 32 := Scalar.select (IntOp.cmpi .slt v 0#32) (IntOp.addi v 1600000#32) v

/-- An edge number, wrapped and clamped into the edge list, is itself. -/
theorem row_of_order (hN : 0 < 1600000) (p : Fin 1600000) :
    Cert.Lib.Rows.rowOf 1600000 hN (wrapE (BitVec.ofNat 32 p.val)) = p :=
  row_of_ofNat (by norm_num) hN 1600000#32 p

/-- Both facts together: the sorted edge numbers are `π e` for a bijection `π`, and the row each one selects in a table
    of the edge list's length is `π e`. -/
theorem order_rows (cmp : BitVec 32 × BitVec 32 → BitVec 32 × BitVec 32 → BitVec 1)
    (keys : (⟨1, ![1600000]⟩ : Shape).Idx → BitVec 32) :
    ∃ π : Fin 1600000 → Fin 1600000, Function.Bijective π ∧ ∀ e : Fin 1600000,
      (Host.sort2 (⟨1, ![1600000]⟩ : Shape) 0 cmp keys (iotaInDim (⟨1, ![1600000]⟩ : Shape) 32 0)).2 (ix1 e)
          = BitVec.ofNat 32 (π e).val
        ∧ ∀ hN : 0 < 1600000, Cert.Lib.Rows.rowOf 1600000 hN (wrapE
            ((Host.sort2 (⟨1, ![1600000]⟩ : Shape) 0 cmp keys (iotaInDim (⟨1, ![1600000]⟩ : Shape) 32 0)).2 (ix1 e)))
          = π e := by
  obtain ⟨π, hπ, h⟩ := order_perm cmp keys
  refine ⟨π, hπ, fun e => ⟨h e, fun hN => ?_⟩⟩
  rw [h e]
  exact row_of_order hN (π e)

end Cert.Sage.EdgeSort

end
-- ==== Proof.HostWords.lean ====
/-
  The edge words the kernel's host operations read in sorted order are the edge list's words, rearranged.

  The host sorts the edge numbers by destination and reads the source row and the destination row of the edge list through
  the sorted numbers.  A sorted number is `π e` for a bijection `π` of the edges; counting it from the end and clamping it
  into the list leave it alone; so position `e` of either sorted row holds the word of edge `π e`.
-/
import proofs.«164375_j16853451669719_2_alg».proof.KernelIdeal
import proofs.«164375_j16853451669719_2_alg».proof.Proof.Gen.KernelIdeal
import proofs.«164375_j16853451669719_2_alg».proof.Proof.HostTerms
import proofs.«164375_j16853451669719_2_alg».proof.Proof.Spec
import proofs.«164375_j16853451669719_2_alg».proof.Proof.LibRows
import proofs.«164375_j16853451669719_2_alg».proof.Proof.EdgeSort
import Idealize.ShloMosaic.Lib.Pipeline.Value
import Idealize.ShloMosaic.Lib.ValueIdx

noncomputable section

namespace Cert.Sage.HostWords

open Cert.KernelIdeal Cert.KernelIdeal.Facts₀ Cert.KernelIdeal.Facts Idealize.ShloMosaic Idealize.ShloMosaic.ValueIdx

theorem nE_pos : 0 < 1600000 := by decide

/-- The flattened source row, read at edge `p`. -/
theorem srcT_apply (ei : IVec S2x1600000 32) (p : Fin 1600000) :
    Cert.Sage.Host.srcT ei (ix1 p) = Cert.Sage.srcOf ei p := by
  unfold Cert.Sage.Host.srcT Cert.Sage.srcOf
  refine (shapeCast_apply _ shapeCasts_S1x1600000_S1600000 (ix1 p) (ix2 (0 : Fin 1) p)
    (by rewrite [Shape.rowMajor_val_two, Shape.rowMajor_val_one]; show 0 * 1600000 + p.val = p.val; omega)).trans ?_
  exact extractStridedSlice_apply ![0, 0] ei slices_S2x1600000_S1x1600000_0_0 (ix2 (0 : Fin 1) p) (ix2 (0 : Fin 2) p)
    (fun a => match a with
      | ⟨0, _⟩ => by show (0 : Nat) = 0 + 0; omega
      | ⟨1, _⟩ => by show p.val = 0 + p.val; omega)

/-- The flattened destination row, read at edge `p`. -/
theorem dstT_apply (ei : IVec S2x1600000 32) (p : Fin 1600000) :
    Cert.Sage.Host.dstT ei (ix1 p) = Cert.Sage.dstOf ei p := by
  unfold Cert.Sage.Host.dstT Cert.Sage.dstOf
  refine (shapeCast_apply _ shapeCasts_S1x1600000_S1600000 (ix1 p) (ix2 (0 : Fin 1) p)
    (by rewrite [Shape.rowMajor_val_two, Shape.rowMajor_val_one]; show 0 * 1600000 + p.val = p.val; omega)).trans ?_
  exact extractStridedSlice_apply ![1, 0] ei slices_S2x1600000_S1x1600000_1_0 (ix2 (0 : Fin 1) p) (ix2 (1 : Fin 2) p)
    (fun a => match a with
      | ⟨0, _⟩ => by show (1 : Nat) = 1 + 0; omega
      | ⟨1, _⟩ => by show p.val = 0 + p.val; omega)

/-- A sorted edge number counted from the end, read at position `e`. -/
theorem ordW_apply (ei : IVec S2x1600000 32) (e : Fin 1600000) :
    Cert.Sage.Host.ordW ei (ix1 e) = Cert.Sage.EdgeSort.wrapE (Cert.Sage.Host.ordT ei (ix1 e)) := by
  have h0 : broadcastInDim S1600000 ![] bcast_S_S1600000 (constantI S_ 32 0#32) (ix1 e) = 0#32 :=
    broadcastInDim_apply _ bcast_S_S1600000 (constantI S_ 32 0#32) (ix1 e) (fun a => a.elim0) (fun a => a.elim0)
  have h1 : broadcastInDim S1600000 ![] bcast_S_S1600000 (constantI S_ 32 1600000#32) (ix1 e) = 1600000#32 :=
    broadcastInDim_apply _ bcast_S_S1600000 (constantI S_ 32 1600000#32) (ix1 e) (fun a => a.elim0) (fun a => a.elim0)
  show Scalar.select (IntOp.cmpi .slt (Cert.Sage.Host.ordT ei (ix1 e))
        (broadcastInDim S1600000 ![] bcast_S_S1600000 (constantI S_ 32 0#32) (ix1 e)))
      (IntOp.addi (Cert.Sage.Host.ordT ei (ix1 e))
        (broadcastInDim S1600000 ![] bcast_S_S1600000 (constantI S_ 32 1600000#32) (ix1 e)))
      (Cert.Sage.Host.ordT ei (ix1 e)) = _
  rewrite [h0, h1]
  rfl

/-- The program's dimension numbers are the element gather's at the literal sizes. -/
theorem gatherRec_eq : gather_S1600000_S1600000x1_S1600000_n_0_n_n_0_1_1
    = Cert.Lib.Rows.gatherEltsDims 1600000 1600000 gather_S1600000_S1600000x1_S1600000_n_0_n_n_0_1_1_wf := rfl

/-- A row of the edge list read through the sorted numbers, at position `e`: the row at the clamped sorted number. -/
theorem gathered_apply (x : IVec S1600000 32) (ei : IVec S2x1600000 32) (e : Fin 1600000) :
    Host.gather gather_S1600000_S1600000x1_S1600000_n_0_n_n_0_1_1 x
        (broadcastInDim S1600000x1 ![0] bcast_S1600000_S1600000x1_0 (Cert.Sage.Host.ordW ei)) (ix1 e)
      = x (ix1 (Cert.Lib.Rows.rowOf 1600000 nE_pos (Cert.Sage.Host.ordW ei (ix1 e)))) := by
  have hb : broadcastInDim S1600000x1 ![0] bcast_S1600000_S1600000x1_0 (Cert.Sage.Host.ordW ei) (ix2 e (0 : Fin 1))
      = Cert.Sage.Host.ordW ei (ix1 e) :=
    broadcastInDim_apply _ bcast_S1600000_S1600000x1_0 (Cert.Sage.Host.ordW ei) (ix2 e (0 : Fin 1)) (ix1 e)
      (fun a => match a with
        | ⟨0, _⟩ => by show e.val = if (1600000 : Nat) = 1 then 0 else e.val; rw [if_neg (by decide)])
  rewrite [gatherRec_eq]
  refine (Cert.Lib.Rows.gatherElts_apply nE_pos gather_S1600000_S1600000x1_S1600000_n_0_n_n_0_1_1_wf x _ e).trans ?_
  rewrite [hb]
  rfl

/-- THE SORTED WORDS ARE THE EDGE LIST'S, REARRANGED: one bijection `π` of the edges serves both sorted rows. -/
theorem sorted_words (ei : IVec Cert.KernelIdeal.S2x1600000 32) :
    ∃ π : Fin 1600000 → Fin 1600000, Function.Bijective π
      ∧ (∀ e, Cert.Sage.Host.srcST ei (ix1 e) = Cert.Sage.srcOf ei (π e))
      ∧ (∀ e, Cert.Sage.Host.dstST ei (ix1 e) = Cert.Sage.dstOf ei (π e)) := by
  obtain ⟨π, hπ, h⟩ := Cert.Sage.EdgeSort.order_rows comparator_i32_i32_d0 (Cert.Sage.Host.dstT ei)
  have hrow : ∀ e : Fin 1600000,
      Cert.Lib.Rows.rowOf 1600000 nE_pos (Cert.Sage.Host.ordW ei (ix1 e)) = π e := fun e => by
    rewrite [ordW_apply]
    exact (h e).2 nE_pos
  refine ⟨π, hπ, fun e => ?_, fun e => ?_⟩
  · unfold Cert.Sage.Host.srcST
    rewrite [gathered_apply, hrow, srcT_apply]
    rfl
  · unfold Cert.Sage.Host.dstST
    rewrite [gathered_apply, hrow, dstT_apply]
    rfl

end Cert.Sage.HostWords

end
-- ==== Proof.LibWords.lean ====
/-
  The five 32-bit patterns the two programs spell, as the extended reals they denote: +0.0 is 0, 2.0 is the
  real 2, the all-ones exponent with a zero significand is +∞, 32768.0 = 2¹⁵ is the real 32768, and 1.0 is 1.
  A normal pattern with exponent field E and significand field T denotes (2²³ + T) · 2^(E − 127 − 23).
-/
import Idealize.ShloMosaic.PureOps.Ideal

noncomputable section

namespace Cert.Chamfer.Words

open Idealize.ShloMosaic

/-- +0.0 denotes 0. -/
theorem ofBits_zero : Ideal.ofBits .f32 0x00000000#32 = 0 := by
  simp [Ideal.ofBits, Ideal.ieee]

/-- 2.0: exponent field 128, significand field 0, so 2²³ · 2^(128 − 150) = 2. -/
theorem ofBits_two : Ideal.ofBits .f32 0x40000000#32 = ((2 : ℝ) : EReal) := by
  simp [Ideal.ofBits, Ideal.ieee, -EReal.coe_mul]; norm_num

/-- The all-ones exponent with a zero significand and a clear sign bit denotes +∞. -/
theorem ofBits_top : Ideal.ofBits .f32 0x7F800000#32 = ⊤ := by
  simp [Ideal.ofBits, Ideal.ieee]

/-- 32768.0: exponent field 142, significand field 0, so 2²³ · 2^(142 − 150) = 2¹⁵. -/
theorem ofBits_32768 : Ideal.ofBits .f32 0x47000000#32 = ((32768 : ℝ) : EReal) := by
  simp [Ideal.ofBits, Ideal.ieee, -EReal.coe_mul]; norm_num

/-- 1.0: exponent field 127, significand field 0, so 2²³ · 2^(127 − 150) = 1. -/
theorem ofBits_one : Ideal.ofBits .f32 0x3F800000#32 = 1 := by
  simp [Ideal.ofBits, Ideal.ieee, -EReal.coe_mul]; norm_num

end Cert.Chamfer.Words

end
-- ==== Proof.Edges.lean ====
/-
  The order in which the edges are listed does not matter.

  The sum of the source rows over the edges sent to a node, and the count of those edges, are sums over a set of edges
  picked out by a property of the edge alone.  Listing the edges in another order — composing both word lists with one
  and the same bijection of the edge numbers — moves the set along the bijection and leaves each summand with its edge,
  so both sums keep their value.  Multiplying a sum by the reciprocal of the (positive) edge count is dividing by it.
-/
import proofs.«164375_j16853451669719_2_alg».proof.Proof.Spec
import proofs.«164375_j16853451669719_2_alg».proof.Proof.LibWords
import Idealize.ShloMosaic.Lib.SortFacts

noncomputable section

namespace Cert.Sage.Edges

open Idealize.ShloMosaic Idealize.ShloMosaic.ValueIdx

/-- Edge `e` of the reordered list is sent to `n` exactly when edge `π e` of the original list is. -/
theorem mem_into_comp (π : Fin nE → Fin nE) (d : Fin nE → BitVec 32) (n : Fin nN) (e : Fin nE) :
    e ∈ Cert.Sage.into (d ∘ π) n ↔ π e ∈ Cert.Sage.into d n := by
  simp [Cert.Sage.into]

/-- A sum over the edges sent to `n`, after reordering the edge list along a bijection, is the sum before. -/
theorem sum_into_perm {M : Type} [AddCommMonoid M] (π : Fin nE → Fin nE) (hπ : Function.Bijective π)
    (d : Fin nE → BitVec 32) (n : Fin nN) (f : Fin nE → M) :
    ∑ e ∈ Cert.Sage.into (d ∘ π) n, f (π e) = ∑ e ∈ Cert.Sage.into d n, f e :=
  Finset.sum_equiv (Equiv.ofBijective π hπ) (fun e => mem_into_comp π d n e) (fun _ _ => rfl)

/-- The aggregated row does not depend on the order of the edges. -/
theorem aggr_perm (π : Fin nE → Fin nE) (hπ : Function.Bijective π) (s d : Fin nE → BitVec 32)
    (h : Fin nN → Fin 128 → EReal) (n : Fin nN) (k : Fin 128) :
    Cert.Sage.aggr (s ∘ π) (d ∘ π) h n k = Cert.Sage.aggr s d h n k := by
  unfold Cert.Sage.aggr
  exact congrArg (fun t => Cert.Sage.zero + t)
    (sum_into_perm π hπ d n (fun e => h (Cert.Sage.nodeOf (s e)) k))

/-- The edge count does not depend on the order of the edges. -/
theorem degr_perm (π : Fin nE → Fin nE) (hπ : Function.Bijective π) (d : Fin nE → BitVec 32) (n : Fin nN) :
    Cert.Sage.degr (d ∘ π) n = Cert.Sage.degr d n := by
  unfold Cert.Sage.degr
  exact congrArg (fun t => Cert.Sage.zero + t)
    (sum_into_perm π hπ d n (fun _ => Cert.Sage.one))

/-- The word spelled `1.0` is the number one. -/
theorem one_eq : Cert.Sage.one = 1 := Cert.Chamfer.Words.ofBits_one

/-- The word spelled `0.0` is the number zero. -/
theorem zero_eq : Cert.Sage.zero = 0 := Cert.Chamfer.Words.ofBits_zero

/-- A count floored at one is not zero. -/
theorem max_one_ne_zero (dg : EReal) : max dg Cert.Sage.one ≠ 0 := by
  rw [one_eq]
  have h1 : (1 : EReal) ≤ max dg 1 := le_max_right dg 1
  have h0 : (0 : EReal) < 1 := zero_lt_one
  exact (lt_of_lt_of_le h0 h1).ne'

/-- Multiplying by the reciprocal of the floored count is dividing by it. -/
theorem mean_eq (a : EReal) (dg : EReal) :
    a * Ideal.div Cert.Sage.one (max dg Cert.Sage.one) = Ideal.div a (max dg Cert.Sage.one) := by
  have hne := max_one_ne_zero dg
  unfold Ideal.div
  rw [if_neg hne, if_neg hne, one_eq, one_mul]

end Cert.Sage.Edges

end
-- ==== Proof.HostNet.lean ====
/-
  The network the kernel's host operations and tiled regions compute, array to array, is the specification's network.

  The kernel sorts the edges by destination first.  The aggregated rows and the edge counts are sums over the edges sent to
  a node, so they do not depend on the order of the edges; and multiplying an aggregated row by the reciprocal of the
  floored count is dividing by it.  So each layer of the kernel's arrays is the specification's layer of the edge list as
  given, and the layers compose.
-/
import proofs.«164375_j16853451669719_2_alg».proof.KernelIdeal
import proofs.«164375_j16853451669719_2_alg».proof.Proof.Gen.KernelIdeal
import proofs.«164375_j16853451669719_2_alg».proof.Proof.Spec
import proofs.«164375_j16853451669719_2_alg».proof.Proof.KernelNet
import proofs.«164375_j16853451669719_2_alg».proof.Proof.HostTerms
import proofs.«164375_j16853451669719_2_alg».proof.Proof.HostWords
import proofs.«164375_j16853451669719_2_alg».proof.Proof.Edges
import proofs.«164375_j16853451669719_2_alg».proof.Proof.NetOf

noncomputable section

namespace Cert.Sage.HostNet

open Cert.KernelIdeal Cert.KernelIdeal.Facts₀ Cert.KernelIdeal.Facts Idealize.ShloMosaic Idealize.ShloMosaic.ValueIdx Cert.Sage.Host

section
variable
  (hagg : ∀ (sS dS : IVec S1600000 32) (h : FVec Ideal S100000x128 .f32) (n : Fin 100000) (k : Fin 128),
    aggOf sS dS h (ix2 n k) = Cert.Sage.aggr (fun e => sS (ix1 e)) (fun e => dS (ix1 e)) (Cert.Sage.rd2 h) n k)
  (hinv : ∀ (ei : IVec S2x1600000 32) (n : Fin 100000),
    invT ei (ix2 n (0 : Fin 1)) = Ideal.div Cert.Sage.one (max (Cert.Sage.degr (fun e => dstST ei (ix1 e)) n) Cert.Sage.one))
  (hrow128 : ∀ (b : FVec Ideal S128 .f32) (a : Fin 128), row128 b (ix2 (0 : Fin 1) a) = b (ix1 a))
  (hrow16 : ∀ (b : FVec Ideal S16 .f32) (a : Fin 16), row16 b (ix2 (0 : Fin 1) a) = b (ix1 a))
include hagg hinv hrow128 hrow16

/-- THE MEAN ROW: the aggregated row times the reciprocal edge count, both read through the sorted edge words, is the
    specification's mean row of the edge list as given. -/
theorem mean_row (ei : IVec S2x1600000 32) (h : FVec Ideal S100000x128 .f32) (n : Fin 100000) (k : Fin 128) :
    aggOf (srcST ei) (dstST ei) h (ix2 n k) * invT ei (ix2 n (0 : Fin 1))
      = Ideal.div (Cert.Sage.aggr (Cert.Sage.srcOf ei) (Cert.Sage.dstOf ei) (Cert.Sage.rd2 h) n k)
          (max (Cert.Sage.degr (Cert.Sage.dstOf ei) n) Cert.Sage.one) := by
  obtain ⟨π, hπ, hs, hd⟩ := Cert.Sage.HostWords.sorted_words ei
  have es : (fun e => srcST ei (ix1 e)) = Cert.Sage.srcOf ei ∘ π := funext hs
  have ed : (fun e => dstST ei (ix1 e)) = Cert.Sage.dstOf ei ∘ π := funext hd
  rewrite [hagg, hinv, es, ed, Cert.Sage.Edges.mean_eq, Cert.Sage.Edges.aggr_perm π hπ, Cert.Sage.Edges.degr_perm π hπ]
  rfl

/-- One row of a layer of the kernel's arrays is the specification's. -/
theorem kLayer_row (ei : IVec S2x1600000 32) (h : FVec Ideal S100000x128 .f32) (Wl Wr : FVec Ideal S128x128 .f32)
    (bl g be mu v : FVec Ideal S128 .f32) (n : Fin 100000) (j : Fin 128) :
    Cert.Sage.denseRow (fun k => aggOf (srcST ei) (dstST ei) h (ix2 n k) * invT ei (ix2 n (0 : Fin 1))) (fun k => h (ix2 n k))
        (Cert.Sage.rd2 Wl) (Cert.Sage.rd2 Wr) (fun a => row128 bl (ix2 (0 : Fin 1) a)) (fun a => row128 g (ix2 (0 : Fin 1) a))
        (fun a => row128 be (ix2 (0 : Fin 1) a)) (fun a => row128 mu (ix2 (0 : Fin 1) a)) (fun a => row128 v (ix2 (0 : Fin 1) a)) j
      = Cert.Sage.layer (Cert.Sage.srcOf ei) (Cert.Sage.dstOf ei) (Cert.Sage.rd2 h) (Cert.Sage.rd2 Wl) (Cert.Sage.rd2 Wr)
          (Cert.Sage.rd1 bl) (Cert.Sage.rd1 g) (Cert.Sage.rd1 be) (Cert.Sage.rd1 mu) (Cert.Sage.rd1 v) n j := by
  unfold Cert.Sage.layer
  simp only [mean_row hagg hinv hrow128 hrow16, hrow128]
  rfl

/-- A layer of the kernel's arrays is the specification's layer. -/
theorem kLayer_eq (ei : IVec S2x1600000 32) (h : FVec Ideal S100000x128 .f32) (Wl Wr : FVec Ideal S128x128 .f32)
    (bl g be mu v : FVec Ideal S128 .f32) :
    Cert.Sage.kLayer (aggOf (srcST ei) (dstST ei) h) (invT ei) h Wl (row128 bl) Wr (row128 g) (row128 be) (row128 mu) (row128 v)
      = fun i => Cert.Sage.layer (Cert.Sage.srcOf ei) (Cert.Sage.dstOf ei) (Cert.Sage.rd2 h) (Cert.Sage.rd2 Wl) (Cert.Sage.rd2 Wr)
          (Cert.Sage.rd1 bl) (Cert.Sage.rd1 g) (Cert.Sage.rd1 be) (Cert.Sage.rd1 mu) (Cert.Sage.rd1 v) (i 0) (i 1) :=
  funext fun i => kLayer_row hagg hinv hrow128 hrow16 ei h Wl Wr bl g be mu v (i 0) (i 1)

/-- One row of the last layer and the head of the kernel's arrays is the specification's. -/
theorem kHead_row (ei : IVec S2x1600000 32) (h : FVec Ideal S100000x128 .f32) (Wl Wr : FVec Ideal S128x128 .f32)
    (bl g be mu v : FVec Ideal S128 .f32) (Wf : FVec Ideal S128x128 .f32) (bf : FVec Ideal S128 .f32)
    (Wc : FVec Ideal S128x16 .f32) (bc : FVec Ideal S16 .f32) (n : Fin 100000) (q : Fin 16) :
    Cert.Sage.headRow (fun a' => Cert.Sage.denseRow (fun k => aggOf (srcST ei) (dstST ei) h (ix2 n k) * invT ei (ix2 n (0 : Fin 1))) (fun k => h (ix2 n k))
        (Cert.Sage.rd2 Wl) (Cert.Sage.rd2 Wr) (fun a => row128 bl (ix2 (0 : Fin 1) a)) (fun a => row128 g (ix2 (0 : Fin 1) a))
        (fun a => row128 be (ix2 (0 : Fin 1) a)) (fun a => row128 mu (ix2 (0 : Fin 1) a)) (fun a => row128 v (ix2 (0 : Fin 1) a)) a')
        (Cert.Sage.rd2 Wf) (fun a => row128 bf (ix2 (0 : Fin 1) a)) (Cert.Sage.rd2 Wc) (fun a => row16 bc (ix2 (0 : Fin 1) a)) q
      = Cert.Sage.headRow (Cert.Sage.layer (Cert.Sage.srcOf ei) (Cert.Sage.dstOf ei) (Cert.Sage.rd2 h) (Cert.Sage.rd2 Wl) (Cert.Sage.rd2 Wr)
          (Cert.Sage.rd1 bl) (Cert.Sage.rd1 g) (Cert.Sage.rd1 be) (Cert.Sage.rd1 mu) (Cert.Sage.rd1 v) n)
          (Cert.Sage.rd2 Wf) (Cert.Sage.rd1 bf) (Cert.Sage.rd2 Wc) (Cert.Sage.rd1 bc) q := by
  simp only [kLayer_row hagg hinv hrow128 hrow16]
  simp only [hrow128, hrow16]
  rfl

/-- The last layer and the head of the kernel's arrays are the specification's. -/
theorem kHead_eq (ei : IVec S2x1600000 32) (h : FVec Ideal S100000x128 .f32) (Wl Wr : FVec Ideal S128x128 .f32)
    (bl g be mu v : FVec Ideal S128 .f32) (Wf : FVec Ideal S128x128 .f32) (bf : FVec Ideal S128 .f32)
    (Wc : FVec Ideal S128x16 .f32) (bc : FVec Ideal S16 .f32) :
    Cert.Sage.kHead (aggOf (srcST ei) (dstST ei) h) (invT ei) h Wl (row128 bl) Wr (row128 g) (row128 be) (row128 mu) (row128 v)
        Wf (row128 bf) Wc (row16 bc)
      = fun i => Cert.Sage.headRow (Cert.Sage.layer (Cert.Sage.srcOf ei) (Cert.Sage.dstOf ei) (Cert.Sage.rd2 h) (Cert.Sage.rd2 Wl) (Cert.Sage.rd2 Wr)
          (Cert.Sage.rd1 bl) (Cert.Sage.rd1 g) (Cert.Sage.rd1 be) (Cert.Sage.rd1 mu) (Cert.Sage.rd1 v) (i 0))
          (Cert.Sage.rd2 Wf) (Cert.Sage.rd1 bf) (Cert.Sage.rd2 Wc) (Cert.Sage.rd1 bc) (i 1) :=
  funext fun i => kHead_row hagg hinv hrow128 hrow16 ei h Wl Wr bl g be mu v Wf bf Wc bc (i 0) (i 1)

/-- THE KERNEL'S HOST-SIDE NETWORK IS THE SPECIFICATION'S: two layers and the last layer with the head, each on the arrays
    the host operations compute, give the network's result array. -/
theorem kNet_eq (x0 : FVec Ideal S100000x128 .f32) (x1 : IVec S2x1600000 32) (x2 : FVec Ideal S128x128 .f32) (x3 : FVec Ideal S128 .f32) (x4 : FVec Ideal S128x128 .f32) (x5 x6 x7 x8 : FVec Ideal S128 .f32) (x9 : FVec Ideal S128x128 .f32) (x10 : FVec Ideal S128 .f32) (x11 : FVec Ideal S128x128 .f32) (x12 x13 x14 x15 : FVec Ideal S128 .f32) (x16 : FVec Ideal S128x128 .f32) (x17 : FVec Ideal S128 .f32) (x18 : FVec Ideal S128x128 .f32) (x19 x20 x21 x22 : FVec Ideal S128 .f32) (x23 : FVec Ideal S128x128 .f32) (x24 : FVec Ideal S128 .f32) (x25 : FVec Ideal S128x16 .f32) (x26 : FVec Ideal S16 .f32) :
    Cert.Sage.kHead (aggOf (srcST x1) (dstST x1) (Cert.Sage.kLayer (aggOf (srcST x1) (dstST x1) (Cert.Sage.kLayer (aggOf (srcST x1) (dstST x1) x0) (invT x1) x0 x2 (row128 x3) x4 (row128 x5) (row128 x6) (row128 x7) (row128 x8))) (invT x1) (Cert.Sage.kLayer (aggOf (srcST x1) (dstST x1) x0) (invT x1) x0 x2 (row128 x3) x4 (row128 x5) (row128 x6) (row128 x7) (row128 x8)) x9 (row128 x10) x11 (row128 x12) (row128 x13) (row128 x14) (row128 x15))) (invT x1) (Cert.Sage.kLayer (aggOf (srcST x1) (dstST x1) (Cert.Sage.kLayer (aggOf (srcST x1) (dstST x1) x0) (invT x1) x0 x2 (row128 x3) x4 (row128 x5) (row128 x6) (row128 x7) (row128 x8))) (invT x1) (Cert.Sage.kLayer (aggOf (srcST x1) (dstST x1) x0) (invT x1) x0 x2 (row128 x3) x4 (row128 x5) (row128 x6) (row128 x7) (row128 x8)) x9 (row128 x10) x11 (row128 x12) (row128 x13) (row128 x14) (row128 x15))
        x16 (row128 x17) x18 (row128 x19) (row128 x20) (row128 x21) (row128 x22) x23 (row128 x24) x25 (row16 x26)
      = Cert.Sage.netArr x0 x1 x2 x3 x4 x5 x6 x7 x8 x9 x10 x11 x12 x13 x14 x15 x16 x17 x18 x19 x20 x21 x22 x23 x24 x25 x26 := by
  rewrite [kHead_eq hagg hinv hrow128 hrow16, kLayer_eq hagg hinv hrow128 hrow16, kLayer_eq hagg hinv hrow128 hrow16]
  rfl

end

end Cert.Sage.HostNet

end
-- ==== Proof.HostRead.lean ====
/-
  The host-side values of the idealized kernel, read entry by entry.

  The words of the edge list read through the stable order of the destinations are the words of the edge list itself
  read through a bijection of the edge numbers.  The sum the kernel accumulates into a node is the aggregated row of
  the mathematics, its count of ones is the edge count, and the column it scales by is one over that count floored at
  one.  A layer of the kernel, fed these, is therefore a layer of the mathematics on the edge list as given.
-/
import proofs.«164375_j16853451669719_2_alg».proof.Proof.HostTerms
import proofs.«164375_j16853451669719_2_alg».proof.Proof.KernelNet
import proofs.«164375_j16853451669719_2_alg».proof.Proof.Edges
import proofs.«164375_j16853451669719_2_alg».proof.Proof.EdgeSort
import proofs.«164375_j16853451669719_2_alg».proof.Proof.LibRows
import proofs.«164375_j16853451669719_2_alg».proof.Proof.LibWords
import Idealize.ShloMosaic.Lib.Pipeline.Value

noncomputable section

namespace Cert.Sage.HostRead

open Cert.KernelIdeal Cert.KernelIdeal.Facts₀ Cert.KernelIdeal.Facts Idealize.ShloMosaic Idealize.ShloMosaic.ValueIdx
open Cert.Sage.Host

/-! ## Layout operations at an index -/

/-- A list of `E` words laid out as a column, read at row `e`: word `e`. -/
theorem col_apply {E : Nat} {α : Type} (hb : (⟨1, ![E]⟩ : Shape).BroadcastsInDim ⟨2, ![E, 1]⟩ ![0])
    (v : (⟨1, ![E]⟩ : Shape).Idx → α) (e : Fin E) (z : Fin 1) :
    broadcastInDim (⟨2, ![E, 1]⟩ : Shape) ![0] hb v (ix2 e z) = v (ix1 e) := by
  refine broadcastInDim_apply _ hb v _ (ix1 e) (fun a => ?_)
  match a with
  | ⟨0, _⟩ =>
    show e.val = if E = 1 then 0 else e.val
    have := e.isLt
    split <;> omega

/-- A vector of length `n` laid out as one row, read at column `a`: entry `a`. -/
theorem row_apply {n : Nat} {α : Type} (hc : (⟨1, ![n]⟩ : Shape).ShapeCasts ⟨2, ![1, n]⟩)
    (b : (⟨1, ![n]⟩ : Shape).Idx → α) (z : Fin 1) (a : Fin n) :
    shapeCast (⟨2, ![1, n]⟩ : Shape) b hc (ix2 z a) = b (ix1 a) := by
  refine shapeCast_apply b hc _ (ix1 a) ?_
  rw [Shape.rowMajor_val_one, Shape.rowMajor_val_two]
  have := z.isLt
  show a.val = z.val * n + a.val
  have hz : z.val = 0 := by omega
  rw [hz]; omega

/-- A vector of length `n` laid out as one column, read at row `a`: entry `a`. -/
theorem colcast_apply {n : Nat} {α : Type} (hc : (⟨1, ![n]⟩ : Shape).ShapeCasts ⟨2, ![n, 1]⟩)
    (b : (⟨1, ![n]⟩ : Shape).Idx → α) (a : Fin n) (z : Fin 1) :
    shapeCast (⟨2, ![n, 1]⟩ : Shape) b hc (ix2 a z) = b (ix1 a) := by
  refine shapeCast_apply b hc _ (ix1 a) ?_
  rw [Shape.rowMajor_val_one, Shape.rowMajor_val_two]
  have := z.isLt
  show a.val = a.val * 1 + z.val
  omega

theorem row128_apply (b : FVec Ideal S128 .f32) (a : Fin 128) : row128 b (ix2 (0 : Fin 1) a) = b (ix1 a) :=
  row_apply shapeCasts_S128_S1x128 b 0 a

theorem row16_apply (b : FVec Ideal S16 .f32) (a : Fin 16) : row16 b (ix2 (0 : Fin 1) a) = b (ix1 a) :=
  row_apply shapeCasts_S16_S1x16 b 0 a

/-- Counting a source word from the end of the node table, entry by entry. -/
theorem wrapN_apply (sS : IVec S1600000 32) (e : Fin 1600000) : wrapN sS (ix1 e) = Cert.Sage.wrap (sS (ix1 e)) := rfl
/-- The edges a column of destination words sends to `n` are the edges the flat list of those words sends to `n`. -/
theorem edgesInto_col (dS : IVec S1600000 32) (n : Fin 100000) :
    Cert.Lib.Rows.edgesInto (broadcastInDim S1600000x1 ![0] bcast_S1600000_S1600000x1_0 dS) n
      = Cert.Sage.into (fun e => dS (ix1 e)) n := by
  unfold Cert.Lib.Rows.edgesInto Cert.Sage.into
  refine Finset.filter_congr (fun e _ => ?_)
  rw [col_apply bcast_S1600000_S1600000x1_0 dS e 0]
/-- THE SUM INTO A NODE: entry `(n, k)` of the kernel's accumulated table is the aggregated row of the mathematics. -/
theorem aggOf_apply (sS dS : IVec S1600000 32) (h : FVec Ideal S100000x128 .f32) (n : Fin 100000) (k : Fin 128) :
    aggOf sS dS h (ix2 n k)
      = Cert.Sage.aggr (fun e => sS (ix1 e)) (fun e => dS (ix1 e)) (Cert.Sage.rd2 h) n k := by
  have e1 : aggOf sS dS h = Ideal.hostScatterAdd (Cert.Lib.Rows.scatterRowsDims 100000 1600000 128
        scatter_S100000x128_S1600000x1_S1600000x128_1_0_0_1_wf)
      (broadcastInDim S100000x128 ![] bcast_S_S100000x128 (constant (F := Ideal) S_ .f32 0x00000000#32))
      (broadcastInDim S1600000x1 ![0] bcast_S1600000_S1600000x1_0 dS)
      (Host.gather (Cert.Lib.Rows.gatherRowsDims 100000 1600000 128
        gather_S100000x128_S1600000x1_S1600000x128_1_0_n_n_0_1_1128_wf) h
        (broadcastInDim S1600000x1 ![0] bcast_S1600000_S1600000x1_0 (wrapN sS))) := rfl
  refine (congrFun e1 (ix2 n k)).trans ?_
  rw [Cert.Lib.Rows.scatterAddRows_apply, edgesInto_col]
  unfold Cert.Sage.aggr
  refine congrArg₂ (· + ·) ?_ (Finset.sum_congr rfl (fun e _ => ?_))
  · rfl
  · rw [Cert.Lib.Rows.gatherRows_apply Cert.Sage.nN_pos, col_apply bcast_S1600000_S1600000x1_0 (wrapN sS) e 0,
      wrapN_apply]
    rfl

/-! ## The edge counts and their reciprocals -/

/-- A number spelled once and repeated over a whole table, read anywhere: that number. -/
theorem scalar_apply {t : Shape} (hb : S_.BroadcastsInDim t (![] : Fin 0 → Fin t.rank)) (b : BitVec 32) (j : t.Idx) :
    broadcastInDim t ![] hb (constant (F := Ideal) S_ .f32 b) j = Ideal.ofBits .f32 b := rfl

/-- The host's division, entry by entry. -/
theorem hostDivf_apply {s : Shape} (a b : FVec Ideal s .f32) (i : s.Idx) : Host.divf a b i = Ideal.div (a i) (b i) := rfl

/-- THE COUNT AT A NODE: entry `n` of the kernel's table of counts is the edge count of the mathematics, on the
    destination words in sorted order. -/
theorem degT_apply (ei : IVec S2x1600000 32) (n : Fin 100000) :
    degT ei (ix1 n) = Cert.Sage.degr (fun e => dstST ei (ix1 e)) n := by
  have e1 : degT ei = Ideal.hostScatterAdd (Cert.Lib.Rows.scatterEltsDims 100000 1600000
        scatter_S100000_S1600000x1_S1600000_n_0_0_1_wf)
      (broadcastInDim S100000 ![] bcast_S_S100000 (constant (F := Ideal) S_ .f32 0x00000000#32))
      (broadcastInDim S1600000x1 ![0] bcast_S1600000_S1600000x1_0 (dstST ei))
      (broadcastInDim S1600000 ![] bcast_S_S1600000 (constant (F := Ideal) S_ .f32 0x3F800000#32)) := rfl
  refine (congrFun e1 (ix1 n)).trans ?_
  rw [Cert.Lib.Rows.scatterAddElts_apply, edgesInto_col]
  unfold Cert.Sage.degr
  refine congrArg₂ (· + ·) ?_ (Finset.sum_congr rfl (fun e _ => ?_))
  · rfl
  · rfl

/-- THE SCALING COLUMN: row `n` of the kernel's column is one over the edge count floored at one. -/
theorem invT_apply (ei : IVec S2x1600000 32) (n : Fin 100000) :
    invT ei (ix2 n (0 : Fin 1))
      = Ideal.div Cert.Sage.one (max (Cert.Sage.degr (fun e => dstST ei (ix1 e)) n) Cert.Sage.one) := by
  have e1 : invT ei = shapeCast S100000x1
      (Host.divf (broadcastInDim S100000 ![] bcast_S_S100000 (constant (F := Ideal) S_ .f32 0x3F800000#32))
        (maximumf (degT ei) (broadcastInDim S100000 ![] bcast_S_S100000 (constant (F := Ideal) S_ .f32 0x3F800000#32))))
      shapeCasts_S100000_S100000x1 := rfl
  refine (congrFun e1 (ix2 n (0 : Fin 1))).trans ?_
  rw [colcast_apply shapeCasts_S100000_S100000x1 _ n 0, hostDivf_apply, maximumf_apply, scalar_apply, degT_apply]
  rfl

end Cert.Sage.HostRead

end
-- ==== Proof.KernelValue.lean ====
/-
  The idealized kernel's result array is the network of the specification applied to its arguments: the three tiled
  regions compute the three layers and the head over the edge list sorted by destination, and neither the sums into a node
  nor its edge count depend on the order of the edges.
-/
import proofs.«164375_j16853451669719_2_alg».proof.Proof.Fold8
import proofs.«164375_j16853451669719_2_alg».proof.Proof.HostNet
import proofs.«164375_j16853451669719_2_alg».proof.Proof.HostRead
import proofs.«164375_j16853451669719_2_alg».proof.Proof.NetOf

set_option maxRecDepth 16384

noncomputable section

namespace Cert.Sage.Fold

open Cert.KernelIdeal Cert.KernelIdeal.Gen Cert.Sage.Host
open Idealize.ShloMosaic Idealize.ShloMosaic.TcCoe Idealize.SL.Sem

/-- The result buffer at the last boundary of the kernel's run is the network's result array. -/
theorem kernel_value (m : (ℓ : Loc nD τ sig) → Buf (Elt Ideal) ℓ) (ρ : Dev nD → PrngReg) (c : Dev nD) :
    W8 (F := Ideal) m ρ c (Proc.devRef .tc main_v77)
      = Cert.Sage.netArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) :=
  (W8_v77 m ρ c).trans (Cert.Sage.HostNet.kNet_eq Cert.Sage.HostRead.aggOf_apply Cert.Sage.HostRead.invT_apply
    Cert.Sage.HostRead.row128_apply Cert.Sage.HostRead.row16_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)))

end Cert.Sage.Fold

end
-- ==== Proof.lean ====
/- A three-layer mean-aggregating graph convolution (batch normalisation by running statistics and a rectifier after
   every layer) followed by a two-layer perceptron head, on 100000 nodes and 1600000 edges: at the exact values the tiled
   kernel's result array and the reference program's result array are one function of the 27 argument arrays, the
   network `Cert.Sage.netArr`. Each program runs to the end without a fault and leaves its arguments as launched. -/
import proofs.«164375_j16853451669719_2_alg».proof.Defs
import proofs.«164375_j16853451669719_2_alg».proof.Proof.Gen.Kernel
import proofs.«164375_j16853451669719_2_alg».proof.Proof.Gen.Kernel.Skeleton
import proofs.«164375_j16853451669719_2_alg».proof.Proof.Gen.Kernel.Launch
import proofs.«164375_j16853451669719_2_alg».proof.Proof.Gen.Kernel.Points
import proofs.«164375_j16853451669719_2_alg».proof.Proof.Gen.Kernel.Frame
import proofs.«164375_j16853451669719_2_alg».proof.Proof.Gen.KernelIdeal
import proofs.«164375_j16853451669719_2_alg».proof.Proof.Gen.KernelIdeal.Skeleton
import proofs.«164375_j16853451669719_2_alg».proof.Proof.Gen.KernelIdeal.Launch
import proofs.«164375_j16853451669719_2_alg».proof.Proof.Gen.KernelIdeal.Points
import proofs.«164375_j16853451669719_2_alg».proof.Proof.Gen.KernelIdeal.Frame
import proofs.«164375_j16853451669719_2_alg».proof.Proof.Gen.ReferenceIdeal
import proofs.«164375_j16853451669719_2_alg».proof.Proof.Gen.Pre_finite_inputs
import proofs.«164375_j16853451669719_2_alg».proof.Proof.Gen.ReferenceIdeal.Run
import proofs.«164375_j16853451669719_2_alg».proof.Proof.Gen.ReferenceIdeal.Read
import proofs.«164375_j16853451669719_2_alg».proof.Proof.Claims
import proofs.«164375_j16853451669719_2_alg».proof.Proof.KernelValue
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    SageClaims.frame_p, SageClaims.frame_pi, SageClaims.frame_ri, SageClaims.preserves,
    SageClaims.algebraic_of Cert.Sage.Fold.kernel_value⟩

end Cert.Proof

end
